-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4x4096x4096 : Shape := ⟨3, ![4, 4096, 4096]⟩
abbrev S4x512x512 : Shape := ⟨3, ![4, 512, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S4x512x512 : S_.BroadcastsInDim S4x512x512 (![] : Fin 0 → Fin S4x512x512.rank)
  reducesTo_S4x512x512_S_d0_1_2 : S4x512x512.ReducesTo [0, 1, 2] S_

variable [Facts]

def fn {F : FTy → Type} [FloatOps F] (main_arg0 : FVec F S4096x512 .f32) (main_arg1 : FVec F S4x4096x4096 .f32) (main_arg2 : FVec F S4x512x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4x512x512 .f32 := Host.absf main_arg2
  let main_cst_2 : FVec F S_ .f32 := constant S_ .f32 0x7F800000#32
  let main_v10 : FVec F S4x512x512 .f32 := broadcastInDim S4x512x512 ![] bcast_S_S4x512x512 main_cst_2
  let main_v11 : IVec S4x512x512 1 := cmpf .olt main_v9 main_v10
  let main_c_3 : IVec S_ 1 := constantI S_ 1 1#1
  let main_v12 : IVec S_ 1 := (fun x v => Host.reduce IntOp.andi x v reducesTo_S4x512x512_S_d0_1_2 h_S_) main_v11 main_c_3
  let main_v13 : IVec S_ 1 := andi main_v8 main_v12
  main_v13
-- ==== Kernel.lean ====
abbrev S4096x512 : Shape := ⟨2, ![4096, 512]⟩
abbrev S4x4096x4096 : Shape := ⟨3, ![4, 4096, 4096]⟩
abbrev S4x512x512 : Shape := ⟨3, ![4, 512, 512]⟩
abbrev S512x512 : Shape := ⟨2, ![512, 512]⟩
abbrev S1x512x4096 : Shape := ⟨3, ![1, 512, 4096]⟩
abbrev S1x512x512 : Shape := ⟨3, ![1, 512, 512]⟩
abbrev S512x4096 : Shape := ⟨2, ![512, 4096]⟩

abbrev nBuf : Space → Nat
  | .hbm => 7
  | .vmem => 36
  | .smem => 0
  | _ => 0

abbrev bufTy : (tb : Table) → Fin (tcTables nBuf tb) → BufTy
  | .hbm, ⟨0, _⟩ => ⟨S4096x512, .f32⟩
  | .hbm, ⟨1, _⟩ => ⟨S4x4096x4096, .f32⟩
  | .hbm, ⟨2, _⟩ => ⟨S4x512x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .local _ .vmem, ⟨0, _⟩ => ⟨S4096x512, .f32⟩
  | .local _ .vmem, ⟨1, _⟩ => ⟨S512x512, .f32⟩
  | .local _ .vmem, ⟨2, _⟩ => ⟨S512x512, .f32⟩
  | .local _ .vmem, ⟨3, _⟩ => ⟨S1x512x4096, .f32⟩
  | .local _ .vmem, ⟨4, _⟩ => ⟨S1x512x4096, .f32⟩
  | .local _ .vmem, ⟨5, _⟩ => ⟨S1x512x512, .f32⟩
  | .local _ .vmem, ⟨6, _⟩ => ⟨S512x512, .f32⟩
  | .local _ .vmem, ⟨7, _⟩ => ⟨S512x512, .f32⟩
  | .local _ .vmem, ⟨8, _⟩ => ⟨S4096x512, .bf16⟩
  | .local _ .vmem, ⟨9, _⟩ => ⟨S4096x512, .f32⟩
  | .local _ .vmem, ⟨10, _⟩ => ⟨S512x512, .f32⟩
  | .local _ .vmem, ⟨11, _⟩ => ⟨S512x512, .f32⟩
  | .local _ .vmem, ⟨12, _⟩ => ⟨S1x512x4096, .f32⟩
  | .local _ .vmem, ⟨13, _⟩ => ⟨S1x512x4096, .f32⟩
  | .local _ .vmem, ⟨14, _⟩ => ⟨S1x512x512, .f32⟩
  | .local _ .vmem, ⟨15, _⟩ => ⟨S512x512, .f32⟩
  | .local _ .vmem, ⟨16, _⟩ => ⟨S512x512, .f32⟩
  | .local _ .vmem, ⟨17, _⟩ => ⟨S4096x512, .bf16⟩
  | .local _ .vmem, ⟨18, _⟩ => ⟨S4096x512, .f32⟩
  | .local _ .vmem, ⟨19, _⟩ => ⟨S512x512, .f32⟩
  | .local _ .vmem, ⟨20, _⟩ => ⟨S512x512, .f32⟩
  | .local _ .vmem, ⟨21, _⟩ => ⟨S1x512x4096, .f32⟩
  | .local _ .vmem, ⟨22, _⟩ => ⟨S1x512x4096, .f32⟩
  | .local _ .vmem, ⟨23, _⟩ => ⟨S1x512x512, .f32⟩
  | .local _ .vmem, ⟨24, _⟩ => ⟨S512x512, .f32⟩
  | .local _ .vmem, ⟨25, _⟩ => ⟨S512x512, .f32⟩
  | .local _ .vmem, ⟨26, _⟩ => ⟨S4096x512, .bf16⟩
  | .local _ .vmem, ⟨27, _⟩ => ⟨S4096x512, .f32⟩
  | .local _ .vmem, ⟨28, _⟩ => ⟨S512x512, .f32⟩
  | .local _ .vmem, ⟨29, _⟩ => ⟨S512x512, .f32⟩
  | .local _ .vmem, ⟨30, _⟩ => ⟨S1x512x4096, .f32⟩
  | .local _ .vmem, ⟨31, _⟩ => ⟨S1x512x4096, .f32⟩
  | .local _ .vmem, ⟨32, _⟩ => ⟨S1x512x512, .f32⟩
  | .local _ .vmem, ⟨33, _⟩ => ⟨S512x512, .f32⟩
  | .local _ .vmem, ⟨34, _⟩ => ⟨S512x512, .f32⟩
  | .local _ .vmem, ⟨35, _⟩ => ⟨S4096x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg4_1 : Ref sig .tc := ⟨.vmem, 34, rfl⟩
abbrev cc3_scratch0 : Ref sig .tc := ⟨.vmem, 35, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4096x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_3 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S4096x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_3 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S4096x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x512x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S4096x512_S4096x512 : S4096x512.ShapeCasts S4096x512
  packedbf16_S4096x512_S4096x512_0_0 : (Rect.unit (s := S4096x512) ![0, 0] S4096x512.size inb_S4096x512_S4096x512_0_0).PackedRows (EltTy.packing .bf16)
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S4096x512_S512x512_S4096x512_1_0_0_1_n_n_wf : DotDims.WF S4096x512 S512x512 S4096x512 [1] [0] [0] [1] [] []
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .f32 = 32 ∨ (Rect.block (s := S4096x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S4x4096x4096.size a
  hwx0_2 : ∀ i : grid0.Coords, EltTy.bits .f32 = 32 ∨ (Rect.block (s := S4x4096x4096) S1x512x4096.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S4x512x512.size a
  hwx0_3 : ∀ i : grid0.Coords, EltTy.bits .f32 = 32 ∨ (Rect.block (s := S4x512x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x512.size a
  hwx0_4 : ∀ i : grid0.Coords, EltTy.bits .f32 = 32 ∨ (Rect.block (s := S4096x512) S512x512.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S4096x512.size a
  hwx1_0 : ∀ i : grid1.Coords, EltTy.bits .f32 = 32 ∨ (Rect.block (s := S4096x512) S4096x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x512.size a
  hwx1_1 : ∀ i : grid1.Coords, EltTy.bits .f32 = 32 ∨ (Rect.block (s := S4096x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x4096.size a ≤ S4x4096x4096.size a
  hwx1_2 : ∀ i : grid1.Coords, EltTy.bits .f32 = 32 ∨ (Rect.block (s := S4x4096x4096) S1x512x4096.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S1x512x512.size a ≤ S4x512x512.size a
  hwx1_3 : ∀ i : grid1.Coords, EltTy.bits .f32 = 32 ∨ (Rect.block (s := S4x512x512) S1x512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S4096x512.size a
  hwx1_4 : ∀ i : grid1.Coords, EltTy.bits .f32 = 32 ∨ (Rect.block (s := S4096x512) S512x512.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4096x512.size a ≤ S4096x512.size a
  hwx2_0 : ∀ i : grid2.Coords, EltTy.bits .f32 = 32 ∨ (Rect.block (s := S4096x512) S4096x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S4096x512.size a
  hwx2_1 : ∀ i : grid2.Coords, EltTy.bits .f32 = 32 ∨ (Rect.block (s := S4096x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x4096.size a ≤ S4x4096x4096.size a
  hwx2_2 : ∀ i : grid2.Coords, EltTy.bits .f32 = 32 ∨ (Rect.block (s := S4x4096x4096) S1x512x4096.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S1x512x512.size a ≤ S4x512x512.size a
  hwx2_3 : ∀ i : grid2.Coords, EltTy.bits .f32 = 32 ∨ (Rect.block (s := S4x512x512) S1x512x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S4096x512.size a
  hwx2_4 : ∀ i : grid2.Coords, EltTy.bits .f32 = 32 ∨ (Rect.block (s := S4096x512) S512x512.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S4096x512.size a ≤ S4096x512.size a
  hwx3_0 : ∀ i : grid3.Coords, EltTy.bits .f32 = 32 ∨ (Rect.block (s := S4096x512) S4096x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S4096x512.size a
  hwx3_1 : ∀ i : grid3.Coords, EltTy.bits .f32 = 32 ∨ (Rect.block (s := S4096x512) S512x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512x4096.size a ≤ S4x4096x4096.size a
  hwx3_2 : ∀ i : grid3.Coords, EltTy.bits .f32 = 32 ∨ (Rect.block (s := S4x4096x4096) S1x512x4096.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S1x512x512.size a ≤ S4x512x512.size a
  hwx3_3 : ∀ i : grid3.Coords, EltTy.bits .f32 = 32 ∨ (Rect.block (s := S4x512x512) S1x512x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S4096x512.size a
  hwx3_4 : ∀ i : grid3.Coords, EltTy.bits .f32 = 32 ∨ (Rect.block (s := S4096x512) S512x512.size (cc3_transform_4 i) (hinb3_4 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_arg0) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x512x512.size cc0_transform_3 reads0_3 false false 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v0) S4096x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x512x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S1x512x512.size cc1_transform_3 reads1_3 false false 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v1) S512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v1) S4096x512.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_call0_v1) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S1x512x4096.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S1x512x512.size cc2_transform_3 reads2_3 false false 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v2) S512x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_call0_v2) S4096x512.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_call0_v2) S512x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg1) S1x512x4096.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg2) S1x512x512.size cc3_transform_3 reads3_3 false false 1 stage3_3 sem3_3
    hrank3 hreads3_3 hinb3_3 nbuf3_3 (Memref.isWhole_whole _) hwx3_3 hstage3_3

abbrev win3_4 : Pipeline.Window sig grid3 :=
  Pipeline.Window.ofSpec (Memref.whole main_v0) S512x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S4096x512 : Shape := ⟨2, ![4096, 512]⟩
abbrev S4x4096x4096 : Shape := ⟨3, ![4, 4096, 4096]⟩
abbrev S4x512x512 : Shape := ⟨3, ![4, 512, 512]⟩
abbrev S1x512x512 : Shape := ⟨3, ![1, 512, 512]⟩
abbrev S512x512 : Shape := ⟨2, ![512, 512]⟩
abbrev S1x4096x4096 : Shape := ⟨3, ![1, 4096, 4096]⟩
abbrev S4096x4096 : Shape := ⟨2, ![4096, 4096]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4x4096x4096, .f32⟩
  | .hbm, ⟨2, _⟩ => ⟨S4x512x512, .f32⟩
  | .hbm, ⟨3, _⟩ => ⟨S1x512x512, .f32⟩
  | .hbm, ⟨4, _⟩ => ⟨S512x512, .f32⟩
  | .hbm, ⟨5, _⟩ => ⟨S4096x512, .f32⟩
  | .hbm, ⟨6, _⟩ => ⟨S1x4096x4096, .f32⟩
  | .hbm, ⟨7, _⟩ => ⟨S4096x4096, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S1x512x512, .f32⟩
  | .hbm, ⟨20, _⟩ => ⟨S512x512, .f32⟩
  | .hbm, ⟨21, _⟩ => ⟨S4096x512, .f32⟩
  | .hbm, ⟨22, _⟩ => ⟨S1x4096x4096, .f32⟩
  | .hbm, ⟨23, _⟩ => ⟨S4096x4096, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S1x512x512, .f32⟩
  | .hbm, ⟨36, _⟩ => ⟨S512x512, .f32⟩
  | .hbm, ⟨37, _⟩ => ⟨S4096x512, .f32⟩
  | .hbm, ⟨38, _⟩ => ⟨S1x4096x4096, .f32⟩
  | .hbm, ⟨39, _⟩ => ⟨S4096x4096, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S_, .f32⟩
  | .hbm, ⟨49, _⟩ => ⟨S4096x512, .f32⟩
  | .hbm, ⟨50, _⟩ => ⟨S4096x512, .f32⟩
  | .hbm, ⟨51, _⟩ => ⟨S1x512x512, .f32⟩
  | .hbm, ⟨52, _⟩ => ⟨S512x512, .f32⟩
  | .hbm, ⟨53, _⟩ => ⟨S4096x512, .f32⟩
  | .hbm, ⟨54, _⟩ => ⟨S1x4096x4096, .f32⟩
  | .hbm, ⟨55, _⟩ => ⟨S4096x4096, .f32⟩
  | .hbm, ⟨56, _⟩ => ⟨S4096x512, .f32⟩
  | .hbm, ⟨57, _⟩ => ⟨S_, .f32⟩
  | .hbm, ⟨58, _⟩ => ⟨S4096x512, .f32⟩
  | .hbm, ⟨59, _⟩ => ⟨S4096x512, .f32⟩
  | .hbm, ⟨60, _⟩ => ⟨S_, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S_, .f32⟩
  | .hbm, ⟨65, _⟩ => ⟨S4096x512, .f32⟩
  | .hbm, ⟨66, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_cst : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call1_cst : Ref sig .tc := ⟨.hbm, 32, rfl⟩
abbrev main_call1_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call2_cst : Ref sig .tc := ⟨.hbm, 48, rfl⟩
abbrev main_call2_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call3_cst : Ref sig .tc := ⟨.hbm, 64, rfl⟩
abbrev main_call3_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S4x512x512_S1x512x512_0_0_0 : S4x512x512.Slices ![0, 0, 0] S1x512x512
  shapeCasts_S1x512x512_S512x512 : S1x512x512.ShapeCasts S512x512
  slices_S4x4096x4096_S1x4096x4096_0_0_0 : S4x4096x4096.Slices ![0, 0, 0] S1x4096x4096
  shapeCasts_S1x4096x4096_S4096x4096 : S1x4096x4096.ShapeCasts S4096x4096
  bcast_S_S4096x512 : S_.BroadcastsInDim S4096x512 (![] : Fin 0 → Fin S4096x512.rank)
  slices_S4x512x512_S1x512x512_1_0_0 : S4x512x512.Slices ![1, 0, 0] S1x512x512
  slices_S4x4096x4096_S1x4096x4096_1_0_0 : S4x4096x4096.Slices ![1, 0, 0] S1x4096x4096
  slices_S4x512x512_S1x512x512_2_0_0 : S4x512x512.Slices ![2, 0, 0] S1x512x512
  slices_S4x4096x4096_S1x4096x4096_2_0_0 : S4x4096x4096.Slices ![2, 0, 0] S1x4096x4096
  slices_S4x512x512_S1x512x512_3_0_0 : S4x512x512.Slices ![3, 0, 0] S1x512x512
  slices_S4x4096x4096_S1x4096x4096_3_0_0 : S4x4096x4096.Slices ![3, 0, 0] S1x4096x4096
  dot_S4096x512_S512x512_S4096x512_1_0_0_1_n_n_wf : DotDims.WF S4096x512 S512x512 S4096x512 [1] [0] [0] [1] [] []
  dot_S4096x4096_S4096x512_S4096x512_1_0_0_1_n_n_wf : DotDims.WF S4096x4096 S4096x512 S4096x512 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf

class Facts : Prop extends Facts₀ where

variable [Facts]
-- ==== Proof.KbBody0.lean ====
/-
  The body of layer 0's kernel, run once in each of its two cases.

  At the first grid point the body forms the dense transform of the whole feature array by the layer's weight block,
  keeps it in its scratch array, and then, as at every later point, multiplies the point's block of 512 rows of the
  propagation matrix by the kept transform, halves it, adds half the block of features and takes the maximum with zero.
  Both runs are stated over whole buffers at named contents: the four inputs come back as they were, the output block
  ends at the block payload of the inputs and the kept transform, and the scratch ends at the transform (first point)
  or as it was (later points). What the body loads from the output block and, at the first point, from the scratch
  before storing is not used, so those two buffers may hold anything on entry.
-/
import proofs.«138473_g71811853189805_cont_9to1_m_833_2_alg».proof.Proof.Gen.Kernel.Launch
import proofs.«138473_g71811853189805_cont_9to1_m_833_2_alg».proof.Proof.Gen.Kernel.Skeleton
import proofs.«138473_g71811853189805_cont_9to1_m_833_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two ways the whole-buffer offsets are spelt are the zero offsets. -/
private theorem hz2 : (![0, 0] : Fin 2 → Nat) = fun _ => 0 := by funext a; match a with | ⟨0, _⟩ => rfl | ⟨1, _⟩ => rfl
private theorem hz3 : (![0, 0, 0] : Fin 3 → Nat) = fun _ => 0 := by funext a; match a with | ⟨0, _⟩ => rfl | ⟨1, _⟩ => rfl | ⟨2, _⟩ => rfl

/-- "This is the first grid point", as the body tests it: the point's coordinate compared with zero, widened, and
    compared with zero again. -/
abbrev first0 (i : grid0.Coords) : Prop := (Scalar.cmpi .ne (Scalar.extui (Scalar.cmpi .eq (BitVec.ofNat 32 (i 0).val) 0#32)) 0#32) = 1#1

set_option maxHeartbeats 1000000 in
/-- The body at the first point: the scratch ends at the transform of the whole features by the weight block, and the
    output block at the block payload over that transform. -/
theorem run_first0 (c : Dev nD) (E : Set ℕ) (i : grid0.Coords) (hc : first0 i)
    (arg1 : Memref sig .tc .vmem S4096x512 .f32) (harg1 : arg1.IsWhole) (arg2 : Memref sig .tc .vmem S512x512 .f32) (harg2 : arg2.IsWhole)
    (arg3 : Memref sig .tc .vmem S1x512x4096 .f32) (harg3 : arg3.IsWhole) (arg4 : Memref sig .tc .vmem S1x512x512 .f32) (harg4 : arg4.IsWhole)
    (arg5 : Memref sig .tc .vmem S512x512 .f32) (harg5 : arg5.IsWhole) (arg6 : Memref sig .tc .vmem S4096x512 .bf16) (harg6 : arg6.IsWhole)
    (x1 : Vec F S4096x512 .f32) (x2 : Vec F S512x512 .f32) (x3 : Vec F S1x512x4096 .f32) (x4 : Vec F S1x512x512 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay2 x3 (k0_pay1 x1 x4) x2)
            ∗ owns (c : Thread nD τ) arg6 fullShare (k0_pay1 x1 x4)) -∗ K ⟨⟩))
      ⊢ wp frame (wpE (defs₀ (F := F)) Variants.none c none) E (cc0__layer_kernel i arg1 harg1 arg2 harg2 arg3 harg3 arg4 harg4 arg5 harg5 arg6 harg6) K := by
  simp only [cc0__layer_kernel_eq_skeleton]; unfold cc0__layer_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (fun y => ⟨_, List.mem_singleton_self _, View.mem_set_unit_zero hz2 inb_S512x512_S512x512_0_0 y⟩), View.canon_unit_zero hz2]
    sl_unfold_words
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]
  · iexists _; isplitr
    swap; · iexact H6
    ipureintro
    sl_unfold_words
    rw [View.read_writes_eq_canon _ _ _ (fun y => ⟨_, List.mem_singleton_self _, View.mem_set_unit_zero hz2 inb_S4096x512_S4096x512_0_0 y⟩), View.canon_unit_zero hz2]
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]

set_option maxHeartbeats 1000000 in
/-- The body at a later point: the scratch, holding `T`, is read and left as it was, and the output block ends at the
    block payload over `T`. -/
theorem run_later0 (c : Dev nD) (E : Set ℕ) (i : grid0.Coords) (hc : ¬ first0 i)
    (arg1 : Memref sig .tc .vmem S4096x512 .f32) (harg1 : arg1.IsWhole) (arg2 : Memref sig .tc .vmem S512x512 .f32) (harg2 : arg2.IsWhole)
    (arg3 : Memref sig .tc .vmem S1x512x4096 .f32) (harg3 : arg3.IsWhole) (arg4 : Memref sig .tc .vmem S1x512x512 .f32) (harg4 : arg4.IsWhole)
    (arg5 : Memref sig .tc .vmem S512x512 .f32) (harg5 : arg5.IsWhole) (arg6 : Memref sig .tc .vmem S4096x512 .bf16) (harg6 : arg6.IsWhole)
    (x1 : Vec F S4096x512 .f32) (x2 : Vec F S512x512 .f32) (x3 : Vec F S1x512x4096 .f32) (x4 : Vec F S1x512x512 .f32)
    (T : Vec F S4096x512 .bf16) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ owns (c : Thread nD τ) arg6 fullShare T
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay2 x3 T x2)
            ∗ owns (c : Thread nD τ) arg6 fullShare T) -∗ K ⟨⟩))
      ⊢ wp frame (wpE (defs₀ (F := F)) Variants.none c none) E (cc0__layer_kernel i arg1 harg1 arg2 harg2 arg3 harg3 arg4 harg4 arg5 harg5 arg6 harg6) K := by
  simp only [cc0__layer_kernel_eq_skeleton]; unfold cc0__layer_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1 hf2 hf3 hf4 hf6
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (fun y => ⟨_, List.mem_singleton_self _, View.mem_set_unit_zero hz2 inb_S512x512_S512x512_0_0 y⟩), View.canon_unit_zero hz2]
    sl_unfold_words
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]
  · iexists f6; isplitr; · ipureintro; rfl
    iexact H6

end Cert.Kernel.Hand

end
-- ==== Proof.KbDat0.lean ====
/-
  Layer 0's kernel over its grid of eight row blocks: what every buffer holds between grid points.

  The layer reads the feature array through two windows — whole, for the dense transform formed once at the first
  point, and block by block, for the half that is added back — so the two windows hold that array at complementary
  shares. Each input window's buffer holds its block of the array at every point. The scratch holds anything before the
  first point and the transform of the whole features by the layer's weights from then on; the output window's buffer
  holds, after point t, the block payload of the t-th row block of the propagation matrix, the kept transform and
  the t-th block of features. With that the body's two runs give the obligation at every point.
-/
import proofs.«138473_g71811853189805_cont_9to1_m_833_2_alg».proof.Proof.KbBody0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the layer finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: where it is not fetched again
    its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not: where it is not fetched again
    its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not: where it is not fetched again
    its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not: where it is not fetched again
    its block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The test the body makes holds at the first point only. -/
theorem hfirst0 : ∀ t : Fin cfg0.N, first0 (grid0.coords t) ↔ t.val = 0 :=
  (by decide +kernel : ∀ t : Fin grid0.N, first0 (grid0.coords t) ↔ t.val = 0)

/-- What the scratch keeps from the first point on: the dense transform of the whole feature array by the layer's
    weight block. -/
def kept0 (c : Dev nD) : Vec F S4096x512 .bf16 := k0_pay1 (iblk0 V c 0 t0_0) (iblk0 V c 3 t0_0)

/-- The layer's data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (iblk0 V c 2 t) (kept0 V c) (iblk0 V c 1 t)
  Φ t := iprop(Pipeline.scopedRestBut (Ix := Unit) (Name := ℕ) (U := UR sig nD τ) (Lvl := ℕ) (Val := Elt F) spec0 c [cc0_scratch0]
    ∗ (if t.val = 0 then iprop(∃ X, owns (c : Thread nD τ) (Memref.whole cc0_scratch0) fullShare X)
       else owns (c : Thread nD τ) (Memref.whole cc0_scratch0) fullShare (kept0 V c)))
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay2 (iblk0 V c 2 t) (kept0 V c) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- The invariant before the first point: the scratch at anything. -/
theorem inv0_first (c : Dev nD) (t : Fin (cfg0.N + 1)) (h : t.val = 0) :
    (dat0 V c).Φ t = iprop(Pipeline.scopedRestBut (Ix := Unit) (Name := ℕ) (U := UR sig nD τ) (Lvl := ℕ) (Val := Elt F) spec0 c [cc0_scratch0]
      ∗ ∃ X, owns (c : Thread nD τ) (Memref.whole cc0_scratch0) fullShare X) := by
  dsimp only [dat0]; rw [if_pos h]
/-- The invariant after any point: the scratch at the kept transform. -/
theorem inv0_later (c : Dev nD) (t : Fin (cfg0.N + 1)) (h : t.val ≠ 0) :
    (dat0 V c).Φ t = iprop(Pipeline.scopedRestBut (Ix := Unit) (Name := ℕ) (U := UR sig nD τ) (Lvl := ℕ) (Val := Elt F) spec0 c [cc0_scratch0]
      ∗ owns (c : Thread nD τ) (Memref.whole cc0_scratch0) fullShare (kept0 V c)) := by
  dsimp only [dat0]; rw [if_neg h]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: at the first point the run that forms the transform, at the others the run that reads it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4,
    inv0_later V c t.succ (by rw [Fin.val_succ]; exact Nat.succ_ne_zero _)]
  by_cases ht : t.val = 0
  · have hc : first0 (grid0.coords t) := (hfirst0 t).mpr ht
    have hk : kept0 V c = k0_pay1 (iblk0 V c 0 t) (iblk0 V c 3 t) := by
      have e : t = t0_0 := Fin.ext ht
      rw [e]; rfl
    rw [inv0_first V c t.castSucc (by rw [Fin.coe_castSucc]; exact ht), hk]
    iintro ⟨⟨Hr, Hs⟩, Ho, ⟨%d0, H0⟩, ⟨%d1, H1⟩, ⟨%d2, H2⟩, ⟨%d3, H3⟩, ⟨%d4, H4⟩⟩
    iapply (run_first0 c Set.univ (grid0.coords t) hc _ _ _ _ _ _ _ _ _ _ _ _ (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hr Hs]
    · isplitl [Hr]; · iexact Hr
      iexact Hs
    isplitl [Ho]; · iexact Ho
    isplitl [H0]; · iexact H0
    isplitl [H1]; · iexact H1
    isplitl [H2]; · iexact H2
    isplitl [H3]; · iexact H3
    iexact H4
  · have hc : ¬ first0 (grid0.coords t) := fun h => ht ((hfirst0 t).mp h)
    rw [inv0_later V c t.castSucc (by rw [Fin.coe_castSucc]; exact ht)]
    iintro ⟨⟨Hr, Hs⟩, Ho, ⟨%d0, H0⟩, ⟨%d1, H1⟩, ⟨%d2, H2⟩, ⟨%d3, H3⟩, ⟨%d4, H4⟩⟩
    iapply (run_later0 c Set.univ (grid0.coords t) hc _ _ _ _ _ _ _ _ _ _ _ _ (iblk0 V c 0 t) (iblk0 V c 1 t) (iblk0 V c 2 t) (iblk0 V c 3 t) (kept0 V c) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hr Hs]
    · isplitl [Hr]; · iexact Hr
      iexact Hs
    isplitl [Ho]; · iexact Ho
    isplitl [H0]; · iexact H0
    isplitl [H1]; · iexact H1
    isplitl [H2]; · iexact H2
    isplitl [H3]; · iexact H3
    iexact H4

/-- The body's obligation at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.KbArr0.lean ====
/-
  Layer 0's arrays on the way into and out of the layer.

  The layer's five windows stand on four arrays: the feature array (twice), the propagation matrices, the weights and the
  layer's result. Going in, the feature array's full share is dealt to its two windows as the left and the right half;
  coming out, the two halves — both still at the contents the layer found, since no input is written — are joined
  again, and the result array holds what the eight write-backs left. Every other buffer is untouched.
-/
import proofs.«138473_g71811853189805_cont_9to1_m_833_2_alg».proof.Proof.KbDat0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The four arrays behind the layer's five windows. -/
theorem arrRefs0 : Finset.univ.image (Pipeline.arrRef spec0) = {main_arg0, main_arg1, main_arg2, main_call0_v0} := by decide

/-- Those four buffers, each whole at the full share. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop(((((c : Thread nD τ).loc main_arg0)) ↦{fullShare} W main_arg0) ∗ ((((c : Thread nD τ).loc main_arg1)) ↦{fullShare} W main_arg1)
          ∗ ((((c : Thread nD τ).loc main_arg2)) ↦{fullShare} W main_arg2) ∗ ((((c : Thread nD τ).loc main_call0_v0)) ↦{fullShare} W main_call0_v0)) := by
  unfold Pipeline.arrBufs
  rw [arrRefs0, BI.bigSep_insert (by decide), BI.bigSep_insert (by decide), BI.bigSep_insert (by decide), BI.bigSep_singleton]
  rfl

/-- The windows' arrays at their shares: the feature array's two windows at the two halves. -/
theorem arrays0_eq (c : Dev nD) (G : (w : Fin cfg0.W) → Buf (Elt F) ((cfg0.win w).arr.view.loc (c : Thread nD τ))) :
    ((dat0 V c).arrays G : sProp 𝕄)
      = iprop(((((c : Thread nD τ).loc main_arg0)) ↦{fullShare.left} G 0) ∗ ((((c : Thread nD τ).loc main_arg0)) ↦{fullShare.right} G 1)
          ∗ ((((c : Thread nD τ).loc main_arg1)) ↦{fullShare} G 2) ∗ ((((c : Thread nD τ).loc main_arg2)) ↦{fullShare} G 3) ∗ ((((c : Thread nD τ).loc main_call0_v0)) ↦{fullShare} G 4)) := by
  unfold Dat.arrays
  rw [bigSep_W0, (arr_whole0 0).set_eq_univ, (arr_whole0 2).set_eq_univ,
    (arr_whole0 3).set_eq_univ, (arr_whole0 4).set_eq_univ]
  rfl

/-- Going in: the core's unscoped buffers are the layer's arrays as it finds them, and the rest. -/
theorem enter0 (c : Dev nD) :
    (unscopedBufs c (V c) : sProp 𝕄)
      ⊢ iprop((dat0 V c).arrays ((dat0 V c).arrAt · 0) ∗ Pipeline.unscopedRest (Ix := Unit) (Name := ℕ) (U := UR sig nD τ) (Lvl := ℕ) spec0 c (V c)) := by
  have hs : (unscopedBufs c (V c) : sProp 𝕄) = iprop(Pipeline.arrBufs spec0 c (V c) ∗ Pipeline.unscopedRest spec0 c (V c)) :=
    Pipeline.unscopedBufs_split₀ cfgs (0 : Fin 4) winFacts₀0.arr_unscoped c (V c)
  rw [hs, arrBufs0_eq, arrays0_eq]
  iintro ⟨⟨Hh, Ha, Hw, Ho⟩, Hrest⟩
  ihave Hh' := (pointsTo_share (PosShare.mem_left_op_right fullShare)).1 $$ Hh
  icases Hh' with ⟨HL, HR⟩
  isplitr [Hrest]
  swap; · iexact Hrest
  isplitl [HL]; · iexact HL
  isplitl [HR]; · iexact HR
  isplitl [Ha]; · iexact Ha
  isplitl [Hw]; · iexact Hw
  iexact Ho

/-- Coming out: the layer's arrays as the write-backs leave them, beside the untouched rest, are the core's unscoped
    buffers at any contents that have the result array at what was written and agree with the old ones elsewhere. -/
theorem leave0 (c : Dev nD) (V' : (b : Ref sig .tc) → Buf (Elt F) ((c : Thread nD τ).loc b))
    (hout : V' main_call0_v0 = (dat0 V c).arrAt 4 cfg0.N) (hrest : ∀ b, b ≠ main_call0_v0 → V' b = V c b) :
    iprop((dat0 V c).arrays ((dat0 V c).arrAt · cfg0.N) ∗ Pipeline.unscopedRest (Ix := Unit) (Name := ℕ) (U := UR sig nD τ) (Lvl := ℕ) spec0 c (V c))
      ⊢ (unscopedBufs c V' : sProp 𝕄) := by
  have hs : (unscopedBufs c V' : sProp 𝕄) = iprop(Pipeline.arrBufs spec0 c V' ∗ Pipeline.unscopedRest spec0 c V') :=
    Pipeline.unscopedBufs_split₀ cfgs (0 : Fin 4) winFacts₀0.arr_unscoped c V'
  rw [hs, arrBufs0_eq, arrays0_eq,
    (dat0 V c).arrAt_in 0 rfl, (dat0 V c).arrAt_in 1 rfl, (dat0 V c).arrAt_in 2 rfl, (dat0 V c).arrAt_in 3 rfl,
    hout, hrest main_arg0 (by decide), hrest main_arg1 (by decide), hrest main_arg2 (by decide)]
  iintro ⟨⟨HL, HR, Ha, Hw, Ho⟩, Hrest⟩
  isplitr [Hrest]
  swap
  · iapply (Entails.of_eq (show (Pipeline.unscopedRest (Ix := Unit) (Name := ℕ) (U := UR sig nD τ) (Lvl := ℕ) spec0 c (V c) : sProp 𝕄)
        = Pipeline.unscopedRest spec0 c V' from by
      unfold Pipeline.unscopedRest
      exact bigSep_congr fun b hb => by
        rw [hrest b (fun e => (Finset.mem_sdiff.mp hb).2 (by rw [e, arrRefs0]; decide))]))
    iexact Hrest
  isplitl [HL HR]
  · iapply (pointsTo_share (PosShare.mem_left_op_right fullShare)).2
    isplitl [HL]; · iexact HL
    iexact HR
  isplitl [Ha]; · iexact Ha
  isplitl [Hw]; · iexact Hw
  iexact Ho

end Region

end Cert.Kernel.Hand

end
-- ==== Proof.KbBody1.lean ====
/-
  The body of layer 1's kernel, run once in each of its two cases.

  At the first grid point the body forms the dense transform of the whole feature array by the layer's weight block,
  keeps it in its scratch array, and then, as at every later point, multiplies the point's block of 512 rows of the
  propagation matrix by the kept transform, halves it, adds half the block of features and takes the maximum with zero.
  Both runs are stated over whole buffers at named contents: the four inputs come back as they were, the output block
  ends at the block payload of the inputs and the kept transform, and the scratch ends at the transform (first point)
  or as it was (later points). What the body loads from the output block and, at the first point, from the scratch
  before storing is not used, so those two buffers may hold anything on entry.
-/
import proofs.«138473_g71811853189805_cont_9to1_m_833_2_alg».proof.Proof.Gen.Kernel.Launch
import proofs.«138473_g71811853189805_cont_9to1_m_833_2_alg».proof.Proof.Gen.Kernel.Skeleton
import proofs.«138473_g71811853189805_cont_9to1_m_833_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two ways the whole-buffer offsets are spelt are the zero offsets. -/
private theorem hz2 : (![0, 0] : Fin 2 → Nat) = fun _ => 0 := by funext a; match a with | ⟨0, _⟩ => rfl | ⟨1, _⟩ => rfl
private theorem hz3 : (![0, 0, 0] : Fin 3 → Nat) = fun _ => 0 := by funext a; match a with | ⟨0, _⟩ => rfl | ⟨1, _⟩ => rfl | ⟨2, _⟩ => rfl

/-- "This is the first grid point", as the body tests it: the point's coordinate compared with zero, widened, and
    compared with zero again. -/
abbrev first1 (i : grid1.Coords) : Prop := (Scalar.cmpi .ne (Scalar.extui (Scalar.cmpi .eq (BitVec.ofNat 32 (i 0).val) 0#32)) 0#32) = 1#1

set_option maxHeartbeats 1000000 in
/-- The body at the first point: the scratch ends at the transform of the whole features by the weight block, and the
    output block at the block payload over that transform. -/
theorem run_first1 (c : Dev nD) (E : Set ℕ) (i : grid1.Coords) (hc : first1 i)
    (arg1 : Memref sig .tc .vmem S4096x512 .f32) (harg1 : arg1.IsWhole) (arg2 : Memref sig .tc .vmem S512x512 .f32) (harg2 : arg2.IsWhole)
    (arg3 : Memref sig .tc .vmem S1x512x4096 .f32) (harg3 : arg3.IsWhole) (arg4 : Memref sig .tc .vmem S1x512x512 .f32) (harg4 : arg4.IsWhole)
    (arg5 : Memref sig .tc .vmem S512x512 .f32) (harg5 : arg5.IsWhole) (arg6 : Memref sig .tc .vmem S4096x512 .bf16) (harg6 : arg6.IsWhole)
    (x1 : Vec F S4096x512 .f32) (x2 : Vec F S512x512 .f32) (x3 : Vec F S1x512x4096 .f32) (x4 : Vec F S1x512x512 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k1_pay2 x3 (k1_pay1 x1 x4) x2)
            ∗ owns (c : Thread nD τ) arg6 fullShare (k1_pay1 x1 x4)) -∗ K ⟨⟩))
      ⊢ wp frame (wpE (defs₀ (F := F)) Variants.none c none) E (cc1__layer_kernel i arg1 harg1 arg2 harg2 arg3 harg3 arg4 harg4 arg5 harg5 arg6 harg6) K := by
  simp only [cc1__layer_kernel_eq_skeleton]; unfold cc1__layer_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (fun y => ⟨_, List.mem_singleton_self _, View.mem_set_unit_zero hz2 inb_S512x512_S512x512_0_0 y⟩), View.canon_unit_zero hz2]
    sl_unfold_words
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]
  · iexists _; isplitr
    swap; · iexact H6
    ipureintro
    sl_unfold_words
    rw [View.read_writes_eq_canon _ _ _ (fun y => ⟨_, List.mem_singleton_self _, View.mem_set_unit_zero hz2 inb_S4096x512_S4096x512_0_0 y⟩), View.canon_unit_zero hz2]
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]

set_option maxHeartbeats 1000000 in
/-- The body at a later point: the scratch, holding `T`, is read and left as it was, and the output block ends at the
    block payload over `T`. -/
theorem run_later1 (c : Dev nD) (E : Set ℕ) (i : grid1.Coords) (hc : ¬ first1 i)
    (arg1 : Memref sig .tc .vmem S4096x512 .f32) (harg1 : arg1.IsWhole) (arg2 : Memref sig .tc .vmem S512x512 .f32) (harg2 : arg2.IsWhole)
    (arg3 : Memref sig .tc .vmem S1x512x4096 .f32) (harg3 : arg3.IsWhole) (arg4 : Memref sig .tc .vmem S1x512x512 .f32) (harg4 : arg4.IsWhole)
    (arg5 : Memref sig .tc .vmem S512x512 .f32) (harg5 : arg5.IsWhole) (arg6 : Memref sig .tc .vmem S4096x512 .bf16) (harg6 : arg6.IsWhole)
    (x1 : Vec F S4096x512 .f32) (x2 : Vec F S512x512 .f32) (x3 : Vec F S1x512x4096 .f32) (x4 : Vec F S1x512x512 .f32)
    (T : Vec F S4096x512 .bf16) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ owns (c : Thread nD τ) arg6 fullShare T
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k1_pay2 x3 T x2)
            ∗ owns (c : Thread nD τ) arg6 fullShare T) -∗ K ⟨⟩))
      ⊢ wp frame (wpE (defs₀ (F := F)) Variants.none c none) E (cc1__layer_kernel i arg1 harg1 arg2 harg2 arg3 harg3 arg4 harg4 arg5 harg5 arg6 harg6) K := by
  simp only [cc1__layer_kernel_eq_skeleton]; unfold cc1__layer_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1 hf2 hf3 hf4 hf6
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (fun y => ⟨_, List.mem_singleton_self _, View.mem_set_unit_zero hz2 inb_S512x512_S512x512_0_0 y⟩), View.canon_unit_zero hz2]
    sl_unfold_words
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]
  · iexists f6; isplitr; · ipureintro; rfl
    iexact H6

end Cert.Kernel.Hand

end
-- ==== Proof.KbDat1.lean ====
/-
  Layer 1's kernel over its grid of eight row blocks: what every buffer holds between grid points.

  The layer reads the feature array through two windows — whole, for the dense transform formed once at the first
  point, and block by block, for the half that is added back — so the two windows hold that array at complementary
  shares. Each input window's buffer holds its block of the array at every point. The scratch holds anything before the
  first point and the transform of the whole features by the layer's weights from then on; the output window's buffer
  holds, after point t, the block payload of the t-th row block of the propagation matrix, the kept transform and
  the t-th block of features. With that the body's two runs give the obligation at every point.
-/
import proofs.«138473_g71811853189805_cont_9to1_m_833_2_alg».proof.Proof.KbBody1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the layer finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not: where it is not fetched again
    its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not: where it is not fetched again
    its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not: where it is not fetched again
    its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not: where it is not fetched again
    its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The test the body makes holds at the first point only. -/
theorem hfirst1 : ∀ t : Fin cfg1.N, first1 (grid1.coords t) ↔ t.val = 0 :=
  (by decide +kernel : ∀ t : Fin grid1.N, first1 (grid1.coords t) ↔ t.val = 0)

/-- What the scratch keeps from the first point on: the dense transform of the whole feature array by the layer's
    weight block. -/
def kept1 (c : Dev nD) : Vec F S4096x512 .bf16 := k1_pay1 (iblk1 V c 0 t1_0) (iblk1 V c 3 t1_0)

/-- The layer's data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay2 (iblk1 V c 2 t) (kept1 V c) (iblk1 V c 1 t)
  Φ t := iprop(Pipeline.scopedRestBut (Ix := Unit) (Name := ℕ) (U := UR sig nD τ) (Lvl := ℕ) (Val := Elt F) spec1 c [cc1_scratch0]
    ∗ (if t.val = 0 then iprop(∃ X, owns (c : Thread nD τ) (Memref.whole cc1_scratch0) fullShare X)
       else owns (c : Thread nD τ) (Memref.whole cc1_scratch0) fullShare (kept1 V c)))
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay2 (iblk1 V c 2 t) (kept1 V c) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The invariant before the first point: the scratch at anything. -/
theorem inv1_first (c : Dev nD) (t : Fin (cfg1.N + 1)) (h : t.val = 0) :
    (dat1 V c).Φ t = iprop(Pipeline.scopedRestBut (Ix := Unit) (Name := ℕ) (U := UR sig nD τ) (Lvl := ℕ) (Val := Elt F) spec1 c [cc1_scratch0]
      ∗ ∃ X, owns (c : Thread nD τ) (Memref.whole cc1_scratch0) fullShare X) := by
  dsimp only [dat1]; rw [if_pos h]
/-- The invariant after any point: the scratch at the kept transform. -/
theorem inv1_later (c : Dev nD) (t : Fin (cfg1.N + 1)) (h : t.val ≠ 0) :
    (dat1 V c).Φ t = iprop(Pipeline.scopedRestBut (Ix := Unit) (Name := ℕ) (U := UR sig nD τ) (Lvl := ℕ) (Val := Elt F) spec1 c [cc1_scratch0]
      ∗ owns (c : Thread nD τ) (Memref.whole cc1_scratch0) fullShare (kept1 V c)) := by
  dsimp only [dat1]; rw [if_neg h]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: at the first point the run that forms the transform, at the others the run that reads it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4,
    inv1_later V c t.succ (by rw [Fin.val_succ]; exact Nat.succ_ne_zero _)]
  by_cases ht : t.val = 0
  · have hc : first1 (grid1.coords t) := (hfirst1 t).mpr ht
    have hk : kept1 V c = k1_pay1 (iblk1 V c 0 t) (iblk1 V c 3 t) := by
      have e : t = t1_0 := Fin.ext ht
      rw [e]; rfl
    rw [inv1_first V c t.castSucc (by rw [Fin.coe_castSucc]; exact ht), hk]
    iintro ⟨⟨Hr, Hs⟩, Ho, ⟨%d0, H0⟩, ⟨%d1, H1⟩, ⟨%d2, H2⟩, ⟨%d3, H3⟩, ⟨%d4, H4⟩⟩
    iapply (run_first1 c Set.univ (grid1.coords t) hc _ _ _ _ _ _ _ _ _ _ _ _ (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hr Hs]
    · isplitl [Hr]; · iexact Hr
      iexact Hs
    isplitl [Ho]; · iexact Ho
    isplitl [H0]; · iexact H0
    isplitl [H1]; · iexact H1
    isplitl [H2]; · iexact H2
    isplitl [H3]; · iexact H3
    iexact H4
  · have hc : ¬ first1 (grid1.coords t) := fun h => ht ((hfirst1 t).mp h)
    rw [inv1_later V c t.castSucc (by rw [Fin.coe_castSucc]; exact ht)]
    iintro ⟨⟨Hr, Hs⟩, Ho, ⟨%d0, H0⟩, ⟨%d1, H1⟩, ⟨%d2, H2⟩, ⟨%d3, H3⟩, ⟨%d4, H4⟩⟩
    iapply (run_later1 c Set.univ (grid1.coords t) hc _ _ _ _ _ _ _ _ _ _ _ _ (iblk1 V c 0 t) (iblk1 V c 1 t) (iblk1 V c 2 t) (iblk1 V c 3 t) (kept1 V c) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hr Hs]
    · isplitl [Hr]; · iexact Hr
      iexact Hs
    isplitl [Ho]; · iexact Ho
    isplitl [H0]; · iexact H0
    isplitl [H1]; · iexact H1
    isplitl [H2]; · iexact H2
    isplitl [H3]; · iexact H3
    iexact H4

/-- The body's obligation at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KbArr1.lean ====
/-
  Layer 1's arrays on the way into and out of the layer.

  The layer's five windows stand on four arrays: the feature array (twice), the propagation matrices, the weights and the
  layer's result. Going in, the feature array's full share is dealt to its two windows as the left and the right half;
  coming out, the two halves — both still at the contents the layer found, since no input is written — are joined
  again, and the result array holds what the eight write-backs left. Every other buffer is untouched.
-/
import proofs.«138473_g71811853189805_cont_9to1_m_833_2_alg».proof.Proof.KbDat1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The four arrays behind the layer's five windows. -/
theorem arrRefs1 : Finset.univ.image (Pipeline.arrRef spec1) = {main_call0_v0, main_arg1, main_arg2, main_call0_v1} := by decide

/-- Those four buffers, each whole at the full share. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop(((((c : Thread nD τ).loc main_call0_v0)) ↦{fullShare} W main_call0_v0) ∗ ((((c : Thread nD τ).loc main_arg1)) ↦{fullShare} W main_arg1)
          ∗ ((((c : Thread nD τ).loc main_arg2)) ↦{fullShare} W main_arg2) ∗ ((((c : Thread nD τ).loc main_call0_v1)) ↦{fullShare} W main_call0_v1)) := by
  unfold Pipeline.arrBufs
  rw [arrRefs1, BI.bigSep_insert (by decide), BI.bigSep_insert (by decide), BI.bigSep_insert (by decide), BI.bigSep_singleton]
  rfl

/-- The windows' arrays at their shares: the feature array's two windows at the two halves. -/
theorem arrays1_eq (c : Dev nD) (G : (w : Fin cfg1.W) → Buf (Elt F) ((cfg1.win w).arr.view.loc (c : Thread nD τ))) :
    ((dat1 V c).arrays G : sProp 𝕄)
      = iprop(((((c : Thread nD τ).loc main_call0_v0)) ↦{fullShare.left} G 0) ∗ ((((c : Thread nD τ).loc main_call0_v0)) ↦{fullShare.right} G 1)
          ∗ ((((c : Thread nD τ).loc main_arg1)) ↦{fullShare} G 2) ∗ ((((c : Thread nD τ).loc main_arg2)) ↦{fullShare} G 3) ∗ ((((c : Thread nD τ).loc main_call0_v1)) ↦{fullShare} G 4)) := by
  unfold Dat.arrays
  rw [bigSep_W1, (arr_whole1 0).set_eq_univ, (arr_whole1 2).set_eq_univ,
    (arr_whole1 3).set_eq_univ, (arr_whole1 4).set_eq_univ]
  rfl

/-- Going in: the core's unscoped buffers are the layer's arrays as it finds them, and the rest. -/
theorem enter1 (c : Dev nD) :
    (unscopedBufs c (V c) : sProp 𝕄)
      ⊢ iprop((dat1 V c).arrays ((dat1 V c).arrAt · 0) ∗ Pipeline.unscopedRest (Ix := Unit) (Name := ℕ) (U := UR sig nD τ) (Lvl := ℕ) spec1 c (V c)) := by
  have hs : (unscopedBufs c (V c) : sProp 𝕄) = iprop(Pipeline.arrBufs spec1 c (V c) ∗ Pipeline.unscopedRest spec1 c (V c)) :=
    Pipeline.unscopedBufs_split₀ cfgs (1 : Fin 4) winFacts₀1.arr_unscoped c (V c)
  rw [hs, arrBufs1_eq, arrays1_eq]
  iintro ⟨⟨Hh, Ha, Hw, Ho⟩, Hrest⟩
  ihave Hh' := (pointsTo_share (PosShare.mem_left_op_right fullShare)).1 $$ Hh
  icases Hh' with ⟨HL, HR⟩
  isplitr [Hrest]
  swap; · iexact Hrest
  isplitl [HL]; · iexact HL
  isplitl [HR]; · iexact HR
  isplitl [Ha]; · iexact Ha
  isplitl [Hw]; · iexact Hw
  iexact Ho

/-- Coming out: the layer's arrays as the write-backs leave them, beside the untouched rest, are the core's unscoped
    buffers at any contents that have the result array at what was written and agree with the old ones elsewhere. -/
theorem leave1 (c : Dev nD) (V' : (b : Ref sig .tc) → Buf (Elt F) ((c : Thread nD τ).loc b))
    (hout : V' main_call0_v1 = (dat1 V c).arrAt 4 cfg1.N) (hrest : ∀ b, b ≠ main_call0_v1 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c V' : sProp 𝕄) := by
  have hs : (unscopedBufs c V' : sProp 𝕄) = iprop(Pipeline.arrBufs spec1 c V' ∗ Pipeline.unscopedRest spec1 c V') :=
    Pipeline.unscopedBufs_split₀ cfgs (1 : Fin 4) winFacts₀1.arr_unscoped c V'
  rw [hs, arrBufs1_eq, arrays1_eq,
    (dat1 V c).arrAt_in 0 rfl, (dat1 V c).arrAt_in 1 rfl, (dat1 V c).arrAt_in 2 rfl, (dat1 V c).arrAt_in 3 rfl,
    hout, hrest main_call0_v0 (by decide), hrest main_arg1 (by decide), hrest main_arg2 (by decide)]
  iintro ⟨⟨HL, HR, Ha, Hw, Ho⟩, Hrest⟩
  isplitr [Hrest]
  swap
  · iapply (Entails.of_eq (show (Pipeline.unscopedRest (Ix := Unit) (Name := ℕ) (U := UR sig nD τ) (Lvl := ℕ) spec1 c (V c) : sProp 𝕄)
        = Pipeline.unscopedRest spec1 c V' from by
      unfold Pipeline.unscopedRest
      exact bigSep_congr fun b hb => by
        rw [hrest b (fun e => (Finset.mem_sdiff.mp hb).2 (by rw [e, arrRefs1]; decide))]))
    iexact Hrest
  isplitl [HL HR]
  · iapply (pointsTo_share (PosShare.mem_left_op_right fullShare)).2
    isplitl [HL]; · iexact HL
    iexact HR
  isplitl [Ha]; · iexact Ha
  isplitl [Hw]; · iexact Hw
  iexact Ho

end Region

end Cert.Kernel.Hand

end
-- ==== Proof.KbBody2.lean ====
/-
  The body of layer 2's kernel, run once in each of its two cases.

  At the first grid point the body forms the dense transform of the whole feature array by the layer's weight block,
  keeps it in its scratch array, and then, as at every later point, multiplies the point's block of 512 rows of the
  propagation matrix by the kept transform, halves it, adds half the block of features and takes the maximum with zero.
  Both runs are stated over whole buffers at named contents: the four inputs come back as they were, the output block
  ends at the block payload of the inputs and the kept transform, and the scratch ends at the transform (first point)
  or as it was (later points). What the body loads from the output block and, at the first point, from the scratch
  before storing is not used, so those two buffers may hold anything on entry.
-/
import proofs.«138473_g71811853189805_cont_9to1_m_833_2_alg».proof.Proof.Gen.Kernel.Launch
import proofs.«138473_g71811853189805_cont_9to1_m_833_2_alg».proof.Proof.Gen.Kernel.Skeleton
import proofs.«138473_g71811853189805_cont_9to1_m_833_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two ways the whole-buffer offsets are spelt are the zero offsets. -/
private theorem hz2 : (![0, 0] : Fin 2 → Nat) = fun _ => 0 := by funext a; match a with | ⟨0, _⟩ => rfl | ⟨1, _⟩ => rfl
private theorem hz3 : (![0, 0, 0] : Fin 3 → Nat) = fun _ => 0 := by funext a; match a with | ⟨0, _⟩ => rfl | ⟨1, _⟩ => rfl | ⟨2, _⟩ => rfl

/-- "This is the first grid point", as the body tests it: the point's coordinate compared with zero, widened, and
    compared with zero again. -/
abbrev first2 (i : grid2.Coords) : Prop := (Scalar.cmpi .ne (Scalar.extui (Scalar.cmpi .eq (BitVec.ofNat 32 (i 0).val) 0#32)) 0#32) = 1#1

set_option maxHeartbeats 1000000 in
/-- The body at the first point: the scratch ends at the transform of the whole features by the weight block, and the
    output block at the block payload over that transform. -/
theorem run_first2 (c : Dev nD) (E : Set ℕ) (i : grid2.Coords) (hc : first2 i)
    (arg1 : Memref sig .tc .vmem S4096x512 .f32) (harg1 : arg1.IsWhole) (arg2 : Memref sig .tc .vmem S512x512 .f32) (harg2 : arg2.IsWhole)
    (arg3 : Memref sig .tc .vmem S1x512x4096 .f32) (harg3 : arg3.IsWhole) (arg4 : Memref sig .tc .vmem S1x512x512 .f32) (harg4 : arg4.IsWhole)
    (arg5 : Memref sig .tc .vmem S512x512 .f32) (harg5 : arg5.IsWhole) (arg6 : Memref sig .tc .vmem S4096x512 .bf16) (harg6 : arg6.IsWhole)
    (x1 : Vec F S4096x512 .f32) (x2 : Vec F S512x512 .f32) (x3 : Vec F S1x512x4096 .f32) (x4 : Vec F S1x512x512 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k2_pay2 x3 (k2_pay1 x1 x4) x2)
            ∗ owns (c : Thread nD τ) arg6 fullShare (k2_pay1 x1 x4)) -∗ K ⟨⟩))
      ⊢ wp frame (wpE (defs₀ (F := F)) Variants.none c none) E (cc2__layer_kernel i arg1 harg1 arg2 harg2 arg3 harg3 arg4 harg4 arg5 harg5 arg6 harg6) K := by
  simp only [cc2__layer_kernel_eq_skeleton]; unfold cc2__layer_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (fun y => ⟨_, List.mem_singleton_self _, View.mem_set_unit_zero hz2 inb_S512x512_S512x512_0_0 y⟩), View.canon_unit_zero hz2]
    sl_unfold_words
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]
  · iexists _; isplitr
    swap; · iexact H6
    ipureintro
    sl_unfold_words
    rw [View.read_writes_eq_canon _ _ _ (fun y => ⟨_, List.mem_singleton_self _, View.mem_set_unit_zero hz2 inb_S4096x512_S4096x512_0_0 y⟩), View.canon_unit_zero hz2]
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]

set_option maxHeartbeats 1000000 in
/-- The body at a later point: the scratch, holding `T`, is read and left as it was, and the output block ends at the
    block payload over `T`. -/
theorem run_later2 (c : Dev nD) (E : Set ℕ) (i : grid2.Coords) (hc : ¬ first2 i)
    (arg1 : Memref sig .tc .vmem S4096x512 .f32) (harg1 : arg1.IsWhole) (arg2 : Memref sig .tc .vmem S512x512 .f32) (harg2 : arg2.IsWhole)
    (arg3 : Memref sig .tc .vmem S1x512x4096 .f32) (harg3 : arg3.IsWhole) (arg4 : Memref sig .tc .vmem S1x512x512 .f32) (harg4 : arg4.IsWhole)
    (arg5 : Memref sig .tc .vmem S512x512 .f32) (harg5 : arg5.IsWhole) (arg6 : Memref sig .tc .vmem S4096x512 .bf16) (harg6 : arg6.IsWhole)
    (x1 : Vec F S4096x512 .f32) (x2 : Vec F S512x512 .f32) (x3 : Vec F S1x512x4096 .f32) (x4 : Vec F S1x512x512 .f32)
    (T : Vec F S4096x512 .bf16) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ owns (c : Thread nD τ) arg6 fullShare T
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k2_pay2 x3 T x2)
            ∗ owns (c : Thread nD τ) arg6 fullShare T) -∗ K ⟨⟩))
      ⊢ wp frame (wpE (defs₀ (F := F)) Variants.none c none) E (cc2__layer_kernel i arg1 harg1 arg2 harg2 arg3 harg3 arg4 harg4 arg5 harg5 arg6 harg6) K := by
  simp only [cc2__layer_kernel_eq_skeleton]; unfold cc2__layer_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1 hf2 hf3 hf4 hf6
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (fun y => ⟨_, List.mem_singleton_self _, View.mem_set_unit_zero hz2 inb_S512x512_S512x512_0_0 y⟩), View.canon_unit_zero hz2]
    sl_unfold_words
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]
  · iexists f6; isplitr; · ipureintro; rfl
    iexact H6

end Cert.Kernel.Hand

end
-- ==== Proof.KbDat2.lean ====
/-
  Layer 2's kernel over its grid of eight row blocks: what every buffer holds between grid points.

  The layer reads the feature array through two windows — whole, for the dense transform formed once at the first
  point, and block by block, for the half that is added back — so the two windows hold that array at complementary
  shares. Each input window's buffer holds its block of the array at every point. The scratch holds anything before the
  first point and the transform of the whole features by the layer's weights from then on; the output window's buffer
  holds, after point t, the block payload of the t-th row block of the propagation matrix, the kept transform and
  the t-th block of features. With that the body's two runs give the obligation at every point.
-/
import proofs.«138473_g71811853189805_cont_9to1_m_833_2_alg».proof.Proof.KbBody2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the layer finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not: where it is not fetched again
    its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not: where it is not fetched again
    its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not: where it is not fetched again
    its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not: where it is not fetched again
    its block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The test the body makes holds at the first point only. -/
theorem hfirst2 : ∀ t : Fin cfg2.N, first2 (grid2.coords t) ↔ t.val = 0 :=
  (by decide +kernel : ∀ t : Fin grid2.N, first2 (grid2.coords t) ↔ t.val = 0)

/-- What the scratch keeps from the first point on: the dense transform of the whole feature array by the layer's
    weight block. -/
def kept2 (c : Dev nD) : Vec F S4096x512 .bf16 := k2_pay1 (iblk2 V c 0 t2_0) (iblk2 V c 3 t2_0)

/-- The layer's data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay2 (iblk2 V c 2 t) (kept2 V c) (iblk2 V c 1 t)
  Φ t := iprop(Pipeline.scopedRestBut (Ix := Unit) (Name := ℕ) (U := UR sig nD τ) (Lvl := ℕ) (Val := Elt F) spec2 c [cc2_scratch0]
    ∗ (if t.val = 0 then iprop(∃ X, owns (c : Thread nD τ) (Memref.whole cc2_scratch0) fullShare X)
       else owns (c : Thread nD τ) (Memref.whole cc2_scratch0) fullShare (kept2 V c)))
  q w := match w with
    | ⟨0, _⟩ => fullShare.left
    | ⟨1, _⟩ => fullShare.right
    | ⟨2, _⟩ => fullShare
    | ⟨3, _⟩ => fullShare
    | ⟨4, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay2 (iblk2 V c 2 t) (kept2 V c) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- The invariant before the first point: the scratch at anything. -/
theorem inv2_first (c : Dev nD) (t : Fin (cfg2.N + 1)) (h : t.val = 0) :
    (dat2 V c).Φ t = iprop(Pipeline.scopedRestBut (Ix := Unit) (Name := ℕ) (U := UR sig nD τ) (Lvl := ℕ) (Val := Elt F) spec2 c [cc2_scratch0]
      ∗ ∃ X, owns (c : Thread nD τ) (Memref.whole cc2_scratch0) fullShare X) := by
  dsimp only [dat2]; rw [if_pos h]
/-- The invariant after any point: the scratch at the kept transform. -/
theorem inv2_later (c : Dev nD) (t : Fin (cfg2.N + 1)) (h : t.val ≠ 0) :
    (dat2 V c).Φ t = iprop(Pipeline.scopedRestBut (Ix := Unit) (Name := ℕ) (U := UR sig nD τ) (Lvl := ℕ) (Val := Elt F) spec2 c [cc2_scratch0]
      ∗ owns (c : Thread nD τ) (Memref.whole cc2_scratch0) fullShare (kept2 V c)) := by
  dsimp only [dat2]; rw [if_neg h]

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: at the first point the run that forms the transform, at the others the run that reads it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl,
    after2_0, after2_1, after2_2, after2_3, after2_4,
    inv2_later V c t.succ (by rw [Fin.val_succ]; exact Nat.succ_ne_zero _)]
  by_cases ht : t.val = 0
  · have hc : first2 (grid2.coords t) := (hfirst2 t).mpr ht
    have hk : kept2 V c = k2_pay1 (iblk2 V c 0 t) (iblk2 V c 3 t) := by
      have e : t = t2_0 := Fin.ext ht
      rw [e]; rfl
    rw [inv2_first V c t.castSucc (by rw [Fin.coe_castSucc]; exact ht), hk]
    iintro ⟨⟨Hr, Hs⟩, Ho, ⟨%d0, H0⟩, ⟨%d1, H1⟩, ⟨%d2, H2⟩, ⟨%d3, H3⟩, ⟨%d4, H4⟩⟩
    iapply (run_first2 c Set.univ (grid2.coords t) hc _ _ _ _ _ _ _ _ _ _ _ _ (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hr Hs]
    · isplitl [Hr]; · iexact Hr
      iexact Hs
    isplitl [Ho]; · iexact Ho
    isplitl [H0]; · iexact H0
    isplitl [H1]; · iexact H1
    isplitl [H2]; · iexact H2
    isplitl [H3]; · iexact H3
    iexact H4
  · have hc : ¬ first2 (grid2.coords t) := fun h => ht ((hfirst2 t).mp h)
    rw [inv2_later V c t.castSucc (by rw [Fin.coe_castSucc]; exact ht)]
    iintro ⟨⟨Hr, Hs⟩, Ho, ⟨%d0, H0⟩, ⟨%d1, H1⟩, ⟨%d2, H2⟩, ⟨%d3, H3⟩, ⟨%d4, H4⟩⟩
    iapply (run_later2 c Set.univ (grid2.coords t) hc _ _ _ _ _ _ _ _ _ _ _ _ (iblk2 V c 0 t) (iblk2 V c 1 t) (iblk2 V c 2 t) (iblk2 V c 3 t) (kept2 V c) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hr Hs]
    · isplitl [Hr]; · iexact Hr
      iexact Hs
    isplitl [Ho]; · iexact Ho
    isplitl [H0]; · iexact H0
    isplitl [H1]; · iexact H1
    isplitl [H2]; · iexact H2
    isplitl [H3]; · iexact H3
    iexact H4

/-- The body's obligation at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.KbArr2.lean ====
/-
  Layer 2's arrays on the way into and out of the layer.

  The layer's five windows stand on four arrays: the feature array (twice), the propagation matrices, the weights and the
  layer's result. Going in, the feature array's full share is dealt to its two windows as the left and the right half;
  coming out, the two halves — both still at the contents the layer found, since no input is written — are joined
  again, and the result array holds what the eight write-backs left. Every other buffer is untouched.
-/
import proofs.«138473_g71811853189805_cont_9to1_m_833_2_alg».proof.Proof.KbDat2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The four arrays behind the layer's five windows. -/
theorem arrRefs2 : Finset.univ.image (Pipeline.arrRef spec2) = {main_call0_v1, main_arg1, main_arg2, main_call0_v2} := by decide

/-- Those four buffers, each whole at the full share. -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop(((((c : Thread nD τ).loc main_call0_v1)) ↦{fullShare} W main_call0_v1) ∗ ((((c : Thread nD τ).loc main_arg1)) ↦{fullShare} W main_arg1)
          ∗ ((((c : Thread nD τ).loc main_arg2)) ↦{fullShare} W main_arg2) ∗ ((((c : Thread nD τ).loc main_call0_v2)) ↦{fullShare} W main_call0_v2)) := by
  unfold Pipeline.arrBufs
  rw [arrRefs2, BI.bigSep_insert (by decide), BI.bigSep_insert (by decide), BI.bigSep_insert (by decide), BI.bigSep_singleton]
  rfl

/-- The windows' arrays at their shares: the feature array's two windows at the two halves. -/
theorem arrays2_eq (c : Dev nD) (G : (w : Fin cfg2.W) → Buf (Elt F) ((cfg2.win w).arr.view.loc (c : Thread nD τ))) :
    ((dat2 V c).arrays G : sProp 𝕄)
      = iprop(((((c : Thread nD τ).loc main_call0_v1)) ↦{fullShare.left} G 0) ∗ ((((c : Thread nD τ).loc main_call0_v1)) ↦{fullShare.right} G 1)
          ∗ ((((c : Thread nD τ).loc main_arg1)) ↦{fullShare} G 2) ∗ ((((c : Thread nD τ).loc main_arg2)) ↦{fullShare} G 3) ∗ ((((c : Thread nD τ).loc main_call0_v2)) ↦{fullShare} G 4)) := by
  unfold Dat.arrays
  rw [bigSep_W2, (arr_whole2 0).set_eq_univ, (arr_whole2 2).set_eq_univ,
    (arr_whole2 3).set_eq_univ, (arr_whole2 4).set_eq_univ]
  rfl

/-- Going in: the core's unscoped buffers are the layer's arrays as it finds them, and the rest. -/
theorem enter2 (c : Dev nD) :
    (unscopedBufs c (V c) : sProp 𝕄)
      ⊢ iprop((dat2 V c).arrays ((dat2 V c).arrAt · 0) ∗ Pipeline.unscopedRest (Ix := Unit) (Name := ℕ) (U := UR sig nD τ) (Lvl := ℕ) spec2 c (V c)) := by
  have hs : (unscopedBufs c (V c) : sProp 𝕄) = iprop(Pipeline.arrBufs spec2 c (V c) ∗ Pipeline.unscopedRest spec2 c (V c)) :=
    Pipeline.unscopedBufs_split₀ cfgs (2 : Fin 4) winFacts₀2.arr_unscoped c (V c)
  rw [hs, arrBufs2_eq, arrays2_eq]
  iintro ⟨⟨Hh, Ha, Hw, Ho⟩, Hrest⟩
  ihave Hh' := (pointsTo_share (PosShare.mem_left_op_right fullShare)).1 $$ Hh
  icases Hh' with ⟨HL, HR⟩
  isplitr [Hrest]
  swap; · iexact Hrest
  isplitl [HL]; · iexact HL
  isplitl [HR]; · iexact HR
  isplitl [Ha]; · iexact Ha
  isplitl [Hw]; · iexact Hw
  iexact Ho

/-- Coming out: the layer's arrays as the write-backs leave them, beside the untouched rest, are the core's unscoped
    buffers at any contents that have the result array at what was written and agree with the old ones elsewhere. -/
theorem leave2 (c : Dev nD) (V' : (b : Ref sig .tc) → Buf (Elt F) ((c : Thread nD τ).loc b))
    (hout : V' main_call0_v2 = (dat2 V c).arrAt 4 cfg2.N) (hrest : ∀ b, b ≠ main_call0_v2 → V' b = V c b) :
    iprop((dat2 V c).arrays ((dat2 V c).arrAt · cfg2.N) ∗ Pipeline.unscopedRest (Ix := Unit) (Name := ℕ) (U := UR sig nD τ) (Lvl := ℕ) spec2 c (V c))
      ⊢ (unscopedBufs c V' : sProp 𝕄) := by
  have hs : (unscopedBufs c V' : sProp 𝕄) = iprop(Pipeline.arrBufs spec2 c V' ∗ Pipeline.unscopedRest spec2 c V') :=
    Pipeline.unscopedBufs_split₀ cfgs (2 : Fin 4) winFacts₀2.arr_unscoped c V'
  rw [hs, arrBufs2_eq, arrays2_eq,
    (dat2 V c).arrAt_in 0 rfl, (dat2 V c).arrAt_in 1 rfl, (dat2 V c).arrAt_in 2 rfl, (dat2 V c).arrAt_in 3 rfl,
    hout, hrest main_call0_v1 (by decide), hrest main_arg1 (by decide), hrest main_arg2 (by decide)]
  iintro ⟨⟨HL, HR, Ha, Hw, Ho⟩, Hrest⟩
  isplitr [Hrest]
  swap
  · iapply (Entails.of_eq (show (Pipeline.unscopedRest (Ix := Unit) (Name := ℕ) (U := UR sig nD τ) (Lvl := ℕ) spec2 c (V c) : sProp 𝕄)
        = Pipeline.unscopedRest spec2 c V' from by
      unfold Pipeline.unscopedRest
      exact bigSep_congr fun b hb => by
        rw [hrest b (fun e => (Finset.mem_sdiff.mp hb).2 (by rw [e, arrRefs2]; decide))]))
    iexact Hrest
  isplitl [HL HR]
  · iapply (pointsTo_share (PosShare.mem_left_op_right fullShare)).2
    isplitl [HL]; · iexact HL
    iexact HR
  isplitl [Ha]; · iexact Ha
  isplitl [Hw]; · iexact Hw
  iexact Ho

end Region

end Cert.Kernel.Hand

end
-- ==== Proof.KbBody3.lean ====
/-
  The body of layer 3's kernel, run once in each of its two cases.

  At the first grid point the body forms the dense transform of the whole feature array by the layer's weight block,
  keeps it in its scratch array, and then, as at every later point, multiplies the point's block of 512 rows of the
  propagation matrix by the kept transform, halves it, adds half the block of features and takes the maximum with zero.
  Both runs are stated over whole buffers at named contents: the four inputs come back as they were, the output block
  ends at the block payload of the inputs and the kept transform, and the scratch ends at the transform (first point)
  or as it was (later points). What the body loads from the output block and, at the first point, from the scratch
  before storing is not used, so those two buffers may hold anything on entry.
-/
import proofs.«138473_g71811853189805_cont_9to1_m_833_2_alg».proof.Proof.Gen.Kernel.Launch
import proofs.«138473_g71811853189805_cont_9to1_m_833_2_alg».proof.Proof.Gen.Kernel.Skeleton
import proofs.«138473_g71811853189805_cont_9to1_m_833_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two ways the whole-buffer offsets are spelt are the zero offsets. -/
private theorem hz2 : (![0, 0] : Fin 2 → Nat) = fun _ => 0 := by funext a; match a with | ⟨0, _⟩ => rfl | ⟨1, _⟩ => rfl
private theorem hz3 : (![0, 0, 0] : Fin 3 → Nat) = fun _ => 0 := by funext a; match a with | ⟨0, _⟩ => rfl | ⟨1, _⟩ => rfl | ⟨2, _⟩ => rfl

/-- "This is the first grid point", as the body tests it: the point's coordinate compared with zero, widened, and
    compared with zero again. -/
abbrev first3 (i : grid3.Coords) : Prop := (Scalar.cmpi .ne (Scalar.extui (Scalar.cmpi .eq (BitVec.ofNat 32 (i 0).val) 0#32)) 0#32) = 1#1

set_option maxHeartbeats 1000000 in
/-- The body at the first point: the scratch ends at the transform of the whole features by the weight block, and the
    output block at the block payload over that transform. -/
theorem run_first3 (c : Dev nD) (E : Set ℕ) (i : grid3.Coords) (hc : first3 i)
    (arg1 : Memref sig .tc .vmem S4096x512 .f32) (harg1 : arg1.IsWhole) (arg2 : Memref sig .tc .vmem S512x512 .f32) (harg2 : arg2.IsWhole)
    (arg3 : Memref sig .tc .vmem S1x512x4096 .f32) (harg3 : arg3.IsWhole) (arg4 : Memref sig .tc .vmem S1x512x512 .f32) (harg4 : arg4.IsWhole)
    (arg5 : Memref sig .tc .vmem S512x512 .f32) (harg5 : arg5.IsWhole) (arg6 : Memref sig .tc .vmem S4096x512 .bf16) (harg6 : arg6.IsWhole)
    (x1 : Vec F S4096x512 .f32) (x2 : Vec F S512x512 .f32) (x3 : Vec F S1x512x4096 .f32) (x4 : Vec F S1x512x512 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k3_pay2 x3 (k3_pay1 x1 x4) x2)
            ∗ owns (c : Thread nD τ) arg6 fullShare (k3_pay1 x1 x4)) -∗ K ⟨⟩))
      ⊢ wp frame (wpE (defs₀ (F := F)) Variants.none c none) E (cc3__layer_kernel i arg1 harg1 arg2 harg2 arg3 harg3 arg4 harg4 arg5 harg5 arg6 harg6) K := by
  simp only [cc3__layer_kernel_eq_skeleton]; unfold cc3__layer_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (fun y => ⟨_, List.mem_singleton_self _, View.mem_set_unit_zero hz2 inb_S512x512_S512x512_0_0 y⟩), View.canon_unit_zero hz2]
    sl_unfold_words
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]
  · iexists _; isplitr
    swap; · iexact H6
    ipureintro
    sl_unfold_words
    rw [View.read_writes_eq_canon _ _ _ (fun y => ⟨_, List.mem_singleton_self _, View.mem_set_unit_zero hz2 inb_S4096x512_S4096x512_0_0 y⟩), View.canon_unit_zero hz2]
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]

set_option maxHeartbeats 1000000 in
/-- The body at a later point: the scratch, holding `T`, is read and left as it was, and the output block ends at the
    block payload over `T`. -/
theorem run_later3 (c : Dev nD) (E : Set ℕ) (i : grid3.Coords) (hc : ¬ first3 i)
    (arg1 : Memref sig .tc .vmem S4096x512 .f32) (harg1 : arg1.IsWhole) (arg2 : Memref sig .tc .vmem S512x512 .f32) (harg2 : arg2.IsWhole)
    (arg3 : Memref sig .tc .vmem S1x512x4096 .f32) (harg3 : arg3.IsWhole) (arg4 : Memref sig .tc .vmem S1x512x512 .f32) (harg4 : arg4.IsWhole)
    (arg5 : Memref sig .tc .vmem S512x512 .f32) (harg5 : arg5.IsWhole) (arg6 : Memref sig .tc .vmem S4096x512 .bf16) (harg6 : arg6.IsWhole)
    (x1 : Vec F S4096x512 .f32) (x2 : Vec F S512x512 .f32) (x3 : Vec F S1x512x4096 .f32) (x4 : Vec F S1x512x512 .f32)
    (T : Vec F S4096x512 .bf16) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ owns (c : Thread nD τ) arg6 fullShare T
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k3_pay2 x3 T x2)
            ∗ owns (c : Thread nD τ) arg6 fullShare T) -∗ K ⟨⟩))
      ⊢ wp frame (wpE (defs₀ (F := F)) Variants.none c none) E (cc3__layer_kernel i arg1 harg1 arg2 harg2 arg3 harg3 arg4 harg4 arg5 harg5 arg6 harg6) K := by
  simp only [cc3__layer_kernel_eq_skeleton]; unfold cc3__layer_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1 hf2 hf3 hf4 hf6
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (fun y => ⟨_, List.mem_singleton_self _, View.mem_set_unit_zero hz2 inb_S512x512_S512x512_0_0 y⟩), View.canon_unit_zero hz2]
    sl_unfold_words
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]
  · iexists f6; isplitr; · ipureintro; rfl
    iexact H6

end Cert.Kernel.Hand

end
-- ==== Proof.KbDat3.lean ====
/-
  Layer 3's kernel over its grid of eight row blocks: what every buffer holds between grid points.

  The layer reads the feature array through two windows — whole, for the dense transform formed once at the first
  point, and block by block, for the half that is added back — so the two windows hold that array at complementary
  shares. Each input window's buffer holds its block of the array at every point. The scratch holds anything before the
  first point and the transform of the whole features by the layer's weights from then on; the output window's buffer
  holds, after point t, the block payload of the t-th row block of the propagation matrix, the kept transform and
  the t-th block of features. With that the body's two runs give the obligation at every point.
-/
import proofs.«138473_g71811853189805_cont_9to1_m_833_2_alg».proof.Proof.KbBody3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the layer finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block at every point, fetched there or not: where it is not fetched again
    its block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds its block at every point, fetched there or not: where it is not fetched again
    its block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds its block at every point, fetched there or not: where it is not fetched again
    its block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current buffer holds its block at every point, fetched there or not: where it is not fetched again
    its block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The test the body makes holds at the first point only. -/
theorem hfirst3 : ∀ t : Fin cfg3.N, first3 (grid3.coords t) ↔ t.val = 0 :=
  (by decide +kernel : ∀ t : Fin grid3.N, first3 (grid3.coords t) ↔ t.val = 0)

/-- What the scratch keeps from the first point on: the dense transform of the whole feature array by the layer's
    weight block. -/
def kept3 (c : Dev nD) : Vec F S4096x512 .bf16 := k3_pay1 (iblk3 V c 0 t3_0) (iblk3 V c 3 t3_0)

/-- The layer's data on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay2 (iblk3 V c 2 t) (kept3 V c) (iblk3 V c 1 t)
  Φ t := iprop(Pipeline.scopedRestBut (Ix := Unit) (Name := ℕ) (U := UR sig nD τ) (Lvl := ℕ) (Val := Elt F) spec3 c [cc3_scratch0]
    ∗ (if t.val = 0 then iprop(∃ X, owns (c : Thread nD τ) (Memref.whole cc3_scratch0) fullShare X)
       else owns (c : Thread nD τ) (Memref.whole cc3_scratch0) fullShare (kept3 V c)))
  q w := match w with
    | ⟨0, _⟩ => fullShare.left
    | ⟨1, _⟩ => fullShare.right
    | ⟨2, _⟩ => fullShare
    | ⟨3, _⟩ => fullShare
    | ⟨4, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = k3_pay2 (iblk3 V c 2 t) (kept3 V c) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- The invariant before the first point: the scratch at anything. -/
theorem inv3_first (c : Dev nD) (t : Fin (cfg3.N + 1)) (h : t.val = 0) :
    (dat3 V c).Φ t = iprop(Pipeline.scopedRestBut (Ix := Unit) (Name := ℕ) (U := UR sig nD τ) (Lvl := ℕ) (Val := Elt F) spec3 c [cc3_scratch0]
      ∗ ∃ X, owns (c : Thread nD τ) (Memref.whole cc3_scratch0) fullShare X) := by
  dsimp only [dat3]; rw [if_pos h]
/-- The invariant after any point: the scratch at the kept transform. -/
theorem inv3_later (c : Dev nD) (t : Fin (cfg3.N + 1)) (h : t.val ≠ 0) :
    (dat3 V c).Φ t = iprop(Pipeline.scopedRestBut (Ix := Unit) (Name := ℕ) (U := UR sig nD τ) (Lvl := ℕ) (Val := Elt F) spec3 c [cc3_scratch0]
      ∗ owns (c : Thread nD τ) (Memref.whole cc3_scratch0) fullShare (kept3 V c)) := by
  dsimp only [dat3]; rw [if_neg h]

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: at the first point the run that forms the transform, at the others the run that reads it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl,
    after3_0, after3_1, after3_2, after3_3, after3_4,
    inv3_later V c t.succ (by rw [Fin.val_succ]; exact Nat.succ_ne_zero _)]
  by_cases ht : t.val = 0
  · have hc : first3 (grid3.coords t) := (hfirst3 t).mpr ht
    have hk : kept3 V c = k3_pay1 (iblk3 V c 0 t) (iblk3 V c 3 t) := by
      have e : t = t3_0 := Fin.ext ht
      rw [e]; rfl
    rw [inv3_first V c t.castSucc (by rw [Fin.coe_castSucc]; exact ht), hk]
    iintro ⟨⟨Hr, Hs⟩, Ho, ⟨%d0, H0⟩, ⟨%d1, H1⟩, ⟨%d2, H2⟩, ⟨%d3, H3⟩, ⟨%d4, H4⟩⟩
    iapply (run_first3 c Set.univ (grid3.coords t) hc _ _ _ _ _ _ _ _ _ _ _ _ (iblk3 V c 0 t) (iblk3 V c 1 t) (iblk3 V c 2 t) (iblk3 V c 3 t) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hr Hs]
    · isplitl [Hr]; · iexact Hr
      iexact Hs
    isplitl [Ho]; · iexact Ho
    isplitl [H0]; · iexact H0
    isplitl [H1]; · iexact H1
    isplitl [H2]; · iexact H2
    isplitl [H3]; · iexact H3
    iexact H4
  · have hc : ¬ first3 (grid3.coords t) := fun h => ht ((hfirst3 t).mp h)
    rw [inv3_later V c t.castSucc (by rw [Fin.coe_castSucc]; exact ht)]
    iintro ⟨⟨Hr, Hs⟩, Ho, ⟨%d0, H0⟩, ⟨%d1, H1⟩, ⟨%d2, H2⟩, ⟨%d3, H3⟩, ⟨%d4, H4⟩⟩
    iapply (run_later3 c Set.univ (grid3.coords t) hc _ _ _ _ _ _ _ _ _ _ _ _ (iblk3 V c 0 t) (iblk3 V c 1 t) (iblk3 V c 2 t) (iblk3 V c 3 t) (kept3 V c) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hr Hs]
    · isplitl [Hr]; · iexact Hr
      iexact Hs
    isplitl [Ho]; · iexact Ho
    isplitl [H0]; · iexact H0
    isplitl [H1]; · iexact H1
    isplitl [H2]; · iexact H2
    isplitl [H3]; · iexact H3
    iexact H4

/-- The body's obligation at every point. -/
theorem body_obligation3 (c : Dev nD) : BodyObligation (dat3 (F := F) V c) (defs₀ (F := F)) Variants.none () Set.univ := fun t => by
  rw [bigSep_W3, bigSep_W3]
  exact sound_body3 V c t

end Region

end Cert.Kernel.Hand

end
-- ==== Proof.KbArr3.lean ====
/-
  Layer 3's arrays on the way into and out of the layer.

  The layer's five windows stand on four arrays: the feature array (twice), the propagation matrices, the weights and the
  layer's result. Going in, the feature array's full share is dealt to its two windows as the left and the right half;
  coming out, the two halves — both still at the contents the layer found, since no input is written — are joined
  again, and the result array holds what the eight write-backs left. Every other buffer is untouched.
-/
import proofs.«138473_g71811853189805_cont_9to1_m_833_2_alg».proof.Proof.KbDat3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The four arrays behind the layer's five windows. -/
theorem arrRefs3 : Finset.univ.image (Pipeline.arrRef spec3) = {main_call0_v2, main_arg1, main_arg2, main_v0} := by decide

/-- Those four buffers, each whole at the full share. -/
theorem arrBufs3_eq (c : Dev nD) (W : (b : Ref sig .tc) → Buf (Elt F) ((c : Thread nD τ).loc b)) :
    (Pipeline.arrBufs (Ix := Unit) (Name := ℕ) (U := UR sig nD τ) (Lvl := ℕ) spec3 c W : sProp 𝕄)
      = iprop(((((c : Thread nD τ).loc main_call0_v2)) ↦{fullShare} W main_call0_v2) ∗ ((((c : Thread nD τ).loc main_arg1)) ↦{fullShare} W main_arg1)
          ∗ ((((c : Thread nD τ).loc main_arg2)) ↦{fullShare} W main_arg2) ∗ ((((c : Thread nD τ).loc main_v0)) ↦{fullShare} W main_v0)) := by
  unfold Pipeline.arrBufs
  rw [arrRefs3, BI.bigSep_insert (by decide), BI.bigSep_insert (by decide), BI.bigSep_insert (by decide), BI.bigSep_singleton]
  rfl

/-- The windows' arrays at their shares: the feature array's two windows at the two halves. -/
theorem arrays3_eq (c : Dev nD) (G : (w : Fin cfg3.W) → Buf (Elt F) ((cfg3.win w).arr.view.loc (c : Thread nD τ))) :
    ((dat3 V c).arrays G : sProp 𝕄)
      = iprop(((((c : Thread nD τ).loc main_call0_v2)) ↦{fullShare.left} G 0) ∗ ((((c : Thread nD τ).loc main_call0_v2)) ↦{fullShare.right} G 1)
          ∗ ((((c : Thread nD τ).loc main_arg1)) ↦{fullShare} G 2) ∗ ((((c : Thread nD τ).loc main_arg2)) ↦{fullShare} G 3) ∗ ((((c : Thread nD τ).loc main_v0)) ↦{fullShare} G 4)) := by
  unfold Dat.arrays
  rw [bigSep_W3, (arr_whole3 0).set_eq_univ, (arr_whole3 2).set_eq_univ,
    (arr_whole3 3).set_eq_univ, (arr_whole3 4).set_eq_univ]
  rfl

/-- Going in: the core's unscoped buffers are the layer's arrays as it finds them, and the rest. -/
theorem enter3 (c : Dev nD) :
    (unscopedBufs c (V c) : sProp 𝕄)
      ⊢ iprop((dat3 V c).arrays ((dat3 V c).arrAt · 0) ∗ Pipeline.unscopedRest (Ix := Unit) (Name := ℕ) (U := UR sig nD τ) (Lvl := ℕ) spec3 c (V c)) := by
  have hs : (unscopedBufs c (V c) : sProp 𝕄) = iprop(Pipeline.arrBufs spec3 c (V c) ∗ Pipeline.unscopedRest spec3 c (V c)) :=
    Pipeline.unscopedBufs_split₀ cfgs (3 : Fin 4) winFacts₀3.arr_unscoped c (V c)
  rw [hs, arrBufs3_eq, arrays3_eq]
  iintro ⟨⟨Hh, Ha, Hw, Ho⟩, Hrest⟩
  ihave Hh' := (pointsTo_share (PosShare.mem_left_op_right fullShare)).1 $$ Hh
  icases Hh' with ⟨HL, HR⟩
  isplitr [Hrest]
  swap; · iexact Hrest
  isplitl [HL]; · iexact HL
  isplitl [HR]; · iexact HR
  isplitl [Ha]; · iexact Ha
  isplitl [Hw]; · iexact Hw
  iexact Ho

/-- Coming out: the layer's arrays as the write-backs leave them, beside the untouched rest, are the core's unscoped
    buffers at any contents that have the result array at what was written and agree with the old ones elsewhere. -/
theorem leave3 (c : Dev nD) (V' : (b : Ref sig .tc) → Buf (Elt F) ((c : Thread nD τ).loc b))
    (hout : V' main_v0 = (dat3 V c).arrAt 4 cfg3.N) (hrest : ∀ b, b ≠ main_v0 → V' b = V c b) :
    iprop((dat3 V c).arrays ((dat3 V c).arrAt · cfg3.N) ∗ Pipeline.unscopedRest (Ix := Unit) (Name := ℕ) (U := UR sig nD τ) (Lvl := ℕ) spec3 c (V c))
      ⊢ (unscopedBufs c V' : sProp 𝕄) := by
  have hs : (unscopedBufs c V' : sProp 𝕄) = iprop(Pipeline.arrBufs spec3 c V' ∗ Pipeline.unscopedRest spec3 c V') :=
    Pipeline.unscopedBufs_split₀ cfgs (3 : Fin 4) winFacts₀3.arr_unscoped c V'
  rw [hs, arrBufs3_eq, arrays3_eq,
    (dat3 V c).arrAt_in 0 rfl, (dat3 V c).arrAt_in 1 rfl, (dat3 V c).arrAt_in 2 rfl, (dat3 V c).arrAt_in 3 rfl,
    hout, hrest main_call0_v2 (by decide), hrest main_arg1 (by decide), hrest main_arg2 (by decide)]
  iintro ⟨⟨HL, HR, Ha, Hw, Ho⟩, Hrest⟩
  isplitr [Hrest]
  swap
  · iapply (Entails.of_eq (show (Pipeline.unscopedRest (Ix := Unit) (Name := ℕ) (U := UR sig nD τ) (Lvl := ℕ) spec3 c (V c) : sProp 𝕄)
        = Pipeline.unscopedRest spec3 c V' from by
      unfold Pipeline.unscopedRest
      exact bigSep_congr fun b hb => by
        rw [hrest b (fun e => (Finset.mem_sdiff.mp hb).2 (by rw [e, arrRefs3]; decide))]))
    iexact Hrest
  isplitl [HL HR]
  · iapply (pointsTo_share (PosShare.mem_left_op_right fullShare)).2
    isplitl [HL]; · iexact HL
    iexact HR
  isplitl [Ha]; · iexact Ha
  isplitl [Hw]; · iexact Hw
  iexact Ho

end Region

end Cert.Kernel.Hand

end
-- ==== Proof.KbRun.lean ====
/-
  The four layers in order: the whole program's run.

  Between two layers every unscoped buffer of a core is held at known contents: as launched, then with each layer's
  result array at what that layer's write-backs leave. Each layer is entered from the contents before it and left at
  the contents after it, so the program's run ends with the last result array at the fourth layer's result — computed
  from the third's, and so on down to the launch contents of the arguments — and the three argument arrays as launched,
  no layer having written one.
-/
import proofs.«138473_g71811853189805_cont_9to1_m_833_2_alg».proof.Proof.KbArr0
import proofs.«138473_g71811853189805_cont_9to1_m_833_2_alg».proof.Proof.KbArr1
import proofs.«138473_g71811853189805_cont_9to1_m_833_2_alg».proof.Proof.KbArr2
import proofs.«138473_g71811853189805_cont_9to1_m_833_2_alg».proof.Proof.KbArr3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold between the layers -/

/-- Core `c`'s buffers at launch. -/
abbrev W0 (c : Dev nD) : Valuation τ sig (Elt F) := fun b => m (c, b)
/-- The same read at the TensorCore's references. -/
abbrev R0 : (c : Dev nD) → (b : Ref sig .tc) → Buf (Elt F) ((c : Thread nD τ).loc b) := fun c b => W0 m c b

/-- Layer 0's result: what its eight write-backs leave in its result array. -/
def res0 (c : Dev nD) : Buf (Elt F) ((c : Thread nD τ).loc main_call0_v0) := (dat0 (R0 m) c).arrAt 4 cfg0.N
/-- Core `c`'s buffers after layer 0: as before it, with the result array at the layer's result. -/
def W1 (c : Dev nD) : Valuation τ sig (Elt F) := Function.update (W0 m c) main_call0_v0 (res0 m c)
/-- The same read at the TensorCore's references. -/
abbrev R1 : (c : Dev nD) → (b : Ref sig .tc) → Buf (Elt F) ((c : Thread nD τ).loc b) := fun c b => W1 m c b
theorem W1_res (c : Dev nD) : R1 m c main_call0_v0 = res0 m c := by
  show W1 m c (Proc.devRef .tc main_call0_v0) = _
  unfold W1; exact Function.update_self _ _ _
theorem W1_of_ne (c : Dev nD) (b : Ref sig .tc) (h : b ≠ main_call0_v0) : R1 m c b = R0 m c b := by
  show W1 m c (Proc.devRef .tc b) = W0 m c (Proc.devRef .tc b)
  unfold W1; exact Function.update_of_ne (StableHlo.devRef_ne_of_ne h) _ _

/-- Layer 1's result: what its eight write-backs leave in its result array. -/
def res1 (c : Dev nD) : Buf (Elt F) ((c : Thread nD τ).loc main_call0_v1) := (dat1 (R1 m) c).arrAt 4 cfg1.N
/-- Core `c`'s buffers after layer 1: as before it, with the result array at the layer's result. -/
def W2 (c : Dev nD) : Valuation τ sig (Elt F) := Function.update (W1 m c) main_call0_v1 (res1 m c)
/-- The same read at the TensorCore's references. -/
abbrev R2 : (c : Dev nD) → (b : Ref sig .tc) → Buf (Elt F) ((c : Thread nD τ).loc b) := fun c b => W2 m c b
theorem W2_res (c : Dev nD) : R2 m c main_call0_v1 = res1 m c := by
  show W2 m c (Proc.devRef .tc main_call0_v1) = _
  unfold W2; exact Function.update_self _ _ _
theorem W2_of_ne (c : Dev nD) (b : Ref sig .tc) (h : b ≠ main_call0_v1) : R2 m c b = R1 m c b := by
  show W2 m c (Proc.devRef .tc b) = W1 m c (Proc.devRef .tc b)
  unfold W2; exact Function.update_of_ne (StableHlo.devRef_ne_of_ne h) _ _

/-- Layer 2's result: what its eight write-backs leave in its result array. -/
def res2 (c : Dev nD) : Buf (Elt F) ((c : Thread nD τ).loc main_call0_v2) := (dat2 (R2 m) c).arrAt 4 cfg2.N
/-- Core `c`'s buffers after layer 2: as before it, with the result array at the layer's result. -/
def W3 (c : Dev nD) : Valuation τ sig (Elt F) := Function.update (W2 m c) main_call0_v2 (res2 m c)
/-- The same read at the TensorCore's references. -/
abbrev R3 : (c : Dev nD) → (b : Ref sig .tc) → Buf (Elt F) ((c : Thread nD τ).loc b) := fun c b => W3 m c b
theorem W3_res (c : Dev nD) : R3 m c main_call0_v2 = res2 m c := by
  show W3 m c (Proc.devRef .tc main_call0_v2) = _
  unfold W3; exact Function.update_self _ _ _
theorem W3_of_ne (c : Dev nD) (b : Ref sig .tc) (h : b ≠ main_call0_v2) : R3 m c b = R2 m c b := by
  show W3 m c (Proc.devRef .tc b) = W2 m c (Proc.devRef .tc b)
  unfold W3; exact Function.update_of_ne (StableHlo.devRef_ne_of_ne h) _ _

/-- Layer 3's result: what its eight write-backs leave in its result array. -/
def res3 (c : Dev nD) : Buf (Elt F) ((c : Thread nD τ).loc main_v0) := (dat3 (R3 m) c).arrAt 4 cfg3.N
/-- Core `c`'s buffers after layer 3: as before it, with the result array at the layer's result. -/
def W4 (c : Dev nD) : Valuation τ sig (Elt F) := Function.update (W3 m c) main_v0 (res3 m c)
/-- The same read at the TensorCore's references. -/
abbrev R4 : (c : Dev nD) → (b : Ref sig .tc) → Buf (Elt F) ((c : Thread nD τ).loc b) := fun c b => W4 m c b
theorem W4_res (c : Dev nD) : R4 m c main_v0 = res3 m c := by
  show W4 m c (Proc.devRef .tc main_v0) = _
  unfold W4; exact Function.update_self _ _ _
theorem W4_of_ne (c : Dev nD) (b : Ref sig .tc) (h : b ≠ main_v0) : R4 m c b = R3 m c b := by
  show W4 m c (Proc.devRef .tc b) = W3 m c (Proc.devRef .tc b)
  unfold W4; exact Function.update_of_ne (StableHlo.devRef_ne_of_ne h) _ _

/-- An argument array is no layer's result: it reaches the end as launched. -/
theorem R4_arg (c : Dev nD) (b : Ref sig .tc) (h0 : b ≠ main_call0_v0) (h1 : b ≠ main_call0_v1) (h2 : b ≠ main_call0_v2) (h3 : b ≠ main_v0) :
    R4 m c b = m ((c : Thread nD τ).loc b) :=
  (W4_of_ne m c b h3).trans <| (W3_of_ne m c b h2).trans <| (W2_of_ne m c b h1).trans <| (W1_of_ne m c b h0).trans rfl

/-! ## The layers' data and the state that rides along -/

/-- No layer has a prefetched table. -/
abbrev adm : (p : Fin 4) → (pcfgs (F := F) p).Adm := fun p => (cfgs p).toPCfg_adm
/-- Every layer's data, each at the contents it is entered from. -/
def pdats : (p : Fin 4) → (c : Dev nD) → Dat τ (Elt F) Unit ℕ (UR sig nD τ) ℕ (Pipeline.pin (pcfgs (F := F)) adm p) c
  | ⟨0, _⟩ => fun c => dat0 (R0 m) c
  | ⟨1, _⟩ => fun c => dat1 (R1 m) c
  | ⟨2, _⟩ => fun c => dat2 (R2 m) c
  | ⟨3, _⟩ => fun c => dat3 (R3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every layer: the generator register at some state, and nothing owed. -/
abbrev Rest (c : Dev nD) : sProp 𝕄 := iprop((∃ r, prngReg c r) ∗ ∃ W, owes (c : Thread nD τ) (0 : CellTallies nD τ sig Unit) W)

/-- A whole buffer at some contents, said either way. -/
theorem some_scratch (c : Dev nD) (b : Ref sig .tc) :
    (iprop(∃ X, owns (c : Thread nD τ) (Memref.whole b) fullShare X) : sProp 𝕄) = iprop(∃ f : Buf (Elt F) ((c : Thread nD τ).loc b), ((c : Thread nD τ).loc b) ↦{fullShare} f) := by
  simp only [owns_whole]

/-- An unscoped TensorCore reference is among those the state between layers holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The layers as pieces of the program -/

-- a library lemma stated over the pinned configuration unifies with the printed one only when unification may unfold
-- plain definitions in a metavariable's type
set_option backward.isDefEq.respectTransparency.types false in
/-- Layer 0 as a piece of the program: entered with every unscoped buffer at the contents before it, left with the
    layer's result array at what its write-backs leave and every other buffer as it was. The feature array is dealt to
    its two windows going in and joined coming out; the scratch goes into the layer's invariant at anything and comes
    back at anything; the generator register and the unread buffers pass by; nothing is owed. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (R0 m) c).loose
  hwaits := Pipeline.hwaits_of_owed_zero _ _ _ _ L lv 0 fun _ _ => rfl
  pre c := iprop(StableHlo.held (c : Thread nD τ) (Pipeline.ucRefs τ sig) (W0 m c) ∗ Rest c)
  post c := iprop(StableHlo.held (c : Thread nD τ) (Pipeline.ucRefs τ sig) (W1 m c) ∗ Rest c)
  X c := iprop(emp)
  Y c := iprop(emp)
  Z c := iprop(Pipeline.unscopedRest (Ix := Unit) (Name := ℕ) (U := UR sig nD τ) (Lvl := ℕ) spec0 c (R0 m c) ∗ ∃ r, prngReg c r)
  hentry c := by
    rw [Pipeline.ownSems0_none]
    have hsplit := enter0 (R0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    have hs : (Pipeline.scopedRest (Ix := Unit) (Name := ℕ) (U := UR sig nD τ) (Lvl := ℕ) (Val := Elt F) (Pipeline.pin (pcfgs (F := F)) adm 0).spec c : sProp 𝕄)
        = iprop(iprop((∃ f : Buf (Elt F) ((c : Thread nD τ).loc cc0_scratch0), ((c : Thread nD τ).loc cc0_scratch0) ↦{fullShare} f))
          ∗ Pipeline.scopedRestBut (Ix := Unit) (Name := ℕ) (U := UR sig nD τ) (Lvl := ℕ) (Val := Elt F) spec0 c [cc0_scratch0]) := scopedRest0_split c
    rw [show (pdats m 0 c).Φ 0 = _ from inv0_first (R0 m) c 0 rfl, hs, some_scratch c cc0_scratch0]
    iintro ⟨-, -, ⟨Hs, Hr⟩⟩
    isplitl [Hr]; · iexact Hr
    iexact Hs
  hout c := by
    have hs : (Pipeline.scopedRest (Ix := Unit) (Name := ℕ) (U := UR sig nD τ) (Lvl := ℕ) (Val := Elt F) (Pipeline.pin (pcfgs (F := F)) adm 0).spec c : sProp 𝕄)
        = iprop(iprop((∃ f : Buf (Elt F) ((c : Thread nD τ).loc cc0_scratch0), ((c : Thread nD τ).loc cc0_scratch0) ↦{fullShare} f))
          ∗ Pipeline.scopedRestBut (Ix := Unit) (Name := ℕ) (U := UR sig nD τ) (Lvl := ℕ) (Val := Elt F) spec0 c [cc0_scratch0]) := scopedRest0_split c
    rw [Pipeline.ownSems0_none, show (pdats m 0 c).Φ (Fin.last _) = _ from inv0_later (R0 m) c (Fin.last _) (by rw [Fin.val_last, show cfg0.N = 8 from N_0]; decide),
      hs, owns_whole]
    iintro ⟨Hr, Hs⟩
    isplitr; · iempintro
    isplitr; · iempintro
    isplitl [Hs]; · iexists _; iexact Hs
    iexact Hr
  hexit c := by
    have hjoin := leave0 (R0 m) c (R1 m c) (W1_res m c) (fun b hb => W1_of_ne m c b hb)
    rw [Pipeline.unscopedBufs_held] at hjoin
    iintro ⟨Ha, HO, -, ⟨Hrest, Hp⟩⟩
    imodintro
    isplitl [Ha Hrest]
    · iapply hjoin
      isplitl [Ha]; · iexact Ha
      iexact Hrest
    isplitl [Hp]; · iexact Hp
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Layer 1 as a piece of the program: entered with every unscoped buffer at the contents before it, left with the
    layer's result array at what its write-backs leave and every other buffer as it was. The feature array is dealt to
    its two windows going in and joined coming out; the scratch goes into the layer's invariant at anything and comes
    back at anything; the generator register and the unread buffers pass by; nothing is owed. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (R1 m) c).loose
  hwaits := Pipeline.hwaits_of_owed_zero _ _ _ _ L lv 1 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(emp)
  Y c := iprop(emp)
  Z c := iprop(Pipeline.unscopedRest (Ix := Unit) (Name := ℕ) (U := UR sig nD τ) (Lvl := ℕ) spec1 c (R1 m c) ∗ ∃ r, prngReg c r)
  hentry c := by
    rw [Pipeline.ownSems0_none]
    have hsplit := enter1 (R1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    have hs : (Pipeline.scopedRest (Ix := Unit) (Name := ℕ) (U := UR sig nD τ) (Lvl := ℕ) (Val := Elt F) (Pipeline.pin (pcfgs (F := F)) adm 1).spec c : sProp 𝕄)
        = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) := scopedRest1_split c
    rw [show (pdats m 1 c).Φ 0 = _ from inv1_first (R1 m) c 0 rfl, hs, some_scratch c cc1_scratch0]
    iintro ⟨-, -, ⟨Hs, Hr⟩⟩
    isplitl [Hr]; · iexact Hr
    iexact Hs
  hout c := by
    have hs : (Pipeline.scopedRest (Ix := Unit) (Name := ℕ) (U := UR sig nD τ) (Lvl := ℕ) (Val := Elt F) (Pipeline.pin (pcfgs (F := F)) adm 1).spec c : sProp 𝕄)
        = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) := scopedRest1_split c
    rw [Pipeline.ownSems0_none, show (pdats m 1 c).Φ (Fin.last _) = _ from inv1_later (R1 m) c (Fin.last _) (by rw [Fin.val_last, show cfg1.N = 8 from N_1]; decide),
      hs, owns_whole]
    iintro ⟨Hr, Hs⟩
    isplitr; · iempintro
    isplitr; · iempintro
    isplitl [Hs]; · iexists _; iexact Hs
    iexact Hr
  hexit c := by
    have hjoin := leave1 (R1 m) c (R2 m c) (W2_res m c) (fun b hb => W2_of_ne m c b hb)
    rw [Pipeline.unscopedBufs_held] at hjoin
    iintro ⟨Ha, HO, -, ⟨Hrest, Hp⟩⟩
    imodintro
    isplitl [Ha Hrest]
    · iapply hjoin
      isplitl [Ha]; · iexact Ha
      iexact Hrest
    isplitl [Hp]; · iexact Hp
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Layer 2 as a piece of the program: entered with every unscoped buffer at the contents before it, left with the
    layer's result array at what its write-backs leave and every other buffer as it was. The feature array is dealt to
    its two windows going in and joined coming out; the scratch goes into the layer's invariant at anything and comes
    back at anything; the generator register and the unread buffers pass by; nothing is owed. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (R2 m) c).loose
  hwaits := Pipeline.hwaits_of_owed_zero _ _ _ _ L lv 2 fun _ _ => rfl
  pre c := iprop(StableHlo.held (c : Thread nD τ) (Pipeline.ucRefs τ sig) (W2 m c) ∗ Rest c)
  post c := iprop(StableHlo.held (c : Thread nD τ) (Pipeline.ucRefs τ sig) (W3 m c) ∗ Rest c)
  X c := iprop(emp)
  Y c := iprop(emp)
  Z c := iprop(Pipeline.unscopedRest (Ix := Unit) (Name := ℕ) (U := UR sig nD τ) (Lvl := ℕ) spec2 c (R2 m c) ∗ ∃ r, prngReg c r)
  hentry c := by
    rw [Pipeline.ownSems0_none]
    have hsplit := enter2 (R2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    have hs : (Pipeline.scopedRest (Ix := Unit) (Name := ℕ) (U := UR sig nD τ) (Lvl := ℕ) (Val := Elt F) (Pipeline.pin (pcfgs (F := F)) adm 2).spec c : sProp 𝕄)
        = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) := scopedRest2_split c
    rw [show (pdats m 2 c).Φ 0 = _ from inv2_first (R2 m) c 0 rfl, hs, some_scratch c cc2_scratch0]
    iintro ⟨-, -, ⟨Hs, Hr⟩⟩
    isplitl [Hr]; · iexact Hr
    iexact Hs
  hout c := by
    have hs : (Pipeline.scopedRest (Ix := Unit) (Name := ℕ) (U := UR sig nD τ) (Lvl := ℕ) (Val := Elt F) (Pipeline.pin (pcfgs (F := F)) adm 2).spec c : sProp 𝕄)
        = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) := scopedRest2_split c
    rw [Pipeline.ownSems0_none, show (pdats m 2 c).Φ (Fin.last _) = _ from inv2_later (R2 m) c (Fin.last _) (by rw [Fin.val_last, show cfg2.N = 8 from N_2]; decide),
      hs, owns_whole]
    iintro ⟨Hr, Hs⟩
    isplitr; · iempintro
    isplitr; · iempintro
    isplitl [Hs]; · iexists _; iexact Hs
    iexact Hr
  hexit c := by
    have hjoin := leave2 (R2 m) c (R3 m c) (W3_res m c) (fun b hb => W3_of_ne m c b hb)
    rw [Pipeline.unscopedBufs_held] at hjoin
    iintro ⟨Ha, HO, -, ⟨Hrest, Hp⟩⟩
    imodintro
    isplitl [Ha Hrest]
    · iapply hjoin
      isplitl [Ha]; · iexact Ha
      iexact Hrest
    isplitl [Hp]; · iexact Hp
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Layer 3 as a piece of the program: entered with every unscoped buffer at the contents before it, left with the
    layer's result array at what its write-backs leave and every other buffer as it was. The feature array is dealt to
    its two windows going in and joined coming out; the scratch goes into the layer's invariant at anything and comes
    back at anything; the generator register and the unread buffers pass by; nothing is owed. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (R3 m) c).loose
  hwaits := Pipeline.hwaits_of_owed_zero _ _ _ _ L lv 3 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(emp)
  Y c := iprop(emp)
  Z c := iprop(Pipeline.unscopedRest (Ix := Unit) (Name := ℕ) (U := UR sig nD τ) (Lvl := ℕ) spec3 c (R3 m c) ∗ ∃ r, prngReg c r)
  hentry c := by
    rw [Pipeline.ownSems0_none]
    have hsplit := enter3 (R3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    have hs : (Pipeline.scopedRest (Ix := Unit) (Name := ℕ) (U := UR sig nD τ) (Lvl := ℕ) (Val := Elt F) (Pipeline.pin (pcfgs (F := F)) adm 3).spec c : sProp 𝕄)
        = iprop(iprop((∃ f : Buf (Elt F) ((c : Thread nD τ).loc cc3_scratch0), ((c : Thread nD τ).loc cc3_scratch0) ↦{fullShare} f))
          ∗ Pipeline.scopedRestBut (Ix := Unit) (Name := ℕ) (U := UR sig nD τ) (Lvl := ℕ) (Val := Elt F) spec3 c [cc3_scratch0]) := scopedRest3_split c
    rw [show (pdats m 3 c).Φ 0 = _ from inv3_first (R3 m) c 0 rfl, hs, some_scratch c cc3_scratch0]
    iintro ⟨-, -, ⟨Hs, Hr⟩⟩
    isplitl [Hr]; · iexact Hr
    iexact Hs
  hout c := by
    have hs : (Pipeline.scopedRest (Ix := Unit) (Name := ℕ) (U := UR sig nD τ) (Lvl := ℕ) (Val := Elt F) (Pipeline.pin (pcfgs (F := F)) adm 3).spec c : sProp 𝕄)
        = iprop(iprop((∃ f : Buf (Elt F) ((c : Thread nD τ).loc cc3_scratch0), ((c : Thread nD τ).loc cc3_scratch0) ↦{fullShare} f))
          ∗ Pipeline.scopedRestBut (Ix := Unit) (Name := ℕ) (U := UR sig nD τ) (Lvl := ℕ) (Val := Elt F) spec3 c [cc3_scratch0]) := scopedRest3_split c
    rw [Pipeline.ownSems0_none, show (pdats m 3 c).Φ (Fin.last _) = _ from inv3_later (R3 m) c (Fin.last _) (by rw [Fin.val_last, show cfg3.N = 8 from N_3]; decide),
      hs, owns_whole]
    iintro ⟨Hr, Hs⟩
    isplitr; · iempintro
    isplitr; · iempintro
    isplitl [Hs]; · iexists _; iexact Hs
    iexact Hr
  hexit c := by
    have hjoin := leave3 (R3 m) c (R4 m c) (W4_res m c) (fun b hb => W4_of_ne m c b hb)
    rw [Pipeline.unscopedBufs_held] at hjoin
    iintro ⟨Ha, HO, -, ⟨Hrest, Hp⟩⟩
    imodintro
    isplitl [Ha Hrest]
    · iapply hjoin
      isplitl [Ha]; · iexact Ha
      iexact Hrest
    isplitl [Hp]; · iexact Hp
    unfold Pipeline.Dat.owesAt Pipeline.owesWithin
    icases HO with ⟨%W, -, HO⟩; iexists W; iexact HO

/-- The program's four pieces in order. -/
abbrev segs : List (Pipeline.Seg (pcfgs (F := F)) adm (pdats m) () defs₀ 𝒱₀ L lv) :=
  [.region (reg0 m), .region (reg1 m), .region (reg2 m), .region (reg3 m)]

/-- The program is the run of its pieces. -/
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and ends with the last result array at the fourth layer's result and the three arguments as launched. -/
theorem run : θ_run defs (onTc (τ := τ) (main (F := F))) ⟨m, fun _ => 0, ρ⟩ (fun r => ∀ c : Dev nD,
      r.2.mem ((c.tc : Thread nD τ).loc main_v0) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c))
    (Tₙ := fun c => StableHlo.held (c : Thread nD τ) (Pipeline.ucRefs τ sig) (W4 m c))
    (hch := ⟨fun _ => .rfl, fun _ => .rfl, fun _ => .rfl, fun _ => .rfl, fun c => by
      show (iprop(StableHlo.held (c : Thread nD τ) (Pipeline.ucRefs τ sig) (W4 m c) ∗ Rest c) : sProp 𝕄)
        ⊢ iprop(StableHlo.held (c : Thread nD τ) (Pipeline.ucRefs τ sig) (W4 m c) ∗ ∃ W, owes (c : Thread nD τ) (0 : CellTallies nD τ sig Unit) W)
      iintro ⟨Hh, -, HO⟩
      isplitl [Hh]; · iexact Hh
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨Hh, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v0 (by decide))).trans (W4_res m c),
       (h c _ (mem_uc main_arg0 (by decide))).trans (R4_arg m c main_arg0 (by decide) (by decide) (by decide) (by decide)),
       (h c _ (mem_uc main_arg1 (by decide))).trans (R4_arg m c main_arg1 (by decide) (by decide) (by decide) (by decide)),
       (h c _ (mem_uc main_arg2 (by decide))).trans (R4_arg m c main_arg2 (by decide) (by decide) (by decide) (by decide))⟩)

end Cert.Kernel.Hand

end
-- ==== Proof.KiBody0.lean ====
/-
  The body of layer 0's kernel, run once in each of its two cases.

  At the first grid point the body forms the dense transform of the whole feature array by the layer's weight block,
  keeps it in its scratch array, and then, as at every later point, multiplies the point's block of 512 rows of the
  propagation matrix by the kept transform, halves it, adds half the block of features and takes the maximum with zero.
  Both runs are stated over whole buffers at named contents: the four inputs come back as they were, the output block
  ends at the block payload of the inputs and the kept transform, and the scratch ends at the transform (first point)
  or as it was (later points). What the body loads from the output block and, at the first point, from the scratch
  before storing is not used, so those two buffers may hold anything on entry.
-/
import proofs.«138473_g71811853189805_cont_9to1_m_833_2_alg».proof.Proof.Gen.KernelIdeal.Launch
import proofs.«138473_g71811853189805_cont_9to1_m_833_2_alg».proof.Proof.Gen.KernelIdeal.Skeleton
import proofs.«138473_g71811853189805_cont_9to1_m_833_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two ways the whole-buffer offsets are spelt are the zero offsets. -/
private theorem hz2 : (![0, 0] : Fin 2 → Nat) = fun _ => 0 := by funext a; match a with | ⟨0, _⟩ => rfl | ⟨1, _⟩ => rfl
private theorem hz3 : (![0, 0, 0] : Fin 3 → Nat) = fun _ => 0 := by funext a; match a with | ⟨0, _⟩ => rfl | ⟨1, _⟩ => rfl | ⟨2, _⟩ => rfl

/-- "This is the first grid point", as the body tests it: the point's coordinate compared with zero, widened, and
    compared with zero again. -/
abbrev first0 (i : grid0.Coords) : Prop := (Scalar.cmpi .ne (Scalar.extui (Scalar.cmpi .eq (BitVec.ofNat 32 (i 0).val) 0#32)) 0#32) = 1#1

set_option maxHeartbeats 1000000 in
/-- The body at the first point: the scratch ends at the transform of the whole features by the weight block, and the
    output block at the block payload over that transform. -/
theorem run_first0 (c : Dev nD) (E : Set ℕ) (i : grid0.Coords) (hc : first0 i)
    (arg1 : Memref sig .tc .vmem S4096x512 .f32) (harg1 : arg1.IsWhole) (arg2 : Memref sig .tc .vmem S512x512 .f32) (harg2 : arg2.IsWhole)
    (arg3 : Memref sig .tc .vmem S1x512x4096 .f32) (harg3 : arg3.IsWhole) (arg4 : Memref sig .tc .vmem S1x512x512 .f32) (harg4 : arg4.IsWhole)
    (arg5 : Memref sig .tc .vmem S512x512 .f32) (harg5 : arg5.IsWhole) (arg6 : Memref sig .tc .vmem S4096x512 .bf16) (harg6 : arg6.IsWhole)
    (x1 : Vec F S4096x512 .f32) (x2 : Vec F S512x512 .f32) (x3 : Vec F S1x512x4096 .f32) (x4 : Vec F S1x512x512 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay2 x3 (k0_pay1 x1 x4) x2)
            ∗ owns (c : Thread nD τ) arg6 fullShare (k0_pay1 x1 x4)) -∗ K ⟨⟩))
      ⊢ wp frame (wpE (defs₀ (F := F)) Variants.none c none) E (cc0__layer_kernel i arg1 harg1 arg2 harg2 arg3 harg3 arg4 harg4 arg5 harg5 arg6 harg6) K := by
  simp only [cc0__layer_kernel_eq_skeleton]; unfold cc0__layer_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (fun y => ⟨_, List.mem_singleton_self _, View.mem_set_unit_zero hz2 inb_S512x512_S512x512_0_0 y⟩), View.canon_unit_zero hz2]
    sl_unfold_words
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]
  · iexists _; isplitr
    swap; · iexact H6
    ipureintro
    sl_unfold_words
    rw [View.read_writes_eq_canon _ _ _ (fun y => ⟨_, List.mem_singleton_self _, View.mem_set_unit_zero hz2 inb_S4096x512_S4096x512_0_0 y⟩), View.canon_unit_zero hz2]
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]

set_option maxHeartbeats 1000000 in
/-- The body at a later point: the scratch, holding `T`, is read and left as it was, and the output block ends at the
    block payload over `T`. -/
theorem run_later0 (c : Dev nD) (E : Set ℕ) (i : grid0.Coords) (hc : ¬ first0 i)
    (arg1 : Memref sig .tc .vmem S4096x512 .f32) (harg1 : arg1.IsWhole) (arg2 : Memref sig .tc .vmem S512x512 .f32) (harg2 : arg2.IsWhole)
    (arg3 : Memref sig .tc .vmem S1x512x4096 .f32) (harg3 : arg3.IsWhole) (arg4 : Memref sig .tc .vmem S1x512x512 .f32) (harg4 : arg4.IsWhole)
    (arg5 : Memref sig .tc .vmem S512x512 .f32) (harg5 : arg5.IsWhole) (arg6 : Memref sig .tc .vmem S4096x512 .bf16) (harg6 : arg6.IsWhole)
    (x1 : Vec F S4096x512 .f32) (x2 : Vec F S512x512 .f32) (x3 : Vec F S1x512x4096 .f32) (x4 : Vec F S1x512x512 .f32)
    (T : Vec F S4096x512 .bf16) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ owns (c : Thread nD τ) arg6 fullShare T
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay2 x3 T x2)
            ∗ owns (c : Thread nD τ) arg6 fullShare T) -∗ K ⟨⟩))
      ⊢ wp frame (wpE (defs₀ (F := F)) Variants.none c none) E (cc0__layer_kernel i arg1 harg1 arg2 harg2 arg3 harg3 arg4 harg4 arg5 harg5 arg6 harg6) K := by
  simp only [cc0__layer_kernel_eq_skeleton]; unfold cc0__layer_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1 hf2 hf3 hf4 hf6
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (fun y => ⟨_, List.mem_singleton_self _, View.mem_set_unit_zero hz2 inb_S512x512_S512x512_0_0 y⟩), View.canon_unit_zero hz2]
    sl_unfold_words
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]
  · iexists f6; isplitr; · ipureintro; rfl
    iexact H6

end Cert.KernelIdeal.Hand

end
-- ==== Proof.KiDat0.lean ====
/-
  Layer 0's kernel over its grid of eight row blocks: what every buffer holds between grid points.

  The layer reads the feature array through two windows — whole, for the dense transform formed once at the first
  point, and block by block, for the half that is added back — so the two windows hold that array at complementary
  shares. Each input window's buffer holds its block of the array at every point. The scratch holds anything before the
  first point and the transform of the whole features by the layer's weights from then on; the output window's buffer
  holds, after point t, the block payload of the t-th row block of the propagation matrix, the kept transform and
  the t-th block of features. With that the body's two runs give the obligation at every point.
-/
import proofs.«138473_g71811853189805_cont_9to1_m_833_2_alg».proof.Proof.KiBody0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the layer finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: where it is not fetched again
    its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not: where it is not fetched again
    its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not: where it is not fetched again
    its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not: where it is not fetched again
    its block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The test the body makes holds at the first point only. -/
theorem hfirst0 : ∀ t : Fin cfg0.N, first0 (grid0.coords t) ↔ t.val = 0 :=
  (by decide +kernel : ∀ t : Fin grid0.N, first0 (grid0.coords t) ↔ t.val = 0)

/-- What the scratch keeps from the first point on: the dense transform of the whole feature array by the layer's
    weight block. -/
def kept0 (c : Dev nD) : Vec F S4096x512 .bf16 := k0_pay1 (iblk0 V c 0 t0_0) (iblk0 V c 3 t0_0)

/-- The layer's data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (iblk0 V c 2 t) (kept0 V c) (iblk0 V c 1 t)
  Φ t := iprop(Pipeline.scopedRestBut (Ix := Unit) (Name := ℕ) (U := UR sig nD τ) (Lvl := ℕ) (Val := Elt F) spec0 c [cc0_scratch0]
    ∗ (if t.val = 0 then iprop(∃ X, owns (c : Thread nD τ) (Memref.whole cc0_scratch0) fullShare X)
       else owns (c : Thread nD τ) (Memref.whole cc0_scratch0) fullShare (kept0 V c)))
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay2 (iblk0 V c 2 t) (kept0 V c) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- The invariant before the first point: the scratch at anything. -/
theorem inv0_first (c : Dev nD) (t : Fin (cfg0.N + 1)) (h : t.val = 0) :
    (dat0 V c).Φ t = iprop(Pipeline.scopedRestBut (Ix := Unit) (Name := ℕ) (U := UR sig nD τ) (Lvl := ℕ) (Val := Elt F) spec0 c [cc0_scratch0]
      ∗ ∃ X, owns (c : Thread nD τ) (Memref.whole cc0_scratch0) fullShare X) := by
  dsimp only [dat0]; rw [if_pos h]
/-- The invariant after any point: the scratch at the kept transform. -/
theorem inv0_later (c : Dev nD) (t : Fin (cfg0.N + 1)) (h : t.val ≠ 0) :
    (dat0 V c).Φ t = iprop(Pipeline.scopedRestBut (Ix := Unit) (Name := ℕ) (U := UR sig nD τ) (Lvl := ℕ) (Val := Elt F) spec0 c [cc0_scratch0]
      ∗ owns (c : Thread nD τ) (Memref.whole cc0_scratch0) fullShare (kept0 V c)) := by
  dsimp only [dat0]; rw [if_neg h]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: at the first point the run that forms the transform, at the others the run that reads it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4,
    inv0_later V c t.succ (by rw [Fin.val_succ]; exact Nat.succ_ne_zero _)]
  by_cases ht : t.val = 0
  · have hc : first0 (grid0.coords t) := (hfirst0 t).mpr ht
    have hk : kept0 V c = k0_pay1 (iblk0 V c 0 t) (iblk0 V c 3 t) := by
      have e : t = t0_0 := Fin.ext ht
      rw [e]; rfl
    rw [inv0_first V c t.castSucc (by rw [Fin.coe_castSucc]; exact ht), hk]
    iintro ⟨⟨Hr, Hs⟩, Ho, ⟨%d0, H0⟩, ⟨%d1, H1⟩, ⟨%d2, H2⟩, ⟨%d3, H3⟩, ⟨%d4, H4⟩⟩
    iapply (run_first0 c Set.univ (grid0.coords t) hc _ _ _ _ _ _ _ _ _ _ _ _ (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hr Hs]
    · isplitl [Hr]; · iexact Hr
      iexact Hs
    isplitl [Ho]; · iexact Ho
    isplitl [H0]; · iexact H0
    isplitl [H1]; · iexact H1
    isplitl [H2]; · iexact H2
    isplitl [H3]; · iexact H3
    iexact H4
  · have hc : ¬ first0 (grid0.coords t) := fun h => ht ((hfirst0 t).mp h)
    rw [inv0_later V c t.castSucc (by rw [Fin.coe_castSucc]; exact ht)]
    iintro ⟨⟨Hr, Hs⟩, Ho, ⟨%d0, H0⟩, ⟨%d1, H1⟩, ⟨%d2, H2⟩, ⟨%d3, H3⟩, ⟨%d4, H4⟩⟩
    iapply (run_later0 c Set.univ (grid0.coords t) hc _ _ _ _ _ _ _ _ _ _ _ _ (iblk0 V c 0 t) (iblk0 V c 1 t) (iblk0 V c 2 t) (iblk0 V c 3 t) (kept0 V c) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hr Hs]
    · isplitl [Hr]; · iexact Hr
      iexact Hs
    isplitl [Ho]; · iexact Ho
    isplitl [H0]; · iexact H0
    isplitl [H1]; · iexact H1
    isplitl [H2]; · iexact H2
    isplitl [H3]; · iexact H3
    iexact H4

/-- The body's obligation at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KiArr0.lean ====
/-
  Layer 0's arrays on the way into and out of the layer.

  The layer's five windows stand on four arrays: the feature array (twice), the propagation matrices, the weights and the
  layer's result. Going in, the feature array's full share is dealt to its two windows as the left and the right half;
  coming out, the two halves — both still at the contents the layer found, since no input is written — are joined
  again, and the result array holds what the eight write-backs left. Every other buffer is untouched.
-/
import proofs.«138473_g71811853189805_cont_9to1_m_833_2_alg».proof.Proof.KiDat0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The four arrays behind the layer's five windows. -/
theorem arrRefs0 : Finset.univ.image (Pipeline.arrRef spec0) = {main_arg0, main_arg1, main_arg2, main_call0_v0} := by decide

/-- Those four buffers, each whole at the full share. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop(((((c : Thread nD τ).loc main_arg0)) ↦{fullShare} W main_arg0) ∗ ((((c : Thread nD τ).loc main_arg1)) ↦{fullShare} W main_arg1)
          ∗ ((((c : Thread nD τ).loc main_arg2)) ↦{fullShare} W main_arg2) ∗ ((((c : Thread nD τ).loc main_call0_v0)) ↦{fullShare} W main_call0_v0)) := by
  unfold Pipeline.arrBufs
  rw [arrRefs0, BI.bigSep_insert (by decide), BI.bigSep_insert (by decide), BI.bigSep_insert (by decide), BI.bigSep_singleton]
  rfl

/-- The windows' arrays at their shares: the feature array's two windows at the two halves. -/
theorem arrays0_eq (c : Dev nD) (G : (w : Fin cfg0.W) → Buf (Elt F) ((cfg0.win w).arr.view.loc (c : Thread nD τ))) :
    ((dat0 V c).arrays G : sProp 𝕄)
      = iprop(((((c : Thread nD τ).loc main_arg0)) ↦{fullShare.left} G 0) ∗ ((((c : Thread nD τ).loc main_arg0)) ↦{fullShare.right} G 1)
          ∗ ((((c : Thread nD τ).loc main_arg1)) ↦{fullShare} G 2) ∗ ((((c : Thread nD τ).loc main_arg2)) ↦{fullShare} G 3) ∗ ((((c : Thread nD τ).loc main_call0_v0)) ↦{fullShare} G 4)) := by
  unfold Dat.arrays
  rw [bigSep_W0, (arr_whole0 0).set_eq_univ, (arr_whole0 2).set_eq_univ,
    (arr_whole0 3).set_eq_univ, (arr_whole0 4).set_eq_univ]
  rfl

/-- Going in: the core's unscoped buffers are the layer's arrays as it finds them, and the rest. -/
theorem enter0 (c : Dev nD) :
    (unscopedBufs c (V c) : sProp 𝕄)
      ⊢ iprop((dat0 V c).arrays ((dat0 V c).arrAt · 0) ∗ Pipeline.unscopedRest (Ix := Unit) (Name := ℕ) (U := UR sig nD τ) (Lvl := ℕ) spec0 c (V c)) := by
  have hs : (unscopedBufs c (V c) : sProp 𝕄) = iprop(Pipeline.arrBufs spec0 c (V c) ∗ Pipeline.unscopedRest spec0 c (V c)) :=
    Pipeline.unscopedBufs_split₀ cfgs (0 : Fin 4) winFacts₀0.arr_unscoped c (V c)
  rw [hs, arrBufs0_eq, arrays0_eq]
  iintro ⟨⟨Hh, Ha, Hw, Ho⟩, Hrest⟩
  ihave Hh' := (pointsTo_share (PosShare.mem_left_op_right fullShare)).1 $$ Hh
  icases Hh' with ⟨HL, HR⟩
  isplitr [Hrest]
  swap; · iexact Hrest
  isplitl [HL]; · iexact HL
  isplitl [HR]; · iexact HR
  isplitl [Ha]; · iexact Ha
  isplitl [Hw]; · iexact Hw
  iexact Ho

/-- Coming out: the layer's arrays as the write-backs leave them, beside the untouched rest, are the core's unscoped
    buffers at any contents that have the result array at what was written and agree with the old ones elsewhere. -/
theorem leave0 (c : Dev nD) (V' : (b : Ref sig .tc) → Buf (Elt F) ((c : Thread nD τ).loc b))
    (hout : V' main_call0_v0 = (dat0 V c).arrAt 4 cfg0.N) (hrest : ∀ b, b ≠ main_call0_v0 → V' b = V c b) :
    iprop((dat0 V c).arrays ((dat0 V c).arrAt · cfg0.N) ∗ Pipeline.unscopedRest (Ix := Unit) (Name := ℕ) (U := UR sig nD τ) (Lvl := ℕ) spec0 c (V c))
      ⊢ (unscopedBufs c V' : sProp 𝕄) := by
  have hs : (unscopedBufs c V' : sProp 𝕄) = iprop(Pipeline.arrBufs spec0 c V' ∗ Pipeline.unscopedRest spec0 c V') :=
    Pipeline.unscopedBufs_split₀ cfgs (0 : Fin 4) winFacts₀0.arr_unscoped c V'
  rw [hs, arrBufs0_eq, arrays0_eq,
    (dat0 V c).arrAt_in 0 rfl, (dat0 V c).arrAt_in 1 rfl, (dat0 V c).arrAt_in 2 rfl, (dat0 V c).arrAt_in 3 rfl,
    hout, hrest main_arg0 (by decide), hrest main_arg1 (by decide), hrest main_arg2 (by decide)]
  iintro ⟨⟨HL, HR, Ha, Hw, Ho⟩, Hrest⟩
  isplitr [Hrest]
  swap
  · iapply (Entails.of_eq (show (Pipeline.unscopedRest (Ix := Unit) (Name := ℕ) (U := UR sig nD τ) (Lvl := ℕ) spec0 c (V c) : sProp 𝕄)
        = Pipeline.unscopedRest spec0 c V' from by
      unfold Pipeline.unscopedRest
      exact bigSep_congr fun b hb => by
        rw [hrest b (fun e => (Finset.mem_sdiff.mp hb).2 (by rw [e, arrRefs0]; decide))]))
    iexact Hrest
  isplitl [HL HR]
  · iapply (pointsTo_share (PosShare.mem_left_op_right fullShare)).2
    isplitl [HL]; · iexact HL
    iexact HR
  isplitl [Ha]; · iexact Ha
  isplitl [Hw]; · iexact Hw
  iexact Ho

end Region

end Cert.KernelIdeal.Hand

end
-- ==== Proof.KiBody1.lean ====
/-
  The body of layer 1's kernel, run once in each of its two cases.

  At the first grid point the body forms the dense transform of the whole feature array by the layer's weight block,
  keeps it in its scratch array, and then, as at every later point, multiplies the point's block of 512 rows of the
  propagation matrix by the kept transform, halves it, adds half the block of features and takes the maximum with zero.
  Both runs are stated over whole buffers at named contents: the four inputs come back as they were, the output block
  ends at the block payload of the inputs and the kept transform, and the scratch ends at the transform (first point)
  or as it was (later points). What the body loads from the output block and, at the first point, from the scratch
  before storing is not used, so those two buffers may hold anything on entry.
-/
import proofs.«138473_g71811853189805_cont_9to1_m_833_2_alg».proof.Proof.Gen.KernelIdeal.Launch
import proofs.«138473_g71811853189805_cont_9to1_m_833_2_alg».proof.Proof.Gen.KernelIdeal.Skeleton
import proofs.«138473_g71811853189805_cont_9to1_m_833_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two ways the whole-buffer offsets are spelt are the zero offsets. -/
private theorem hz2 : (![0, 0] : Fin 2 → Nat) = fun _ => 0 := by funext a; match a with | ⟨0, _⟩ => rfl | ⟨1, _⟩ => rfl
private theorem hz3 : (![0, 0, 0] : Fin 3 → Nat) = fun _ => 0 := by funext a; match a with | ⟨0, _⟩ => rfl | ⟨1, _⟩ => rfl | ⟨2, _⟩ => rfl

/-- "This is the first grid point", as the body tests it: the point's coordinate compared with zero, widened, and
    compared with zero again. -/
abbrev first1 (i : grid1.Coords) : Prop := (Scalar.cmpi .ne (Scalar.extui (Scalar.cmpi .eq (BitVec.ofNat 32 (i 0).val) 0#32)) 0#32) = 1#1

set_option maxHeartbeats 1000000 in
/-- The body at the first point: the scratch ends at the transform of the whole features by the weight block, and the
    output block at the block payload over that transform. -/
theorem run_first1 (c : Dev nD) (E : Set ℕ) (i : grid1.Coords) (hc : first1 i)
    (arg1 : Memref sig .tc .vmem S4096x512 .f32) (harg1 : arg1.IsWhole) (arg2 : Memref sig .tc .vmem S512x512 .f32) (harg2 : arg2.IsWhole)
    (arg3 : Memref sig .tc .vmem S1x512x4096 .f32) (harg3 : arg3.IsWhole) (arg4 : Memref sig .tc .vmem S1x512x512 .f32) (harg4 : arg4.IsWhole)
    (arg5 : Memref sig .tc .vmem S512x512 .f32) (harg5 : arg5.IsWhole) (arg6 : Memref sig .tc .vmem S4096x512 .bf16) (harg6 : arg6.IsWhole)
    (x1 : Vec F S4096x512 .f32) (x2 : Vec F S512x512 .f32) (x3 : Vec F S1x512x4096 .f32) (x4 : Vec F S1x512x512 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k1_pay2 x3 (k1_pay1 x1 x4) x2)
            ∗ owns (c : Thread nD τ) arg6 fullShare (k1_pay1 x1 x4)) -∗ K ⟨⟩))
      ⊢ wp frame (wpE (defs₀ (F := F)) Variants.none c none) E (cc1__layer_kernel i arg1 harg1 arg2 harg2 arg3 harg3 arg4 harg4 arg5 harg5 arg6 harg6) K := by
  simp only [cc1__layer_kernel_eq_skeleton]; unfold cc1__layer_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (fun y => ⟨_, List.mem_singleton_self _, View.mem_set_unit_zero hz2 inb_S512x512_S512x512_0_0 y⟩), View.canon_unit_zero hz2]
    sl_unfold_words
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]
  · iexists _; isplitr
    swap; · iexact H6
    ipureintro
    sl_unfold_words
    rw [View.read_writes_eq_canon _ _ _ (fun y => ⟨_, List.mem_singleton_self _, View.mem_set_unit_zero hz2 inb_S4096x512_S4096x512_0_0 y⟩), View.canon_unit_zero hz2]
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]

set_option maxHeartbeats 1000000 in
/-- The body at a later point: the scratch, holding `T`, is read and left as it was, and the output block ends at the
    block payload over `T`. -/
theorem run_later1 (c : Dev nD) (E : Set ℕ) (i : grid1.Coords) (hc : ¬ first1 i)
    (arg1 : Memref sig .tc .vmem S4096x512 .f32) (harg1 : arg1.IsWhole) (arg2 : Memref sig .tc .vmem S512x512 .f32) (harg2 : arg2.IsWhole)
    (arg3 : Memref sig .tc .vmem S1x512x4096 .f32) (harg3 : arg3.IsWhole) (arg4 : Memref sig .tc .vmem S1x512x512 .f32) (harg4 : arg4.IsWhole)
    (arg5 : Memref sig .tc .vmem S512x512 .f32) (harg5 : arg5.IsWhole) (arg6 : Memref sig .tc .vmem S4096x512 .bf16) (harg6 : arg6.IsWhole)
    (x1 : Vec F S4096x512 .f32) (x2 : Vec F S512x512 .f32) (x3 : Vec F S1x512x4096 .f32) (x4 : Vec F S1x512x512 .f32)
    (T : Vec F S4096x512 .bf16) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ owns (c : Thread nD τ) arg6 fullShare T
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k1_pay2 x3 T x2)
            ∗ owns (c : Thread nD τ) arg6 fullShare T) -∗ K ⟨⟩))
      ⊢ wp frame (wpE (defs₀ (F := F)) Variants.none c none) E (cc1__layer_kernel i arg1 harg1 arg2 harg2 arg3 harg3 arg4 harg4 arg5 harg5 arg6 harg6) K := by
  simp only [cc1__layer_kernel_eq_skeleton]; unfold cc1__layer_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1 hf2 hf3 hf4 hf6
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (fun y => ⟨_, List.mem_singleton_self _, View.mem_set_unit_zero hz2 inb_S512x512_S512x512_0_0 y⟩), View.canon_unit_zero hz2]
    sl_unfold_words
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]
  · iexists f6; isplitr; · ipureintro; rfl
    iexact H6

end Cert.KernelIdeal.Hand

end
-- ==== Proof.KiDat1.lean ====
/-
  Layer 1's kernel over its grid of eight row blocks: what every buffer holds between grid points.

  The layer reads the feature array through two windows — whole, for the dense transform formed once at the first
  point, and block by block, for the half that is added back — so the two windows hold that array at complementary
  shares. Each input window's buffer holds its block of the array at every point. The scratch holds anything before the
  first point and the transform of the whole features by the layer's weights from then on; the output window's buffer
  holds, after point t, the block payload of the t-th row block of the propagation matrix, the kept transform and
  the t-th block of features. With that the body's two runs give the obligation at every point.
-/
import proofs.«138473_g71811853189805_cont_9to1_m_833_2_alg».proof.Proof.KiBody1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the layer finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not: where it is not fetched again
    its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not: where it is not fetched again
    its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not: where it is not fetched again
    its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not: where it is not fetched again
    its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The test the body makes holds at the first point only. -/
theorem hfirst1 : ∀ t : Fin cfg1.N, first1 (grid1.coords t) ↔ t.val = 0 :=
  (by decide +kernel : ∀ t : Fin grid1.N, first1 (grid1.coords t) ↔ t.val = 0)

/-- What the scratch keeps from the first point on: the dense transform of the whole feature array by the layer's
    weight block. -/
def kept1 (c : Dev nD) : Vec F S4096x512 .bf16 := k1_pay1 (iblk1 V c 0 t1_0) (iblk1 V c 3 t1_0)

/-- The layer's data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay2 (iblk1 V c 2 t) (kept1 V c) (iblk1 V c 1 t)
  Φ t := iprop(Pipeline.scopedRestBut (Ix := Unit) (Name := ℕ) (U := UR sig nD τ) (Lvl := ℕ) (Val := Elt F) spec1 c [cc1_scratch0]
    ∗ (if t.val = 0 then iprop(∃ X, owns (c : Thread nD τ) (Memref.whole cc1_scratch0) fullShare X)
       else owns (c : Thread nD τ) (Memref.whole cc1_scratch0) fullShare (kept1 V c)))
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay2 (iblk1 V c 2 t) (kept1 V c) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The invariant before the first point: the scratch at anything. -/
theorem inv1_first (c : Dev nD) (t : Fin (cfg1.N + 1)) (h : t.val = 0) :
    (dat1 V c).Φ t = iprop(Pipeline.scopedRestBut (Ix := Unit) (Name := ℕ) (U := UR sig nD τ) (Lvl := ℕ) (Val := Elt F) spec1 c [cc1_scratch0]
      ∗ ∃ X, owns (c : Thread nD τ) (Memref.whole cc1_scratch0) fullShare X) := by
  dsimp only [dat1]; rw [if_pos h]
/-- The invariant after any point: the scratch at the kept transform. -/
theorem inv1_later (c : Dev nD) (t : Fin (cfg1.N + 1)) (h : t.val ≠ 0) :
    (dat1 V c).Φ t = iprop(Pipeline.scopedRestBut (Ix := Unit) (Name := ℕ) (U := UR sig nD τ) (Lvl := ℕ) (Val := Elt F) spec1 c [cc1_scratch0]
      ∗ owns (c : Thread nD τ) (Memref.whole cc1_scratch0) fullShare (kept1 V c)) := by
  dsimp only [dat1]; rw [if_neg h]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: at the first point the run that forms the transform, at the others the run that reads it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4,
    inv1_later V c t.succ (by rw [Fin.val_succ]; exact Nat.succ_ne_zero _)]
  by_cases ht : t.val = 0
  · have hc : first1 (grid1.coords t) := (hfirst1 t).mpr ht
    have hk : kept1 V c = k1_pay1 (iblk1 V c 0 t) (iblk1 V c 3 t) := by
      have e : t = t1_0 := Fin.ext ht
      rw [e]; rfl
    rw [inv1_first V c t.castSucc (by rw [Fin.coe_castSucc]; exact ht), hk]
    iintro ⟨⟨Hr, Hs⟩, Ho, ⟨%d0, H0⟩, ⟨%d1, H1⟩, ⟨%d2, H2⟩, ⟨%d3, H3⟩, ⟨%d4, H4⟩⟩
    iapply (run_first1 c Set.univ (grid1.coords t) hc _ _ _ _ _ _ _ _ _ _ _ _ (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hr Hs]
    · isplitl [Hr]; · iexact Hr
      iexact Hs
    isplitl [Ho]; · iexact Ho
    isplitl [H0]; · iexact H0
    isplitl [H1]; · iexact H1
    isplitl [H2]; · iexact H2
    isplitl [H3]; · iexact H3
    iexact H4
  · have hc : ¬ first1 (grid1.coords t) := fun h => ht ((hfirst1 t).mp h)
    rw [inv1_later V c t.castSucc (by rw [Fin.coe_castSucc]; exact ht)]
    iintro ⟨⟨Hr, Hs⟩, Ho, ⟨%d0, H0⟩, ⟨%d1, H1⟩, ⟨%d2, H2⟩, ⟨%d3, H3⟩, ⟨%d4, H4⟩⟩
    iapply (run_later1 c Set.univ (grid1.coords t) hc _ _ _ _ _ _ _ _ _ _ _ _ (iblk1 V c 0 t) (iblk1 V c 1 t) (iblk1 V c 2 t) (iblk1 V c 3 t) (kept1 V c) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hr Hs]
    · isplitl [Hr]; · iexact Hr
      iexact Hs
    isplitl [Ho]; · iexact Ho
    isplitl [H0]; · iexact H0
    isplitl [H1]; · iexact H1
    isplitl [H2]; · iexact H2
    isplitl [H3]; · iexact H3
    iexact H4

/-- The body's obligation at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KiArr1.lean ====
/-
  Layer 1's arrays on the way into and out of the layer.

  The layer's five windows stand on four arrays: the feature array (twice), the propagation matrices, the weights and the
  layer's result. Going in, the feature array's full share is dealt to its two windows as the left and the right half;
  coming out, the two halves — both still at the contents the layer found, since no input is written — are joined
  again, and the result array holds what the eight write-backs left. Every other buffer is untouched.
-/
import proofs.«138473_g71811853189805_cont_9to1_m_833_2_alg».proof.Proof.KiDat1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The four arrays behind the layer's five windows. -/
theorem arrRefs1 : Finset.univ.image (Pipeline.arrRef spec1) = {main_call0_v0, main_arg1, main_arg2, main_call0_v1} := by decide

/-- Those four buffers, each whole at the full share. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop(((((c : Thread nD τ).loc main_call0_v0)) ↦{fullShare} W main_call0_v0) ∗ ((((c : Thread nD τ).loc main_arg1)) ↦{fullShare} W main_arg1)
          ∗ ((((c : Thread nD τ).loc main_arg2)) ↦{fullShare} W main_arg2) ∗ ((((c : Thread nD τ).loc main_call0_v1)) ↦{fullShare} W main_call0_v1)) := by
  unfold Pipeline.arrBufs
  rw [arrRefs1, BI.bigSep_insert (by decide), BI.bigSep_insert (by decide), BI.bigSep_insert (by decide), BI.bigSep_singleton]
  rfl

/-- The windows' arrays at their shares: the feature array's two windows at the two halves. -/
theorem arrays1_eq (c : Dev nD) (G : (w : Fin cfg1.W) → Buf (Elt F) ((cfg1.win w).arr.view.loc (c : Thread nD τ))) :
    ((dat1 V c).arrays G : sProp 𝕄)
      = iprop(((((c : Thread nD τ).loc main_call0_v0)) ↦{fullShare.left} G 0) ∗ ((((c : Thread nD τ).loc main_call0_v0)) ↦{fullShare.right} G 1)
          ∗ ((((c : Thread nD τ).loc main_arg1)) ↦{fullShare} G 2) ∗ ((((c : Thread nD τ).loc main_arg2)) ↦{fullShare} G 3) ∗ ((((c : Thread nD τ).loc main_call0_v1)) ↦{fullShare} G 4)) := by
  unfold Dat.arrays
  rw [bigSep_W1, (arr_whole1 0).set_eq_univ, (arr_whole1 2).set_eq_univ,
    (arr_whole1 3).set_eq_univ, (arr_whole1 4).set_eq_univ]
  rfl

/-- Going in: the core's unscoped buffers are the layer's arrays as it finds them, and the rest. -/
theorem enter1 (c : Dev nD) :
    (unscopedBufs c (V c) : sProp 𝕄)
      ⊢ iprop((dat1 V c).arrays ((dat1 V c).arrAt · 0) ∗ Pipeline.unscopedRest (Ix := Unit) (Name := ℕ) (U := UR sig nD τ) (Lvl := ℕ) spec1 c (V c)) := by
  have hs : (unscopedBufs c (V c) : sProp 𝕄) = iprop(Pipeline.arrBufs spec1 c (V c) ∗ Pipeline.unscopedRest spec1 c (V c)) :=
    Pipeline.unscopedBufs_split₀ cfgs (1 : Fin 4) winFacts₀1.arr_unscoped c (V c)
  rw [hs, arrBufs1_eq, arrays1_eq]
  iintro ⟨⟨Hh, Ha, Hw, Ho⟩, Hrest⟩
  ihave Hh' := (pointsTo_share (PosShare.mem_left_op_right fullShare)).1 $$ Hh
  icases Hh' with ⟨HL, HR⟩
  isplitr [Hrest]
  swap; · iexact Hrest
  isplitl [HL]; · iexact HL
  isplitl [HR]; · iexact HR
  isplitl [Ha]; · iexact Ha
  isplitl [Hw]; · iexact Hw
  iexact Ho

/-- Coming out: the layer's arrays as the write-backs leave them, beside the untouched rest, are the core's unscoped
    buffers at any contents that have the result array at what was written and agree with the old ones elsewhere. -/
theorem leave1 (c : Dev nD) (V' : (b : Ref sig .tc) → Buf (Elt F) ((c : Thread nD τ).loc b))
    (hout : V' main_call0_v1 = (dat1 V c).arrAt 4 cfg1.N) (hrest : ∀ b, b ≠ main_call0_v1 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c V' : sProp 𝕄) := by
  have hs : (unscopedBufs c V' : sProp 𝕄) = iprop(Pipeline.arrBufs spec1 c V' ∗ Pipeline.unscopedRest spec1 c V') :=
    Pipeline.unscopedBufs_split₀ cfgs (1 : Fin 4) winFacts₀1.arr_unscoped c V'
  rw [hs, arrBufs1_eq, arrays1_eq,
    (dat1 V c).arrAt_in 0 rfl, (dat1 V c).arrAt_in 1 rfl, (dat1 V c).arrAt_in 2 rfl, (dat1 V c).arrAt_in 3 rfl,
    hout, hrest main_call0_v0 (by decide), hrest main_arg1 (by decide), hrest main_arg2 (by decide)]
  iintro ⟨⟨HL, HR, Ha, Hw, Ho⟩, Hrest⟩
  isplitr [Hrest]
  swap
  · iapply (Entails.of_eq (show (Pipeline.unscopedRest (Ix := Unit) (Name := ℕ) (U := UR sig nD τ) (Lvl := ℕ) spec1 c (V c) : sProp 𝕄)
        = Pipeline.unscopedRest spec1 c V' from by
      unfold Pipeline.unscopedRest
      exact bigSep_congr fun b hb => by
        rw [hrest b (fun e => (Finset.mem_sdiff.mp hb).2 (by rw [e, arrRefs1]; decide))]))
    iexact Hrest
  isplitl [HL HR]
  · iapply (pointsTo_share (PosShare.mem_left_op_right fullShare)).2
    isplitl [HL]; · iexact HL
    iexact HR
  isplitl [Ha]; · iexact Ha
  isplitl [Hw]; · iexact Hw
  iexact Ho

end Region

end Cert.KernelIdeal.Hand

end
-- ==== Proof.KiBody2.lean ====
/-
  The body of layer 2's kernel, run once in each of its two cases.

  At the first grid point the body forms the dense transform of the whole feature array by the layer's weight block,
  keeps it in its scratch array, and then, as at every later point, multiplies the point's block of 512 rows of the
  propagation matrix by the kept transform, halves it, adds half the block of features and takes the maximum with zero.
  Both runs are stated over whole buffers at named contents: the four inputs come back as they were, the output block
  ends at the block payload of the inputs and the kept transform, and the scratch ends at the transform (first point)
  or as it was (later points). What the body loads from the output block and, at the first point, from the scratch
  before storing is not used, so those two buffers may hold anything on entry.
-/
import proofs.«138473_g71811853189805_cont_9to1_m_833_2_alg».proof.Proof.Gen.KernelIdeal.Launch
import proofs.«138473_g71811853189805_cont_9to1_m_833_2_alg».proof.Proof.Gen.KernelIdeal.Skeleton
import proofs.«138473_g71811853189805_cont_9to1_m_833_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two ways the whole-buffer offsets are spelt are the zero offsets. -/
private theorem hz2 : (![0, 0] : Fin 2 → Nat) = fun _ => 0 := by funext a; match a with | ⟨0, _⟩ => rfl | ⟨1, _⟩ => rfl
private theorem hz3 : (![0, 0, 0] : Fin 3 → Nat) = fun _ => 0 := by funext a; match a with | ⟨0, _⟩ => rfl | ⟨1, _⟩ => rfl | ⟨2, _⟩ => rfl

/-- "This is the first grid point", as the body tests it: the point's coordinate compared with zero, widened, and
    compared with zero again. -/
abbrev first2 (i : grid2.Coords) : Prop := (Scalar.cmpi .ne (Scalar.extui (Scalar.cmpi .eq (BitVec.ofNat 32 (i 0).val) 0#32)) 0#32) = 1#1

set_option maxHeartbeats 1000000 in
/-- The body at the first point: the scratch ends at the transform of the whole features by the weight block, and the
    output block at the block payload over that transform. -/
theorem run_first2 (c : Dev nD) (E : Set ℕ) (i : grid2.Coords) (hc : first2 i)
    (arg1 : Memref sig .tc .vmem S4096x512 .f32) (harg1 : arg1.IsWhole) (arg2 : Memref sig .tc .vmem S512x512 .f32) (harg2 : arg2.IsWhole)
    (arg3 : Memref sig .tc .vmem S1x512x4096 .f32) (harg3 : arg3.IsWhole) (arg4 : Memref sig .tc .vmem S1x512x512 .f32) (harg4 : arg4.IsWhole)
    (arg5 : Memref sig .tc .vmem S512x512 .f32) (harg5 : arg5.IsWhole) (arg6 : Memref sig .tc .vmem S4096x512 .bf16) (harg6 : arg6.IsWhole)
    (x1 : Vec F S4096x512 .f32) (x2 : Vec F S512x512 .f32) (x3 : Vec F S1x512x4096 .f32) (x4 : Vec F S1x512x512 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k2_pay2 x3 (k2_pay1 x1 x4) x2)
            ∗ owns (c : Thread nD τ) arg6 fullShare (k2_pay1 x1 x4)) -∗ K ⟨⟩))
      ⊢ wp frame (wpE (defs₀ (F := F)) Variants.none c none) E (cc2__layer_kernel i arg1 harg1 arg2 harg2 arg3 harg3 arg4 harg4 arg5 harg5 arg6 harg6) K := by
  simp only [cc2__layer_kernel_eq_skeleton]; unfold cc2__layer_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (fun y => ⟨_, List.mem_singleton_self _, View.mem_set_unit_zero hz2 inb_S512x512_S512x512_0_0 y⟩), View.canon_unit_zero hz2]
    sl_unfold_words
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]
  · iexists _; isplitr
    swap; · iexact H6
    ipureintro
    sl_unfold_words
    rw [View.read_writes_eq_canon _ _ _ (fun y => ⟨_, List.mem_singleton_self _, View.mem_set_unit_zero hz2 inb_S4096x512_S4096x512_0_0 y⟩), View.canon_unit_zero hz2]
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]

set_option maxHeartbeats 1000000 in
/-- The body at a later point: the scratch, holding `T`, is read and left as it was, and the output block ends at the
    block payload over `T`. -/
theorem run_later2 (c : Dev nD) (E : Set ℕ) (i : grid2.Coords) (hc : ¬ first2 i)
    (arg1 : Memref sig .tc .vmem S4096x512 .f32) (harg1 : arg1.IsWhole) (arg2 : Memref sig .tc .vmem S512x512 .f32) (harg2 : arg2.IsWhole)
    (arg3 : Memref sig .tc .vmem S1x512x4096 .f32) (harg3 : arg3.IsWhole) (arg4 : Memref sig .tc .vmem S1x512x512 .f32) (harg4 : arg4.IsWhole)
    (arg5 : Memref sig .tc .vmem S512x512 .f32) (harg5 : arg5.IsWhole) (arg6 : Memref sig .tc .vmem S4096x512 .bf16) (harg6 : arg6.IsWhole)
    (x1 : Vec F S4096x512 .f32) (x2 : Vec F S512x512 .f32) (x3 : Vec F S1x512x4096 .f32) (x4 : Vec F S1x512x512 .f32)
    (T : Vec F S4096x512 .bf16) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ owns (c : Thread nD τ) arg6 fullShare T
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k2_pay2 x3 T x2)
            ∗ owns (c : Thread nD τ) arg6 fullShare T) -∗ K ⟨⟩))
      ⊢ wp frame (wpE (defs₀ (F := F)) Variants.none c none) E (cc2__layer_kernel i arg1 harg1 arg2 harg2 arg3 harg3 arg4 harg4 arg5 harg5 arg6 harg6) K := by
  simp only [cc2__layer_kernel_eq_skeleton]; unfold cc2__layer_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1 hf2 hf3 hf4 hf6
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (fun y => ⟨_, List.mem_singleton_self _, View.mem_set_unit_zero hz2 inb_S512x512_S512x512_0_0 y⟩), View.canon_unit_zero hz2]
    sl_unfold_words
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]
  · iexists f6; isplitr; · ipureintro; rfl
    iexact H6

end Cert.KernelIdeal.Hand

end
-- ==== Proof.KiDat2.lean ====
/-
  Layer 2's kernel over its grid of eight row blocks: what every buffer holds between grid points.

  The layer reads the feature array through two windows — whole, for the dense transform formed once at the first
  point, and block by block, for the half that is added back — so the two windows hold that array at complementary
  shares. Each input window's buffer holds its block of the array at every point. The scratch holds anything before the
  first point and the transform of the whole features by the layer's weights from then on; the output window's buffer
  holds, after point t, the block payload of the t-th row block of the propagation matrix, the kept transform and
  the t-th block of features. With that the body's two runs give the obligation at every point.
-/
import proofs.«138473_g71811853189805_cont_9to1_m_833_2_alg».proof.Proof.KiBody2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the layer finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not: where it is not fetched again
    its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not: where it is not fetched again
    its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not: where it is not fetched again
    its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not: where it is not fetched again
    its block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The test the body makes holds at the first point only. -/
theorem hfirst2 : ∀ t : Fin cfg2.N, first2 (grid2.coords t) ↔ t.val = 0 :=
  (by decide +kernel : ∀ t : Fin grid2.N, first2 (grid2.coords t) ↔ t.val = 0)

/-- What the scratch keeps from the first point on: the dense transform of the whole feature array by the layer's
    weight block. -/
def kept2 (c : Dev nD) : Vec F S4096x512 .bf16 := k2_pay1 (iblk2 V c 0 t2_0) (iblk2 V c 3 t2_0)

/-- The layer's data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay2 (iblk2 V c 2 t) (kept2 V c) (iblk2 V c 1 t)
  Φ t := iprop(Pipeline.scopedRestBut (Ix := Unit) (Name := ℕ) (U := UR sig nD τ) (Lvl := ℕ) (Val := Elt F) spec2 c [cc2_scratch0]
    ∗ (if t.val = 0 then iprop(∃ X, owns (c : Thread nD τ) (Memref.whole cc2_scratch0) fullShare X)
       else owns (c : Thread nD τ) (Memref.whole cc2_scratch0) fullShare (kept2 V c)))
  q w := match w with
    | ⟨0, _⟩ => fullShare.left
    | ⟨1, _⟩ => fullShare.right
    | ⟨2, _⟩ => fullShare
    | ⟨3, _⟩ => fullShare
    | ⟨4, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay2 (iblk2 V c 2 t) (kept2 V c) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- The invariant before the first point: the scratch at anything. -/
theorem inv2_first (c : Dev nD) (t : Fin (cfg2.N + 1)) (h : t.val = 0) :
    (dat2 V c).Φ t = iprop(Pipeline.scopedRestBut (Ix := Unit) (Name := ℕ) (U := UR sig nD τ) (Lvl := ℕ) (Val := Elt F) spec2 c [cc2_scratch0]
      ∗ ∃ X, owns (c : Thread nD τ) (Memref.whole cc2_scratch0) fullShare X) := by
  dsimp only [dat2]; rw [if_pos h]
/-- The invariant after any point: the scratch at the kept transform. -/
theorem inv2_later (c : Dev nD) (t : Fin (cfg2.N + 1)) (h : t.val ≠ 0) :
    (dat2 V c).Φ t = iprop(Pipeline.scopedRestBut (Ix := Unit) (Name := ℕ) (U := UR sig nD τ) (Lvl := ℕ) (Val := Elt F) spec2 c [cc2_scratch0]
      ∗ owns (c : Thread nD τ) (Memref.whole cc2_scratch0) fullShare (kept2 V c)) := by
  dsimp only [dat2]; rw [if_neg h]

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: at the first point the run that forms the transform, at the others the run that reads it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl,
    after2_0, after2_1, after2_2, after2_3, after2_4,
    inv2_later V c t.succ (by rw [Fin.val_succ]; exact Nat.succ_ne_zero _)]
  by_cases ht : t.val = 0
  · have hc : first2 (grid2.coords t) := (hfirst2 t).mpr ht
    have hk : kept2 V c = k2_pay1 (iblk2 V c 0 t) (iblk2 V c 3 t) := by
      have e : t = t2_0 := Fin.ext ht
      rw [e]; rfl
    rw [inv2_first V c t.castSucc (by rw [Fin.coe_castSucc]; exact ht), hk]
    iintro ⟨⟨Hr, Hs⟩, Ho, ⟨%d0, H0⟩, ⟨%d1, H1⟩, ⟨%d2, H2⟩, ⟨%d3, H3⟩, ⟨%d4, H4⟩⟩
    iapply (run_first2 c Set.univ (grid2.coords t) hc _ _ _ _ _ _ _ _ _ _ _ _ (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hr Hs]
    · isplitl [Hr]; · iexact Hr
      iexact Hs
    isplitl [Ho]; · iexact Ho
    isplitl [H0]; · iexact H0
    isplitl [H1]; · iexact H1
    isplitl [H2]; · iexact H2
    isplitl [H3]; · iexact H3
    iexact H4
  · have hc : ¬ first2 (grid2.coords t) := fun h => ht ((hfirst2 t).mp h)
    rw [inv2_later V c t.castSucc (by rw [Fin.coe_castSucc]; exact ht)]
    iintro ⟨⟨Hr, Hs⟩, Ho, ⟨%d0, H0⟩, ⟨%d1, H1⟩, ⟨%d2, H2⟩, ⟨%d3, H3⟩, ⟨%d4, H4⟩⟩
    iapply (run_later2 c Set.univ (grid2.coords t) hc _ _ _ _ _ _ _ _ _ _ _ _ (iblk2 V c 0 t) (iblk2 V c 1 t) (iblk2 V c 2 t) (iblk2 V c 3 t) (kept2 V c) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hr Hs]
    · isplitl [Hr]; · iexact Hr
      iexact Hs
    isplitl [Ho]; · iexact Ho
    isplitl [H0]; · iexact H0
    isplitl [H1]; · iexact H1
    isplitl [H2]; · iexact H2
    isplitl [H3]; · iexact H3
    iexact H4

/-- The body's obligation at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KiArr2.lean ====
/-
  Layer 2's arrays on the way into and out of the layer.

  The layer's five windows stand on four arrays: the feature array (twice), the propagation matrices, the weights and the
  layer's result. Going in, the feature array's full share is dealt to its two windows as the left and the right half;
  coming out, the two halves — both still at the contents the layer found, since no input is written — are joined
  again, and the result array holds what the eight write-backs left. Every other buffer is untouched.
-/
import proofs.«138473_g71811853189805_cont_9to1_m_833_2_alg».proof.Proof.KiDat2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The four arrays behind the layer's five windows. -/
theorem arrRefs2 : Finset.univ.image (Pipeline.arrRef spec2) = {main_call0_v1, main_arg1, main_arg2, main_call0_v2} := by decide

/-- Those four buffers, each whole at the full share. -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop(((((c : Thread nD τ).loc main_call0_v1)) ↦{fullShare} W main_call0_v1) ∗ ((((c : Thread nD τ).loc main_arg1)) ↦{fullShare} W main_arg1)
          ∗ ((((c : Thread nD τ).loc main_arg2)) ↦{fullShare} W main_arg2) ∗ ((((c : Thread nD τ).loc main_call0_v2)) ↦{fullShare} W main_call0_v2)) := by
  unfold Pipeline.arrBufs
  rw [arrRefs2, BI.bigSep_insert (by decide), BI.bigSep_insert (by decide), BI.bigSep_insert (by decide), BI.bigSep_singleton]
  rfl

/-- The windows' arrays at their shares: the feature array's two windows at the two halves. -/
theorem arrays2_eq (c : Dev nD) (G : (w : Fin cfg2.W) → Buf (Elt F) ((cfg2.win w).arr.view.loc (c : Thread nD τ))) :
    ((dat2 V c).arrays G : sProp 𝕄)
      = iprop(((((c : Thread nD τ).loc main_call0_v1)) ↦{fullShare.left} G 0) ∗ ((((c : Thread nD τ).loc main_call0_v1)) ↦{fullShare.right} G 1)
          ∗ ((((c : Thread nD τ).loc main_arg1)) ↦{fullShare} G 2) ∗ ((((c : Thread nD τ).loc main_arg2)) ↦{fullShare} G 3) ∗ ((((c : Thread nD τ).loc main_call0_v2)) ↦{fullShare} G 4)) := by
  unfold Dat.arrays
  rw [bigSep_W2, (arr_whole2 0).set_eq_univ, (arr_whole2 2).set_eq_univ,
    (arr_whole2 3).set_eq_univ, (arr_whole2 4).set_eq_univ]
  rfl

/-- Going in: the core's unscoped buffers are the layer's arrays as it finds them, and the rest. -/
theorem enter2 (c : Dev nD) :
    (unscopedBufs c (V c) : sProp 𝕄)
      ⊢ iprop((dat2 V c).arrays ((dat2 V c).arrAt · 0) ∗ Pipeline.unscopedRest (Ix := Unit) (Name := ℕ) (U := UR sig nD τ) (Lvl := ℕ) spec2 c (V c)) := by
  have hs : (unscopedBufs c (V c) : sProp 𝕄) = iprop(Pipeline.arrBufs spec2 c (V c) ∗ Pipeline.unscopedRest spec2 c (V c)) :=
    Pipeline.unscopedBufs_split₀ cfgs (2 : Fin 4) winFacts₀2.arr_unscoped c (V c)
  rw [hs, arrBufs2_eq, arrays2_eq]
  iintro ⟨⟨Hh, Ha, Hw, Ho⟩, Hrest⟩
  ihave Hh' := (pointsTo_share (PosShare.mem_left_op_right fullShare)).1 $$ Hh
  icases Hh' with ⟨HL, HR⟩
  isplitr [Hrest]
  swap; · iexact Hrest
  isplitl [HL]; · iexact HL
  isplitl [HR]; · iexact HR
  isplitl [Ha]; · iexact Ha
  isplitl [Hw]; · iexact Hw
  iexact Ho

/-- Coming out: the layer's arrays as the write-backs leave them, beside the untouched rest, are the core's unscoped
    buffers at any contents that have the result array at what was written and agree with the old ones elsewhere. -/
theorem leave2 (c : Dev nD) (V' : (b : Ref sig .tc) → Buf (Elt F) ((c : Thread nD τ).loc b))
    (hout : V' main_call0_v2 = (dat2 V c).arrAt 4 cfg2.N) (hrest : ∀ b, b ≠ main_call0_v2 → V' b = V c b) :
    iprop((dat2 V c).arrays ((dat2 V c).arrAt · cfg2.N) ∗ Pipeline.unscopedRest (Ix := Unit) (Name := ℕ) (U := UR sig nD τ) (Lvl := ℕ) spec2 c (V c))
      ⊢ (unscopedBufs c V' : sProp 𝕄) := by
  have hs : (unscopedBufs c V' : sProp 𝕄) = iprop(Pipeline.arrBufs spec2 c V' ∗ Pipeline.unscopedRest spec2 c V') :=
    Pipeline.unscopedBufs_split₀ cfgs (2 : Fin 4) winFacts₀2.arr_unscoped c V'
  rw [hs, arrBufs2_eq, arrays2_eq,
    (dat2 V c).arrAt_in 0 rfl, (dat2 V c).arrAt_in 1 rfl, (dat2 V c).arrAt_in 2 rfl, (dat2 V c).arrAt_in 3 rfl,
    hout, hrest main_call0_v1 (by decide), hrest main_arg1 (by decide), hrest main_arg2 (by decide)]
  iintro ⟨⟨HL, HR, Ha, Hw, Ho⟩, Hrest⟩
  isplitr [Hrest]
  swap
  · iapply (Entails.of_eq (show (Pipeline.unscopedRest (Ix := Unit) (Name := ℕ) (U := UR sig nD τ) (Lvl := ℕ) spec2 c (V c) : sProp 𝕄)
        = Pipeline.unscopedRest spec2 c V' from by
      unfold Pipeline.unscopedRest
      exact bigSep_congr fun b hb => by
        rw [hrest b (fun e => (Finset.mem_sdiff.mp hb).2 (by rw [e, arrRefs2]; decide))]))
    iexact Hrest
  isplitl [HL HR]
  · iapply (pointsTo_share (PosShare.mem_left_op_right fullShare)).2
    isplitl [HL]; · iexact HL
    iexact HR
  isplitl [Ha]; · iexact Ha
  isplitl [Hw]; · iexact Hw
  iexact Ho

end Region

end Cert.KernelIdeal.Hand

end
-- ==== Proof.KiBody3.lean ====
/-
  The body of layer 3's kernel, run once in each of its two cases.

  At the first grid point the body forms the dense transform of the whole feature array by the layer's weight block,
  keeps it in its scratch array, and then, as at every later point, multiplies the point's block of 512 rows of the
  propagation matrix by the kept transform, halves it, adds half the block of features and takes the maximum with zero.
  Both runs are stated over whole buffers at named contents: the four inputs come back as they were, the output block
  ends at the block payload of the inputs and the kept transform, and the scratch ends at the transform (first point)
  or as it was (later points). What the body loads from the output block and, at the first point, from the scratch
  before storing is not used, so those two buffers may hold anything on entry.
-/
import proofs.«138473_g71811853189805_cont_9to1_m_833_2_alg».proof.Proof.Gen.KernelIdeal.Launch
import proofs.«138473_g71811853189805_cont_9to1_m_833_2_alg».proof.Proof.Gen.KernelIdeal.Skeleton
import proofs.«138473_g71811853189805_cont_9to1_m_833_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two ways the whole-buffer offsets are spelt are the zero offsets. -/
private theorem hz2 : (![0, 0] : Fin 2 → Nat) = fun _ => 0 := by funext a; match a with | ⟨0, _⟩ => rfl | ⟨1, _⟩ => rfl
private theorem hz3 : (![0, 0, 0] : Fin 3 → Nat) = fun _ => 0 := by funext a; match a with | ⟨0, _⟩ => rfl | ⟨1, _⟩ => rfl | ⟨2, _⟩ => rfl

/-- "This is the first grid point", as the body tests it: the point's coordinate compared with zero, widened, and
    compared with zero again. -/
abbrev first3 (i : grid3.Coords) : Prop := (Scalar.cmpi .ne (Scalar.extui (Scalar.cmpi .eq (BitVec.ofNat 32 (i 0).val) 0#32)) 0#32) = 1#1

set_option maxHeartbeats 1000000 in
/-- The body at the first point: the scratch ends at the transform of the whole features by the weight block, and the
    output block at the block payload over that transform. -/
theorem run_first3 (c : Dev nD) (E : Set ℕ) (i : grid3.Coords) (hc : first3 i)
    (arg1 : Memref sig .tc .vmem S4096x512 .f32) (harg1 : arg1.IsWhole) (arg2 : Memref sig .tc .vmem S512x512 .f32) (harg2 : arg2.IsWhole)
    (arg3 : Memref sig .tc .vmem S1x512x4096 .f32) (harg3 : arg3.IsWhole) (arg4 : Memref sig .tc .vmem S1x512x512 .f32) (harg4 : arg4.IsWhole)
    (arg5 : Memref sig .tc .vmem S512x512 .f32) (harg5 : arg5.IsWhole) (arg6 : Memref sig .tc .vmem S4096x512 .bf16) (harg6 : arg6.IsWhole)
    (x1 : Vec F S4096x512 .f32) (x2 : Vec F S512x512 .f32) (x3 : Vec F S1x512x4096 .f32) (x4 : Vec F S1x512x512 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k3_pay2 x3 (k3_pay1 x1 x4) x2)
            ∗ owns (c : Thread nD τ) arg6 fullShare (k3_pay1 x1 x4)) -∗ K ⟨⟩))
      ⊢ wp frame (wpE (defs₀ (F := F)) Variants.none c none) E (cc3__layer_kernel i arg1 harg1 arg2 harg2 arg3 harg3 arg4 harg4 arg5 harg5 arg6 harg6) K := by
  simp only [cc3__layer_kernel_eq_skeleton]; unfold cc3__layer_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (fun y => ⟨_, List.mem_singleton_self _, View.mem_set_unit_zero hz2 inb_S512x512_S512x512_0_0 y⟩), View.canon_unit_zero hz2]
    sl_unfold_words
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]
  · iexists _; isplitr
    swap; · iexact H6
    ipureintro
    sl_unfold_words
    rw [View.read_writes_eq_canon _ _ _ (fun y => ⟨_, List.mem_singleton_self _, View.mem_set_unit_zero hz2 inb_S4096x512_S4096x512_0_0 y⟩), View.canon_unit_zero hz2]
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]

set_option maxHeartbeats 1000000 in
/-- The body at a later point: the scratch, holding `T`, is read and left as it was, and the output block ends at the
    block payload over `T`. -/
theorem run_later3 (c : Dev nD) (E : Set ℕ) (i : grid3.Coords) (hc : ¬ first3 i)
    (arg1 : Memref sig .tc .vmem S4096x512 .f32) (harg1 : arg1.IsWhole) (arg2 : Memref sig .tc .vmem S512x512 .f32) (harg2 : arg2.IsWhole)
    (arg3 : Memref sig .tc .vmem S1x512x4096 .f32) (harg3 : arg3.IsWhole) (arg4 : Memref sig .tc .vmem S1x512x512 .f32) (harg4 : arg4.IsWhole)
    (arg5 : Memref sig .tc .vmem S512x512 .f32) (harg5 : arg5.IsWhole) (arg6 : Memref sig .tc .vmem S4096x512 .bf16) (harg6 : arg6.IsWhole)
    (x1 : Vec F S4096x512 .f32) (x2 : Vec F S512x512 .f32) (x3 : Vec F S1x512x4096 .f32) (x4 : Vec F S1x512x512 .f32)
    (T : Vec F S4096x512 .bf16) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ owns (c : Thread nD τ) arg6 fullShare T
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k3_pay2 x3 T x2)
            ∗ owns (c : Thread nD τ) arg6 fullShare T) -∗ K ⟨⟩))
      ⊢ wp frame (wpE (defs₀ (F := F)) Variants.none c none) E (cc3__layer_kernel i arg1 harg1 arg2 harg2 arg3 harg3 arg4 harg4 arg5 harg5 arg6 harg6) K := by
  simp only [cc3__layer_kernel_eq_skeleton]; unfold cc3__layer_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1 hf2 hf3 hf4 hf6
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (fun y => ⟨_, List.mem_singleton_self _, View.mem_set_unit_zero hz2 inb_S512x512_S512x512_0_0 y⟩), View.canon_unit_zero hz2]
    sl_unfold_words
    simp only [View.readAt_eq_ld, View.readCov_unit_zero (S := S4096x512) arg6.view hz2, View.ld_unit_zero (S := S4096x512) hz2, View.ld_unit_zero (S := S512x512) hz2, View.ld_unit_zero (S := S1x512x4096) hz3, View.ld_unit_zero (S := S1x512x512) hz3]
  · iexists f6; isplitr; · ipureintro; rfl
    iexact H6

end Cert.KernelIdeal.Hand

end
-- ==== Proof.KiDat3.lean ====
/-
  Layer 3's kernel over its grid of eight row blocks: what every buffer holds between grid points.

  The layer reads the feature array through two windows — whole, for the dense transform formed once at the first
  point, and block by block, for the half that is added back — so the two windows hold that array at complementary
  shares. Each input window's buffer holds its block of the array at every point. The scratch holds anything before the
  first point and the transform of the whole features by the layer's weights from then on; the output window's buffer
  holds, after point t, the block payload of the t-th row block of the propagation matrix, the kept transform and
  the t-th block of features. With that the body's two runs give the obligation at every point.
-/
import proofs.«138473_g71811853189805_cont_9to1_m_833_2_alg».proof.Proof.KiBody3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the layer finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block at every point, fetched there or not: where it is not fetched again
    its block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds its block at every point, fetched there or not: where it is not fetched again
    its block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds its block at every point, fetched there or not: where it is not fetched again
    its block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current buffer holds its block at every point, fetched there or not: where it is not fetched again
    its block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The test the body makes holds at the first point only. -/
theorem hfirst3 : ∀ t : Fin cfg3.N, first3 (grid3.coords t) ↔ t.val = 0 :=
  (by decide +kernel : ∀ t : Fin grid3.N, first3 (grid3.coords t) ↔ t.val = 0)

/-- What the scratch keeps from the first point on: the dense transform of the whole feature array by the layer's
    weight block. -/
def kept3 (c : Dev nD) : Vec F S4096x512 .bf16 := k3_pay1 (iblk3 V c 0 t3_0) (iblk3 V c 3 t3_0)

/-- The layer's data on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay2 (iblk3 V c 2 t) (kept3 V c) (iblk3 V c 1 t)
  Φ t := iprop(Pipeline.scopedRestBut (Ix := Unit) (Name := ℕ) (U := UR sig nD τ) (Lvl := ℕ) (Val := Elt F) spec3 c [cc3_scratch0]
    ∗ (if t.val = 0 then iprop(∃ X, owns (c : Thread nD τ) (Memref.whole cc3_scratch0) fullShare X)
       else owns (c : Thread nD τ) (Memref.whole cc3_scratch0) fullShare (kept3 V c)))
  q w := match w with
    | ⟨0, _⟩ => fullShare.left
    | ⟨1, _⟩ => fullShare.right
    | ⟨2, _⟩ => fullShare
    | ⟨3, _⟩ => fullShare
    | ⟨4, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = k3_pay2 (iblk3 V c 2 t) (kept3 V c) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- The invariant before the first point: the scratch at anything. -/
theorem inv3_first (c : Dev nD) (t : Fin (cfg3.N + 1)) (h : t.val = 0) :
    (dat3 V c).Φ t = iprop(Pipeline.scopedRestBut (Ix := Unit) (Name := ℕ) (U := UR sig nD τ) (Lvl := ℕ) (Val := Elt F) spec3 c [cc3_scratch0]
      ∗ ∃ X, owns (c : Thread nD τ) (Memref.whole cc3_scratch0) fullShare X) := by
  dsimp only [dat3]; rw [if_pos h]
/-- The invariant after any point: the scratch at the kept transform. -/
theorem inv3_later (c : Dev nD) (t : Fin (cfg3.N + 1)) (h : t.val ≠ 0) :
    (dat3 V c).Φ t = iprop(Pipeline.scopedRestBut (Ix := Unit) (Name := ℕ) (U := UR sig nD τ) (Lvl := ℕ) (Val := Elt F) spec3 c [cc3_scratch0]
      ∗ owns (c : Thread nD τ) (Memref.whole cc3_scratch0) fullShare (kept3 V c)) := by
  dsimp only [dat3]; rw [if_neg h]

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: at the first point the run that forms the transform, at the others the run that reads it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl,
    after3_0, after3_1, after3_2, after3_3, after3_4,
    inv3_later V c t.succ (by rw [Fin.val_succ]; exact Nat.succ_ne_zero _)]
  by_cases ht : t.val = 0
  · have hc : first3 (grid3.coords t) := (hfirst3 t).mpr ht
    have hk : kept3 V c = k3_pay1 (iblk3 V c 0 t) (iblk3 V c 3 t) := by
      have e : t = t3_0 := Fin.ext ht
      rw [e]; rfl
    rw [inv3_first V c t.castSucc (by rw [Fin.coe_castSucc]; exact ht), hk]
    iintro ⟨⟨Hr, Hs⟩, Ho, ⟨%d0, H0⟩, ⟨%d1, H1⟩, ⟨%d2, H2⟩, ⟨%d3, H3⟩, ⟨%d4, H4⟩⟩
    iapply (run_first3 c Set.univ (grid3.coords t) hc _ _ _ _ _ _ _ _ _ _ _ _ (iblk3 V c 0 t) (iblk3 V c 1 t) (iblk3 V c 2 t) (iblk3 V c 3 t) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hr Hs]
    · isplitl [Hr]; · iexact Hr
      iexact Hs
    isplitl [Ho]; · iexact Ho
    isplitl [H0]; · iexact H0
    isplitl [H1]; · iexact H1
    isplitl [H2]; · iexact H2
    isplitl [H3]; · iexact H3
    iexact H4
  · have hc : ¬ first3 (grid3.coords t) := fun h => ht ((hfirst3 t).mp h)
    rw [inv3_later V c t.castSucc (by rw [Fin.coe_castSucc]; exact ht)]
    iintro ⟨⟨Hr, Hs⟩, Ho, ⟨%d0, H0⟩, ⟨%d1, H1⟩, ⟨%d2, H2⟩, ⟨%d3, H3⟩, ⟨%d4, H4⟩⟩
    iapply (run_later3 c Set.univ (grid3.coords t) hc _ _ _ _ _ _ _ _ _ _ _ _ (iblk3 V c 0 t) (iblk3 V c 1 t) (iblk3 V c 2 t) (iblk3 V c 3 t) (kept3 V c) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hr Hs]
    · isplitl [Hr]; · iexact Hr
      iexact Hs
    isplitl [Ho]; · iexact Ho
    isplitl [H0]; · iexact H0
    isplitl [H1]; · iexact H1
    isplitl [H2]; · iexact H2
    isplitl [H3]; · iexact H3
    iexact H4

/-- The body's obligation at every point. -/
theorem body_obligation3 (c : Dev nD) : BodyObligation (dat3 (F := F) V c) (defs₀ (F := F)) Variants.none () Set.univ := fun t => by
  rw [bigSep_W3, bigSep_W3]
  exact sound_body3 V c t

end Region

end Cert.KernelIdeal.Hand

end
-- ==== Proof.KiArr3.lean ====
/-
  Layer 3's arrays on the way into and out of the layer.

  The layer's five windows stand on four arrays: the feature array (twice), the propagation matrices, the weights and the
  layer's result. Going in, the feature array's full share is dealt to its two windows as the left and the right half;
  coming out, the two halves — both still at the contents the layer found, since no input is written — are joined
  again, and the result array holds what the eight write-backs left. Every other buffer is untouched.
-/
import proofs.«138473_g71811853189805_cont_9to1_m_833_2_alg».proof.Proof.KiDat3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The four arrays behind the layer's five windows. -/
theorem arrRefs3 : Finset.univ.image (Pipeline.arrRef spec3) = {main_call0_v2, main_arg1, main_arg2, main_v0} := by decide

/-- Those four buffers, each whole at the full share. -/
theorem arrBufs3_eq (c : Dev nD) (W : (b : Ref sig .tc) → Buf (Elt F) ((c : Thread nD τ).loc b)) :
    (Pipeline.arrBufs (Ix := Unit) (Name := ℕ) (U := UR sig nD τ) (Lvl := ℕ) spec3 c W : sProp 𝕄)
      = iprop(((((c : Thread nD τ).loc main_call0_v2)) ↦{fullShare} W main_call0_v2) ∗ ((((c : Thread nD τ).loc main_arg1)) ↦{fullShare} W main_arg1)
          ∗ ((((c : Thread nD τ).loc main_arg2)) ↦{fullShare} W main_arg2) ∗ ((((c : Thread nD τ).loc main_v0)) ↦{fullShare} W main_v0)) := by
  unfold Pipeline.arrBufs
  rw [arrRefs3, BI.bigSep_insert (by decide), BI.bigSep_insert (by decide), BI.bigSep_insert (by decide), BI.bigSep_singleton]
  rfl

/-- The windows' arrays at their shares: the feature array's two windows at the two halves. -/
theorem arrays3_eq (c : Dev nD) (G : (w : Fin cfg3.W) → Buf (Elt F) ((cfg3.win w).arr.view.loc (c : Thread nD τ))) :
    ((dat3 V c).arrays G : sProp 𝕄)
      = iprop(((((c : Thread nD τ).loc main_call0_v2)) ↦{fullShare.left} G 0) ∗ ((((c : Thread nD τ).loc main_call0_v2)) ↦{fullShare.right} G 1)
          ∗ ((((c : Thread nD τ).loc main_arg1)) ↦{fullShare} G 2) ∗ ((((c : Thread nD τ).loc main_arg2)) ↦{fullShare} G 3) ∗ ((((c : Thread nD τ).loc main_v0)) ↦{fullShare} G 4)) := by
  unfold Dat.arrays
  rw [bigSep_W3, (arr_whole3 0).set_eq_univ, (arr_whole3 2).set_eq_univ,
    (arr_whole3 3).set_eq_univ, (arr_whole3 4).set_eq_univ]
  rfl

/-- Going in: the core's unscoped buffers are the layer's arrays as it finds them, and the rest. -/
theorem enter3 (c : Dev nD) :
    (unscopedBufs c (V c) : sProp 𝕄)
      ⊢ iprop((dat3 V c).arrays ((dat3 V c).arrAt · 0) ∗ Pipeline.unscopedRest (Ix := Unit) (Name := ℕ) (U := UR sig nD τ) (Lvl := ℕ) spec3 c (V c)) := by
  have hs : (unscopedBufs c (V c) : sProp 𝕄) = iprop(Pipeline.arrBufs spec3 c (V c) ∗ Pipeline.unscopedRest spec3 c (V c)) :=
    Pipeline.unscopedBufs_split₀ cfgs (3 : Fin 4) winFacts₀3.arr_unscoped c (V c)
  rw [hs, arrBufs3_eq, arrays3_eq]
  iintro ⟨⟨Hh, Ha, Hw, Ho⟩, Hrest⟩
  ihave Hh' := (pointsTo_share (PosShare.mem_left_op_right fullShare)).1 $$ Hh
  icases Hh' with ⟨HL, HR⟩
  isplitr [Hrest]
  swap; · iexact Hrest
  isplitl [HL]; · iexact HL
  isplitl [HR]; · iexact HR
  isplitl [Ha]; · iexact Ha
  isplitl [Hw]; · iexact Hw
  iexact Ho

/-- Coming out: the layer's arrays as the write-backs leave them, beside the untouched rest, are the core's unscoped
    buffers at any contents that have the result array at what was written and agree with the old ones elsewhere. -/
theorem leave3 (c : Dev nD) (V' : (b : Ref sig .tc) → Buf (Elt F) ((c : Thread nD τ).loc b))
    (hout : V' main_v0 = (dat3 V c).arrAt 4 cfg3.N) (hrest : ∀ b, b ≠ main_v0 → V' b = V c b) :
    iprop((dat3 V c).arrays ((dat3 V c).arrAt · cfg3.N) ∗ Pipeline.unscopedRest (Ix := Unit) (Name := ℕ) (U := UR sig nD τ) (Lvl := ℕ) spec3 c (V c))
      ⊢ (unscopedBufs c V' : sProp 𝕄) := by
  have hs : (unscopedBufs c V' : sProp 𝕄) = iprop(Pipeline.arrBufs spec3 c V' ∗ Pipeline.unscopedRest spec3 c V') :=
    Pipeline.unscopedBufs_split₀ cfgs (3 : Fin 4) winFacts₀3.arr_unscoped c V'
  rw [hs, arrBufs3_eq, arrays3_eq,
    (dat3 V c).arrAt_in 0 rfl, (dat3 V c).arrAt_in 1 rfl, (dat3 V c).arrAt_in 2 rfl, (dat3 V c).arrAt_in 3 rfl,
    hout, hrest main_call0_v2 (by decide), hrest main_arg1 (by decide), hrest main_arg2 (by decide)]
  iintro ⟨⟨HL, HR, Ha, Hw, Ho⟩, Hrest⟩
  isplitr [Hrest]
  swap
  · iapply (Entails.of_eq (show (Pipeline.unscopedRest (Ix := Unit) (Name := ℕ) (U := UR sig nD τ) (Lvl := ℕ) spec3 c (V c) : sProp 𝕄)
        = Pipeline.unscopedRest spec3 c V' from by
      unfold Pipeline.unscopedRest
      exact bigSep_congr fun b hb => by
        rw [hrest b (fun e => (Finset.mem_sdiff.mp hb).2 (by rw [e, arrRefs3]; decide))]))
    iexact Hrest
  isplitl [HL HR]
  · iapply (pointsTo_share (PosShare.mem_left_op_right fullShare)).2
    isplitl [HL]; · iexact HL
    iexact HR
  isplitl [Ha]; · iexact Ha
  isplitl [Hw]; · iexact Hw
  iexact Ho

end Region

end Cert.KernelIdeal.Hand

end
-- ==== Proof.KiRun.lean ====
/-
  The four layers in order: the whole program's run.

  Between two layers every unscoped buffer of a core is held at known contents: as launched, then with each layer's
  result array at what that layer's write-backs leave. Each layer is entered from the contents before it and left at
  the contents after it, so the program's run ends with the last result array at the fourth layer's result — computed
  from the third's, and so on down to the launch contents of the arguments — and the three argument arrays as launched,
  no layer having written one.
-/
import proofs.«138473_g71811853189805_cont_9to1_m_833_2_alg».proof.Proof.KiArr0
import proofs.«138473_g71811853189805_cont_9to1_m_833_2_alg».proof.Proof.KiArr1
import proofs.«138473_g71811853189805_cont_9to1_m_833_2_alg».proof.Proof.KiArr2
import proofs.«138473_g71811853189805_cont_9to1_m_833_2_alg».proof.Proof.KiArr3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold between the layers -/

/-- Core `c`'s buffers at launch. -/
abbrev W0 (c : Dev nD) : Valuation τ sig (Elt F) := fun b => m (c, b)
/-- The same read at the TensorCore's references. -/
abbrev R0 : (c : Dev nD) → (b : Ref sig .tc) → Buf (Elt F) ((c : Thread nD τ).loc b) := fun c b => W0 m c b

/-- Layer 0's result: what its eight write-backs leave in its result array. -/
def res0 (c : Dev nD) : Buf (Elt F) ((c : Thread nD τ).loc main_call0_v0) := (dat0 (R0 m) c).arrAt 4 cfg0.N
/-- Core `c`'s buffers after layer 0: as before it, with the result array at the layer's result. -/
def W1 (c : Dev nD) : Valuation τ sig (Elt F) := Function.update (W0 m c) main_call0_v0 (res0 m c)
/-- The same read at the TensorCore's references. -/
abbrev R1 : (c : Dev nD) → (b : Ref sig .tc) → Buf (Elt F) ((c : Thread nD τ).loc b) := fun c b => W1 m c b
theorem W1_res (c : Dev nD) : R1 m c main_call0_v0 = res0 m c := by
  show W1 m c (Proc.devRef .tc main_call0_v0) = _
  unfold W1; exact Function.update_self _ _ _
theorem W1_of_ne (c : Dev nD) (b : Ref sig .tc) (h : b ≠ main_call0_v0) : R1 m c b = R0 m c b := by
  show W1 m c (Proc.devRef .tc b) = W0 m c (Proc.devRef .tc b)
  unfold W1; exact Function.update_of_ne (StableHlo.devRef_ne_of_ne h) _ _

/-- Layer 1's result: what its eight write-backs leave in its result array. -/
def res1 (c : Dev nD) : Buf (Elt F) ((c : Thread nD τ).loc main_call0_v1) := (dat1 (R1 m) c).arrAt 4 cfg1.N
/-- Core `c`'s buffers after layer 1: as before it, with the result array at the layer's result. -/
def W2 (c : Dev nD) : Valuation τ sig (Elt F) := Function.update (W1 m c) main_call0_v1 (res1 m c)
/-- The same read at the TensorCore's references. -/
abbrev R2 : (c : Dev nD) → (b : Ref sig .tc) → Buf (Elt F) ((c : Thread nD τ).loc b) := fun c b => W2 m c b
theorem W2_res (c : Dev nD) : R2 m c main_call0_v1 = res1 m c := by
  show W2 m c (Proc.devRef .tc main_call0_v1) = _
  unfold W2; exact Function.update_self _ _ _
theorem W2_of_ne (c : Dev nD) (b : Ref sig .tc) (h : b ≠ main_call0_v1) : R2 m c b = R1 m c b := by
  show W2 m c (Proc.devRef .tc b) = W1 m c (Proc.devRef .tc b)
  unfold W2; exact Function.update_of_ne (StableHlo.devRef_ne_of_ne h) _ _

/-- Layer 2's result: what its eight write-backs leave in its result array. -/
def res2 (c : Dev nD) : Buf (Elt F) ((c : Thread nD τ).loc main_call0_v2) := (dat2 (R2 m) c).arrAt 4 cfg2.N
/-- Core `c`'s buffers after layer 2: as before it, with the result array at the layer's result. -/
def W3 (c : Dev nD) : Valuation τ sig (Elt F) := Function.update (W2 m c) main_call0_v2 (res2 m c)
/-- The same read at the TensorCore's references. -/
abbrev R3 : (c : Dev nD) → (b : Ref sig .tc) → Buf (Elt F) ((c : Thread nD τ).loc b) := fun c b => W3 m c b
theorem W3_res (c : Dev nD) : R3 m c main_call0_v2 = res2 m c := by
  show W3 m c (Proc.devRef .tc main_call0_v2) = _
  unfold W3; exact Function.update_self _ _ _
theorem W3_of_ne (c : Dev nD) (b : Ref sig .tc) (h : b ≠ main_call0_v2) : R3 m c b = R2 m c b := by
  show W3 m c (Proc.devRef .tc b) = W2 m c (Proc.devRef .tc b)
  unfold W3; exact Function.update_of_ne (StableHlo.devRef_ne_of_ne h) _ _

/-- Layer 3's result: what its eight write-backs leave in its result array. -/
def res3 (c : Dev nD) : Buf (Elt F) ((c : Thread nD τ).loc main_v0) := (dat3 (R3 m) c).arrAt 4 cfg3.N
/-- Core `c`'s buffers after layer 3: as before it, with the result array at the layer's result. -/
def W4 (c : Dev nD) : Valuation τ sig (Elt F) := Function.update (W3 m c) main_v0 (res3 m c)
/-- The same read at the TensorCore's references. -/
abbrev R4 : (c : Dev nD) → (b : Ref sig .tc) → Buf (Elt F) ((c : Thread nD τ).loc b) := fun c b => W4 m c b
theorem W4_res (c : Dev nD) : R4 m c main_v0 = res3 m c := by
  show W4 m c (Proc.devRef .tc main_v0) = _
  unfold W4; exact Function.update_self _ _ _
theorem W4_of_ne (c : Dev nD) (b : Ref sig .tc) (h : b ≠ main_v0) : R4 m c b = R3 m c b := by
  show W4 m c (Proc.devRef .tc b) = W3 m c (Proc.devRef .tc b)
  unfold W4; exact Function.update_of_ne (StableHlo.devRef_ne_of_ne h) _ _

/-- An argument array is no layer's result: it reaches the end as launched. -/
theorem R4_arg (c : Dev nD) (b : Ref sig .tc) (h0 : b ≠ main_call0_v0) (h1 : b ≠ main_call0_v1) (h2 : b ≠ main_call0_v2) (h3 : b ≠ main_v0) :
    R4 m c b = m ((c : Thread nD τ).loc b) :=
  (W4_of_ne m c b h3).trans <| (W3_of_ne m c b h2).trans <| (W2_of_ne m c b h1).trans <| (W1_of_ne m c b h0).trans rfl

/-! ## The layers' data and the state that rides along -/

/-- No layer has a prefetched table. -/
abbrev adm : (p : Fin 4) → (pcfgs (F := F) p).Adm := fun p => (cfgs p).toPCfg_adm
/-- Every layer's data, each at the contents it is entered from. -/
def pdats : (p : Fin 4) → (c : Dev nD) → Dat τ (Elt F) Unit ℕ (UR sig nD τ) ℕ (Pipeline.pin (pcfgs (F := F)) adm p) c
  | ⟨0, _⟩ => fun c => dat0 (R0 m) c
  | ⟨1, _⟩ => fun c => dat1 (R1 m) c
  | ⟨2, _⟩ => fun c => dat2 (R2 m) c
  | ⟨3, _⟩ => fun c => dat3 (R3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every layer: the generator register at some state, and nothing owed. -/
abbrev Rest (c : Dev nD) : sProp 𝕄 := iprop((∃ r, prngReg c r) ∗ ∃ W, owes (c : Thread nD τ) (0 : CellTallies nD τ sig Unit) W)

/-- A whole buffer at some contents, said either way. -/
theorem some_scratch (c : Dev nD) (b : Ref sig .tc) :
    (iprop(∃ X, owns (c : Thread nD τ) (Memref.whole b) fullShare X) : sProp 𝕄) = iprop(∃ f : Buf (Elt F) ((c : Thread nD τ).loc b), ((c : Thread nD τ).loc b) ↦{fullShare} f) := by
  simp only [owns_whole]

/-- An unscoped TensorCore reference is among those the state between layers holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The layers as pieces of the program -/

-- a library lemma stated over the pinned configuration unifies with the printed one only when unification may unfold
-- plain definitions in a metavariable's type
set_option backward.isDefEq.respectTransparency.types false in
/-- Layer 0 as a piece of the program: entered with every unscoped buffer at the contents before it, left with the
    layer's result array at what its write-backs leave and every other buffer as it was. The feature array is dealt to
    its two windows going in and joined coming out; the scratch goes into the layer's invariant at anything and comes
    back at anything; the generator register and the unread buffers pass by; nothing is owed. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (R0 m) c).loose
  hwaits := Pipeline.hwaits_of_owed_zero _ _ _ _ L lv 0 fun _ _ => rfl
  pre c := iprop(StableHlo.held (c : Thread nD τ) (Pipeline.ucRefs τ sig) (W0 m c) ∗ Rest c)
  post c := iprop(StableHlo.held (c : Thread nD τ) (Pipeline.ucRefs τ sig) (W1 m c) ∗ Rest c)
  X c := iprop(emp)
  Y c := iprop(emp)
  Z c := iprop(Pipeline.unscopedRest (Ix := Unit) (Name := ℕ) (U := UR sig nD τ) (Lvl := ℕ) spec0 c (R0 m c) ∗ ∃ r, prngReg c r)
  hentry c := by
    rw [Pipeline.ownSems0_none]
    have hsplit := enter0 (R0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    have hs : (Pipeline.scopedRest (Ix := Unit) (Name := ℕ) (U := UR sig nD τ) (Lvl := ℕ) (Val := Elt F) (Pipeline.pin (pcfgs (F := F)) adm 0).spec c : sProp 𝕄)
        = iprop(iprop((∃ f : Buf (Elt F) ((c : Thread nD τ).loc cc0_scratch0), ((c : Thread nD τ).loc cc0_scratch0) ↦{fullShare} f))
          ∗ Pipeline.scopedRestBut (Ix := Unit) (Name := ℕ) (U := UR sig nD τ) (Lvl := ℕ) (Val := Elt F) spec0 c [cc0_scratch0]) := scopedRest0_split c
    rw [show (pdats m 0 c).Φ 0 = _ from inv0_first (R0 m) c 0 rfl, hs, some_scratch c cc0_scratch0]
    iintro ⟨-, -, ⟨Hs, Hr⟩⟩
    isplitl [Hr]; · iexact Hr
    iexact Hs
  hout c := by
    have hs : (Pipeline.scopedRest (Ix := Unit) (Name := ℕ) (U := UR sig nD τ) (Lvl := ℕ) (Val := Elt F) (Pipeline.pin (pcfgs (F := F)) adm 0).spec c : sProp 𝕄)
        = iprop(iprop((∃ f : Buf (Elt F) ((c : Thread nD τ).loc cc0_scratch0), ((c : Thread nD τ).loc cc0_scratch0) ↦{fullShare} f))
          ∗ Pipeline.scopedRestBut (Ix := Unit) (Name := ℕ) (U := UR sig nD τ) (Lvl := ℕ) (Val := Elt F) spec0 c [cc0_scratch0]) := scopedRest0_split c
    rw [Pipeline.ownSems0_none, show (pdats m 0 c).Φ (Fin.last _) = _ from inv0_later (R0 m) c (Fin.last _) (by rw [Fin.val_last, show cfg0.N = 8 from N_0]; decide),
      hs, owns_whole]
    iintro ⟨Hr, Hs⟩
    isplitr; · iempintro
    isplitr; · iempintro
    isplitl [Hs]; · iexists _; iexact Hs
    iexact Hr
  hexit c := by
    have hjoin := leave0 (R0 m) c (R1 m c) (W1_res m c) (fun b hb => W1_of_ne m c b hb)
    rw [Pipeline.unscopedBufs_held] at hjoin
    iintro ⟨Ha, HO, -, ⟨Hrest, Hp⟩⟩
    imodintro
    isplitl [Ha Hrest]
    · iapply hjoin
      isplitl [Ha]; · iexact Ha
      iexact Hrest
    isplitl [Hp]; · iexact Hp
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Layer 1 as a piece of the program: entered with every unscoped buffer at the contents before it, left with the
    layer's result array at what its write-backs leave and every other buffer as it was. The feature array is dealt to
    its two windows going in and joined coming out; the scratch goes into the layer's invariant at anything and comes
    back at anything; the generator register and the unread buffers pass by; nothing is owed. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (R1 m) c).loose
  hwaits := Pipeline.hwaits_of_owed_zero _ _ _ _ L lv 1 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(emp)
  Y c := iprop(emp)
  Z c := iprop(Pipeline.unscopedRest (Ix := Unit) (Name := ℕ) (U := UR sig nD τ) (Lvl := ℕ) spec1 c (R1 m c) ∗ ∃ r, prngReg c r)
  hentry c := by
    rw [Pipeline.ownSems0_none]
    have hsplit := enter1 (R1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    have hs : (Pipeline.scopedRest (Ix := Unit) (Name := ℕ) (U := UR sig nD τ) (Lvl := ℕ) (Val := Elt F) (Pipeline.pin (pcfgs (F := F)) adm 1).spec c : sProp 𝕄)
        = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) := scopedRest1_split c
    rw [show (pdats m 1 c).Φ 0 = _ from inv1_first (R1 m) c 0 rfl, hs, some_scratch c cc1_scratch0]
    iintro ⟨-, -, ⟨Hs, Hr⟩⟩
    isplitl [Hr]; · iexact Hr
    iexact Hs
  hout c := by
    have hs : (Pipeline.scopedRest (Ix := Unit) (Name := ℕ) (U := UR sig nD τ) (Lvl := ℕ) (Val := Elt F) (Pipeline.pin (pcfgs (F := F)) adm 1).spec c : sProp 𝕄)
        = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) := scopedRest1_split c
    rw [Pipeline.ownSems0_none, show (pdats m 1 c).Φ (Fin.last _) = _ from inv1_later (R1 m) c (Fin.last _) (by rw [Fin.val_last, show cfg1.N = 8 from N_1]; decide),
      hs, owns_whole]
    iintro ⟨Hr, Hs⟩
    isplitr; · iempintro
    isplitr; · iempintro
    isplitl [Hs]; · iexists _; iexact Hs
    iexact Hr
  hexit c := by
    have hjoin := leave1 (R1 m) c (R2 m c) (W2_res m c) (fun b hb => W2_of_ne m c b hb)
    rw [Pipeline.unscopedBufs_held] at hjoin
    iintro ⟨Ha, HO, -, ⟨Hrest, Hp⟩⟩
    imodintro
    isplitl [Ha Hrest]
    · iapply hjoin
      isplitl [Ha]; · iexact Ha
      iexact Hrest
    isplitl [Hp]; · iexact Hp
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Layer 2 as a piece of the program: entered with every unscoped buffer at the contents before it, left with the
    layer's result array at what its write-backs leave and every other buffer as it was. The feature array is dealt to
    its two windows going in and joined coming out; the scratch goes into the layer's invariant at anything and comes
    back at anything; the generator register and the unread buffers pass by; nothing is owed. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (R2 m) c).loose
  hwaits := Pipeline.hwaits_of_owed_zero _ _ _ _ L lv 2 fun _ _ => rfl
  pre c := iprop(StableHlo.held (c : Thread nD τ) (Pipeline.ucRefs τ sig) (W2 m c) ∗ Rest c)
  post c := iprop(StableHlo.held (c : Thread nD τ) (Pipeline.ucRefs τ sig) (W3 m c) ∗ Rest c)
  X c := iprop(emp)
  Y c := iprop(emp)
  Z c := iprop(Pipeline.unscopedRest (Ix := Unit) (Name := ℕ) (U := UR sig nD τ) (Lvl := ℕ) spec2 c (R2 m c) ∗ ∃ r, prngReg c r)
  hentry c := by
    rw [Pipeline.ownSems0_none]
    have hsplit := enter2 (R2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    have hs : (Pipeline.scopedRest (Ix := Unit) (Name := ℕ) (U := UR sig nD τ) (Lvl := ℕ) (Val := Elt F) (Pipeline.pin (pcfgs (F := F)) adm 2).spec c : sProp 𝕄)
        = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) := scopedRest2_split c
    rw [show (pdats m 2 c).Φ 0 = _ from inv2_first (R2 m) c 0 rfl, hs, some_scratch c cc2_scratch0]
    iintro ⟨-, -, ⟨Hs, Hr⟩⟩
    isplitl [Hr]; · iexact Hr
    iexact Hs
  hout c := by
    have hs : (Pipeline.scopedRest (Ix := Unit) (Name := ℕ) (U := UR sig nD τ) (Lvl := ℕ) (Val := Elt F) (Pipeline.pin (pcfgs (F := F)) adm 2).spec c : sProp 𝕄)
        = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) := scopedRest2_split c
    rw [Pipeline.ownSems0_none, show (pdats m 2 c).Φ (Fin.last _) = _ from inv2_later (R2 m) c (Fin.last _) (by rw [Fin.val_last, show cfg2.N = 8 from N_2]; decide),
      hs, owns_whole]
    iintro ⟨Hr, Hs⟩
    isplitr; · iempintro
    isplitr; · iempintro
    isplitl [Hs]; · iexists _; iexact Hs
    iexact Hr
  hexit c := by
    have hjoin := leave2 (R2 m) c (R3 m c) (W3_res m c) (fun b hb => W3_of_ne m c b hb)
    rw [Pipeline.unscopedBufs_held] at hjoin
    iintro ⟨Ha, HO, -, ⟨Hrest, Hp⟩⟩
    imodintro
    isplitl [Ha Hrest]
    · iapply hjoin
      isplitl [Ha]; · iexact Ha
      iexact Hrest
    isplitl [Hp]; · iexact Hp
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Layer 3 as a piece of the program: entered with every unscoped buffer at the contents before it, left with the
    layer's result array at what its write-backs leave and every other buffer as it was. The feature array is dealt to
    its two windows going in and joined coming out; the scratch goes into the layer's invariant at anything and comes
    back at anything; the generator register and the unread buffers pass by; nothing is owed. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (R3 m) c).loose
  hwaits := Pipeline.hwaits_of_owed_zero _ _ _ _ L lv 3 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(emp)
  Y c := iprop(emp)
  Z c := iprop(Pipeline.unscopedRest (Ix := Unit) (Name := ℕ) (U := UR sig nD τ) (Lvl := ℕ) spec3 c (R3 m c) ∗ ∃ r, prngReg c r)
  hentry c := by
    rw [Pipeline.ownSems0_none]
    have hsplit := enter3 (R3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    have hs : (Pipeline.scopedRest (Ix := Unit) (Name := ℕ) (U := UR sig nD τ) (Lvl := ℕ) (Val := Elt F) (Pipeline.pin (pcfgs (F := F)) adm 3).spec c : sProp 𝕄)
        = iprop(iprop((∃ f : Buf (Elt F) ((c : Thread nD τ).loc cc3_scratch0), ((c : Thread nD τ).loc cc3_scratch0) ↦{fullShare} f))
          ∗ Pipeline.scopedRestBut (Ix := Unit) (Name := ℕ) (U := UR sig nD τ) (Lvl := ℕ) (Val := Elt F) spec3 c [cc3_scratch0]) := scopedRest3_split c
    rw [show (pdats m 3 c).Φ 0 = _ from inv3_first (R3 m) c 0 rfl, hs, some_scratch c cc3_scratch0]
    iintro ⟨-, -, ⟨Hs, Hr⟩⟩
    isplitl [Hr]; · iexact Hr
    iexact Hs
  hout c := by
    have hs : (Pipeline.scopedRest (Ix := Unit) (Name := ℕ) (U := UR sig nD τ) (Lvl := ℕ) (Val := Elt F) (Pipeline.pin (pcfgs (F := F)) adm 3).spec c : sProp 𝕄)
        = iprop(iprop((∃ f : Buf (Elt F) ((c : Thread nD τ).loc cc3_scratch0), ((c : Thread nD τ).loc cc3_scratch0) ↦{fullShare} f))
          ∗ Pipeline.scopedRestBut (Ix := Unit) (Name := ℕ) (U := UR sig nD τ) (Lvl := ℕ) (Val := Elt F) spec3 c [cc3_scratch0]) := scopedRest3_split c
    rw [Pipeline.ownSems0_none, show (pdats m 3 c).Φ (Fin.last _) = _ from inv3_later (R3 m) c (Fin.last _) (by rw [Fin.val_last, show cfg3.N = 8 from N_3]; decide),
      hs, owns_whole]
    iintro ⟨Hr, Hs⟩
    isplitr; · iempintro
    isplitr; · iempintro
    isplitl [Hs]; · iexists _; iexact Hs
    iexact Hr
  hexit c := by
    have hjoin := leave3 (R3 m) c (R4 m c) (W4_res m c) (fun b hb => W4_of_ne m c b hb)
    rw [Pipeline.unscopedBufs_held] at hjoin
    iintro ⟨Ha, HO, -, ⟨Hrest, Hp⟩⟩
    imodintro
    isplitl [Ha Hrest]
    · iapply hjoin
      isplitl [Ha]; · iexact Ha
      iexact Hrest
    isplitl [Hp]; · iexact Hp
    unfold Pipeline.Dat.owesAt Pipeline.owesWithin
    icases HO with ⟨%W, -, HO⟩; iexists W; iexact HO

/-- The program's four pieces in order. -/
abbrev segs : List (Pipeline.Seg (pcfgs (F := F)) adm (pdats m) () defs₀ 𝒱₀ L lv) :=
  [.region (reg0 m), .region (reg1 m), .region (reg2 m), .region (reg3 m)]

/-- The program is the run of its pieces. -/
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and ends with the last result array at the fourth layer's result and the three arguments as launched. -/
theorem run : θ_run defs (onTc (τ := τ) (main (F := F))) ⟨m, fun _ => 0, ρ⟩ (fun r => ∀ c : Dev nD,
      r.2.mem ((c.tc : Thread nD τ).loc main_v0) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c))
    (Tₙ := fun c => StableHlo.held (c : Thread nD τ) (Pipeline.ucRefs τ sig) (W4 m c))
    (hch := ⟨fun _ => .rfl, fun _ => .rfl, fun _ => .rfl, fun _ => .rfl, fun c => by
      show (iprop(StableHlo.held (c : Thread nD τ) (Pipeline.ucRefs τ sig) (W4 m c) ∗ Rest c) : sProp 𝕄)
        ⊢ iprop(StableHlo.held (c : Thread nD τ) (Pipeline.ucRefs τ sig) (W4 m c) ∗ ∃ W, owes (c : Thread nD τ) (0 : CellTallies nD τ sig Unit) W)
      iintro ⟨Hh, -, HO⟩
      isplitl [Hh]; · iexact Hh
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨Hh, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v0 (by decide))).trans (W4_res m c),
       (h c _ (mem_uc main_arg0 (by decide))).trans (R4_arg m c main_arg0 (by decide) (by decide) (by decide) (by decide)),
       (h c _ (mem_uc main_arg1 (by decide))).trans (R4_arg m c main_arg1 (by decide) (by decide) (by decide) (by decide)),
       (h c _ (mem_uc main_arg2 (by decide))).trans (R4_arg m c main_arg2 (by decide) (by decide) (by decide) (by decide))⟩)

end Cert.KernelIdeal.Hand

end
-- ==== Proof.Spec.lean ====
/-
  The function both programs compute, on the extended reals, index by index.

  A layer takes node features `h` (4096 nodes, 512 features) to
      relu (1/2 · h + 1/2 · (A_l · (h · W_l)))
  where `A_l` is the l-th 4096×4096 propagation matrix and `W_l` the l-th 512×512 weight matrix: first the dense
  transform `(h · W_l)(k, q) = Σ_j h(k, j) · W_l(j, q)`, then the propagation `Σ_k A_l(p, k) · (h · W_l)(k, q)`, each a
  plain finite sum in this grouping. The network is the four layers in order. The two halves and the zero are kept as the
  words the programs spell (0x3F000000, 0x00000000): the same word on both sides is never evaluated.
-/
import Idealize.ShloMosaic.PureOps.Ideal
import Idealize.ShloMosaic.Lib.ValueIdx

noncomputable section

open scoped BigOperators

namespace Cert.Spec

open Idealize.ShloMosaic Idealize.ShloMosaic.ValueIdx

/-- Node features: 4096 nodes by 512 features. -/
abbrev Feat : Type := (⟨2, ![4096, 512]⟩ : Shape).Idx → EReal
/-- The four propagation matrices, 4096 by 4096 each. -/
abbrev Adj : Type := (⟨3, ![4, 4096, 4096]⟩ : Shape).Idx → EReal
/-- The four weight matrices, 512 by 512 each. -/
abbrev Wts : Type := (⟨3, ![4, 512, 512]⟩ : Shape).Idx → EReal

/-- The word both programs write for one half. -/
abbrev half : EReal := Ideal.ofBits .f32 0x3F000000#32
/-- The word both programs write for zero. -/
abbrev zero : EReal := Ideal.ofBits .f32 0x00000000#32

/-- The dense transform of layer `l` at node `k`, feature `q`: `Σ_j h(k, j) · W_l(j, q)`. -/
def transform (l : Fin 4) (W : Wts) (h : Feat) (k : Fin 4096) (q : Fin 512) : EReal :=
  ∑ j : Fin 512, h (ix2 k j) * W (ix3 l j q)

/-- Layer `l` at node `p`, feature `q`. -/
def layerAt (l : Fin 4) (A : Adj) (W : Wts) (h : Feat) (p : Fin 4096) (q : Fin 512) : EReal :=
  max (half * h (ix2 p q) + half * ∑ k : Fin 4096, A (ix3 l p k) * transform l W h k q) zero

/-- Layer `l` as a map of feature arrays. -/
def layer (l : Fin 4) (A : Adj) (W : Wts) (h : Feat) : Feat := fun i => layerAt l A W h (i 0) (i 1)

/-- The network: the four layers in order. -/
def net (h : Feat) (A : Adj) (W : Wts) : Feat := layer 3 A W (layer 2 A W (layer 1 A W (layer 0 A W h)))

theorem layer_apply (l : Fin 4) (A : Adj) (W : Wts) (h : Feat) (p : Fin 4096) (q : Fin 512) :
    layer l A W h (ix2 p q) = layerAt l A W h p q := rfl

end Cert.Spec

end
-- ==== Proof.KiPayloads.lean ====
/-
  The two payloads of each kernel call, read at an index on the extended reals.

  Each call's body keeps two pure values. The first is the dense transform of the whole feature array by the call's
  weight block: a format change of the features, the weight block `[1, 512, 512]` read as a `512 × 512` matrix, a format
  change of that, the matrix product into a zero accumulator, and a last format change. On the extended reals every
  format change is the identity, a cast of an array to its own shape is the identity, the dropped unit axis reads
  `w(0, j, q)`, and the product into zero is the plain sum `Σ_j h(k, j) · w(0, j, q)`. The second is one block of 512
  result rows: the propagation block `[1, 512, 4096]` read as a `512 × 4096` matrix times the transformed features, halved,
  added to half the block of current features, and the maximum of that with zero:
  `max (1/2 · hb(r, q) + 1/2 · Σ_k a(0, r, k) · T(k, q)) 0`, with the halves and the zero kept as the words the program
  spells.
-/
import proofs.«138473_g71811853189805_cont_9to1_m_833_2_alg».proof.Proof.Gen.KernelIdeal.Skeleton
import proofs.«138473_g71811853189805_cont_9to1_m_833_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-! ## The two matrix products into a zero accumulator, as sums -/

/-- The left operand's row coordinate is the result's row coordinate. -/
theorem transform_lhs_row (i : S4096x512.Idx) (c : dot_S4096x512_S512x512_S4096x512_1_0_0_1_n_n.contr.Idx) :
    (dot_S4096x512_S512x512_S4096x512_1_0_0_1_n_n.lhsIdx i c 0).val = (i 0).val := by
  unfold DotDims.lhsIdx
  rw [dif_neg (show ¬(0 : Fin S4096x512.rank) ∈ dot_S4096x512_S512x512_S4096x512_1_0_0_1_n_n.lhsBatch by decide),
    dif_pos (show (0 : Fin S4096x512.rank) ∈ dot_S4096x512_S512x512_S4096x512_1_0_0_1_n_n.lhsNonContracting by decide)]
  rfl

/-- The right operand's column coordinate is the result's column coordinate. -/
theorem transform_rhs_col (i : S4096x512.Idx) (c : dot_S4096x512_S512x512_S4096x512_1_0_0_1_n_n.contr.Idx) :
    (dot_S4096x512_S512x512_S4096x512_1_0_0_1_n_n.rhsIdx i c 1).val = (i 1).val := by
  unfold DotDims.rhsIdx
  rw [dif_neg (show ¬(1 : Fin S512x512.rank) ∈ dot_S4096x512_S512x512_S4096x512_1_0_0_1_n_n.rhsBatch by decide),
    dif_pos (show (1 : Fin S512x512.rank) ∈ dot_S4096x512_S512x512_S4096x512_1_0_0_1_n_n.rhsNonContracting by decide)]
  rfl

/-- The product of a `4096 × 512` matrix by a `512 × 512` matrix into the zero accumulator, at row `k` and column `q`, is
    `Σ_j x(k, j) · y(j, q)`: the sum over the one contracted axis, re-indexed by its coordinate. -/
theorem matmul_transform_apply (x : FVec Ideal S4096x512 .bf16) (y : FVec Ideal S512x512 .bf16) (k : Fin 4096) (q : Fin 512) :
    matmul (F := Ideal) dot_S4096x512_S512x512_S4096x512_1_0_0_1_n_n none x y
        (constant (F := Ideal) S4096x512 .f32 0x00000000#32) (ix2 k q)
      = ∑ j : Fin 512, x (ix2 k j) * y (ix2 j q) := by
  simp only [matmul]
  rw [Ideal.matmul_constant_zero_apply,
    ← Equiv.sum_comp (contrEquiv1 dot_S4096x512_S512x512_S4096x512_1_0_0_1_n_n 512 rfl rfl).symm]
  refine Finset.sum_congr rfl fun j _ => ?_
  have hj := contrEquiv1_symm_val dot_S4096x512_S512x512_S4096x512_1_0_0_1_n_n 512 rfl rfl j
  have el : dot_S4096x512_S512x512_S4096x512_1_0_0_1_n_n.lhsIdx (ix2 k q)
      ((contrEquiv1 dot_S4096x512_S512x512_S4096x512_1_0_0_1_n_n 512 rfl rfl).symm j) = ix2 k j :=
    funext fun a => Fin.ext (by
      match a with
      | ⟨0, _⟩ => exact transform_lhs_row _ _
      | ⟨1, _⟩ => exact (dot_S4096x512_S512x512_S4096x512_1_0_0_1_n_n.lhsIdx_val_of_single rfl _ _).trans hj)
  have er : dot_S4096x512_S512x512_S4096x512_1_0_0_1_n_n.rhsIdx (ix2 k q)
      ((contrEquiv1 dot_S4096x512_S512x512_S4096x512_1_0_0_1_n_n 512 rfl rfl).symm j) = ix2 j q :=
    funext fun a => Fin.ext (by
      match a with
      | ⟨0, _⟩ => exact (dot_S4096x512_S512x512_S4096x512_1_0_0_1_n_n.rhsIdx_val_of_single rfl _ _).trans hj
      | ⟨1, _⟩ => exact transform_rhs_col _ _)
  rw [el, er]

/-- The left operand's row coordinate is the result's row coordinate. -/
theorem propagate_lhs_row (i : S512x512.Idx) (c : dot_S512x4096_S4096x512_S512x512_1_0_0_1_n_n.contr.Idx) :
    (dot_S512x4096_S4096x512_S512x512_1_0_0_1_n_n.lhsIdx i c 0).val = (i 0).val := by
  unfold DotDims.lhsIdx
  rw [dif_neg (show ¬(0 : Fin S512x4096.rank) ∈ dot_S512x4096_S4096x512_S512x512_1_0_0_1_n_n.lhsBatch by decide),
    dif_pos (show (0 : Fin S512x4096.rank) ∈ dot_S512x4096_S4096x512_S512x512_1_0_0_1_n_n.lhsNonContracting by decide)]
  rfl

/-- The right operand's column coordinate is the result's column coordinate. -/
theorem propagate_rhs_col (i : S512x512.Idx) (c : dot_S512x4096_S4096x512_S512x512_1_0_0_1_n_n.contr.Idx) :
    (dot_S512x4096_S4096x512_S512x512_1_0_0_1_n_n.rhsIdx i c 1).val = (i 1).val := by
  unfold DotDims.rhsIdx
  rw [dif_neg (show ¬(1 : Fin S4096x512.rank) ∈ dot_S512x4096_S4096x512_S512x512_1_0_0_1_n_n.rhsBatch by decide),
    dif_pos (show (1 : Fin S4096x512.rank) ∈ dot_S512x4096_S4096x512_S512x512_1_0_0_1_n_n.rhsNonContracting by decide)]
  rfl

/-- The product of a `512 × 4096` matrix by a `4096 × 512` matrix into the zero accumulator, at row `r` and column `q`, is
    `Σ_k x(r, k) · y(k, q)`. -/
theorem matmul_propagate_apply (x : FVec Ideal S512x4096 .bf16) (y : FVec Ideal S4096x512 .bf16) (r : Fin 512) (q : Fin 512) :
    matmul (F := Ideal) dot_S512x4096_S4096x512_S512x512_1_0_0_1_n_n none x y
        (constant (F := Ideal) S512x512 .f32 0x00000000#32) (ix2 r q)
      = ∑ k : Fin 4096, x (ix2 r k) * y (ix2 k q) := by
  simp only [matmul]
  rw [Ideal.matmul_constant_zero_apply,
    ← Equiv.sum_comp (contrEquiv1 dot_S512x4096_S4096x512_S512x512_1_0_0_1_n_n 4096 rfl rfl).symm]
  refine Finset.sum_congr rfl fun k _ => ?_
  have hk := contrEquiv1_symm_val dot_S512x4096_S4096x512_S512x512_1_0_0_1_n_n 4096 rfl rfl k
  have el : dot_S512x4096_S4096x512_S512x512_1_0_0_1_n_n.lhsIdx (ix2 r q)
      ((contrEquiv1 dot_S512x4096_S4096x512_S512x512_1_0_0_1_n_n 4096 rfl rfl).symm k) = ix2 r k :=
    funext fun a => Fin.ext (by
      match a with
      | ⟨0, _⟩ => exact propagate_lhs_row _ _
      | ⟨1, _⟩ => exact (dot_S512x4096_S4096x512_S512x512_1_0_0_1_n_n.lhsIdx_val_of_single rfl _ _).trans hk)
  have er : dot_S512x4096_S4096x512_S512x512_1_0_0_1_n_n.rhsIdx (ix2 r q)
      ((contrEquiv1 dot_S512x4096_S4096x512_S512x512_1_0_0_1_n_n 4096 rfl rfl).symm k) = ix2 k q :=
    funext fun a => Fin.ext (by
      match a with
      | ⟨0, _⟩ => exact (dot_S512x4096_S4096x512_S512x512_1_0_0_1_n_n.rhsIdx_val_of_single rfl _ _).trans hk
      | ⟨1, _⟩ => exact propagate_rhs_col _ _)
  rw [el, er]

/-! ## The two blocks read as matrices -/

/-- The weight block `[1, 512, 512]` read as a `512 × 512` matrix and changed of format is, at `(j, q)`, `w(0, j, q)`. -/
theorem weightBlock_apply (w : Vec Ideal S1x512x512 .f32) (j q : Fin 512) :
    truncf (F := Ideal) .bf16 (shapeCast S512x512 w shapeCasts_S1x512x512_S512x512) bitsLt_bf16_f32 (ix2 j q)
      = w (ix3 0 j q) := by
  rw [truncf_apply, shapeCast_1ab_ab_apply]

/-- The propagation block `[1, 512, 4096]` read as a `512 × 4096` matrix and changed of format is, at `(r, k)`,
    `a(0, r, k)`. -/
theorem adjBlock_apply (a : Vec Ideal S1x512x4096 .f32) (r : Fin 512) (k : Fin 4096) :
    truncf (F := Ideal) .bf16 (shapeCast S512x4096 a shapeCasts_S1x512x4096_S512x4096) bitsLt_bf16_f32 (ix2 r k)
      = a (ix3 0 r k) := by
  rw [truncf_apply, shapeCast_1ab_ab_apply]

/-! ## Call 0 -/

/-- Call 0's first payload is the dense transform of the features by the weight block. -/
theorem pay0_transform (h : Vec Ideal S4096x512 .f32) (w : Vec Ideal S1x512x512 .f32) (k : Fin 4096) (q : Fin 512) :
    k0_pay1 (F := Ideal) h w (ix2 k q) = ∑ j : Fin 512, h (ix2 k j) * w (ix3 0 j q) := by
  unfold k0_pay1
  rw [shapeCast_self, truncf_apply, matmul_transform_apply]
  refine Finset.sum_congr rfl fun j _ => ?_
  rw [truncf_apply, weightBlock_apply]

/-- Call 0's second payload is one block of result rows of the layer. -/
theorem pay0_block (a : Vec Ideal S1x512x4096 .f32) (T : Vec Ideal S4096x512 .bf16) (hb : Vec Ideal S512x512 .f32)
    (r : Fin 512) (q : Fin 512) :
    k0_pay2 (F := Ideal) a T hb (ix2 r q)
      = max (Cert.Spec.half * hb (ix2 r q) + Cert.Spec.half * ∑ k : Fin 4096, a (ix3 0 r k) * T (ix2 k q)) Cert.Spec.zero := by
  unfold k0_pay2
  rw [maximumf_apply, addf_apply, mulf_apply, mulf_apply, broadcast_apply, broadcast_apply, matmul_propagate_apply]
  simp only [adjBlock_apply]
  rfl

/-! ## Call 1 -/

/-- Call 1's first payload is the dense transform of the features by the weight block. -/
theorem pay1_transform (h : Vec Ideal S4096x512 .f32) (w : Vec Ideal S1x512x512 .f32) (k : Fin 4096) (q : Fin 512) :
    k1_pay1 (F := Ideal) h w (ix2 k q) = ∑ j : Fin 512, h (ix2 k j) * w (ix3 0 j q) := by
  unfold k1_pay1
  rw [shapeCast_self, truncf_apply, matmul_transform_apply]
  refine Finset.sum_congr rfl fun j _ => ?_
  rw [truncf_apply, shapeCast_self, weightBlock_apply]

/-- Call 1's second payload is one block of result rows of the layer. -/
theorem pay1_block (a : Vec Ideal S1x512x4096 .f32) (T : Vec Ideal S4096x512 .bf16) (hb : Vec Ideal S512x512 .f32)
    (r : Fin 512) (q : Fin 512) :
    k1_pay2 (F := Ideal) a T hb (ix2 r q)
      = max (Cert.Spec.half * hb (ix2 r q) + Cert.Spec.half * ∑ k : Fin 4096, a (ix3 0 r k) * T (ix2 k q)) Cert.Spec.zero := by
  unfold k1_pay2
  rw [maximumf_apply, addf_apply, mulf_apply, mulf_apply, broadcast_apply, broadcast_apply, shapeCast_self,
    matmul_propagate_apply]
  simp only [adjBlock_apply]
  rfl

/-! ## Call 2 -/

/-- Call 2's first payload is the dense transform of the features by the weight block. -/
theorem pay2_transform (h : Vec Ideal S4096x512 .f32) (w : Vec Ideal S1x512x512 .f32) (k : Fin 4096) (q : Fin 512) :
    k2_pay1 (F := Ideal) h w (ix2 k q) = ∑ j : Fin 512, h (ix2 k j) * w (ix3 0 j q) := by
  unfold k2_pay1
  rw [shapeCast_self, truncf_apply, matmul_transform_apply]
  refine Finset.sum_congr rfl fun j _ => ?_
  rw [truncf_apply, shapeCast_self, weightBlock_apply]

/-- Call 2's second payload is one block of result rows of the layer. -/
theorem pay2_block (a : Vec Ideal S1x512x4096 .f32) (T : Vec Ideal S4096x512 .bf16) (hb : Vec Ideal S512x512 .f32)
    (r : Fin 512) (q : Fin 512) :
    k2_pay2 (F := Ideal) a T hb (ix2 r q)
      = max (Cert.Spec.half * hb (ix2 r q) + Cert.Spec.half * ∑ k : Fin 4096, a (ix3 0 r k) * T (ix2 k q)) Cert.Spec.zero := by
  unfold k2_pay2
  rw [maximumf_apply, addf_apply, mulf_apply, mulf_apply, broadcast_apply, broadcast_apply, shapeCast_self,
    matmul_propagate_apply]
  simp only [adjBlock_apply]
  rfl

/-! ## Call 3 -/

/-- Call 3's first payload is the dense transform of the features by the weight block. -/
theorem pay3_transform (h : Vec Ideal S4096x512 .f32) (w : Vec Ideal S1x512x512 .f32) (k : Fin 4096) (q : Fin 512) :
    k3_pay1 (F := Ideal) h w (ix2 k q) = ∑ j : Fin 512, h (ix2 k j) * w (ix3 0 j q) := by
  unfold k3_pay1
  rw [shapeCast_self, truncf_apply, matmul_transform_apply]
  refine Finset.sum_congr rfl fun j _ => ?_
  rw [truncf_apply, shapeCast_self, weightBlock_apply]

/-- Call 3's second payload is one block of result rows of the layer. -/
theorem pay3_block (a : Vec Ideal S1x512x4096 .f32) (T : Vec Ideal S4096x512 .bf16) (hb : Vec Ideal S512x512 .f32)
    (r : Fin 512) (q : Fin 512) :
    k3_pay2 (F := Ideal) a T hb (ix2 r q)
      = max (Cert.Spec.half * hb (ix2 r q) + Cert.Spec.half * ∑ k : Fin 4096, a (ix3 0 r k) * T (ix2 k q)) Cert.Spec.zero := by
  unfold k3_pay2
  rw [maximumf_apply, addf_apply, mulf_apply, mulf_apply, broadcast_apply, broadcast_apply, shapeCast_self,
    matmul_propagate_apply]
  simp only [adjBlock_apply]
  rfl

end Cert.KernelIdeal.Payloads

end
-- ==== Proof.KiValue0.lean ====
/-
  Layer 0's kernel call leaves the specification's layer 0 in its result array.

  The call runs eight grid points; point `t` writes back one block of 512 result rows, rows `512 t … 512 t + 511`. Its
  inputs are blocks of the arrays the call finds: the whole feature array and the layer's weight matrix (both at the
  origin, read once, at the first point, to form the dense transform that the scratch then keeps), and, moving one block
  of rows per point, the block of features and the block of the layer's propagation matrix. Read at an index, a block's
  coordinate is the block index times the block size plus the coordinate inside the block, so row `r` of point `t`'s
  blocks is row `p = 512 t + r` of the arrays. With the two payloads read as sums, what point `t` writes at `(r, q)` is
  `max (1/2 · h(p, q) + 1/2 · Σ_k A_0(p, k) · Σ_j h(k, j) · W_0(j, q)) 0`: the layer at `(p, q)`. Every row `p` lies in
  the block of point `p / 512`, so the eight blocks tile the result array and it ends holding the layer everywhere.
-/
import proofs.«138473_g71811853189805_cont_9to1_m_833_2_alg».proof.Proof.KiDat0
import proofs.«138473_g71811853189805_cont_9to1_m_833_2_alg».proof.Proof.KiPayloads

set_option maxRecDepth 16384

noncomputable section

open scoped BigOperators

namespace Cert.KernelIdeal.Value0

open Cert.KernelIdeal Cert.KernelIdeal.Gen Cert.KernelIdeal.Hand Cert.KernelIdeal.Payloads
open Idealize.ShloMosaic Idealize.ShloMosaic.TcCoe Idealize.ShloMosaic.ValueIdx
open Idealize.SL Idealize.SL.Sem
open Idealize.ShloMosaic.Pipeline (Dat Cfg Window)

section Region

variable (V : (c : Dev nD) → (b : Ref sig .tc) → Buf (Elt Ideal) ((c : Thread nD τ).loc b))

/-! ## Where each window's block lies -/

/-- The block indices of the five windows at every grid point: the whole feature array and the weight block stay at the
    origin, and the block of features, the block of the propagation matrix and the result block move down one block of
    rows per point. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

/-- The grid has eight points. -/
theorem point_lt (t : Fin cfg0.N) : t.val < 8 := Nat.lt_of_lt_of_eq t.isLt N_0

/-! ## Each input block read off its array -/

/-- The whole-array window's block is the feature array. -/
theorem featWhole_apply (c : Dev nD) (k : Fin 4096) (j : Fin 512) :
    (iblk0 V c 0 t0_0 : Vec Ideal S4096x512 .f32) (ix2 k j)
      = (V c main_arg0 : S4096x512.Idx → Elt Ideal .f32) (ix2 k j) := by
  obtain ⟨e0, e1, -⟩ := idx_facts t0_0
  unfold iblk0
  rw [View.read_apply]
  show V c main_arg0 _ = V c main_arg0 _
  refine congrArg (V c main_arg0) (funext fun a => Fin.ext ?_)
  match a with
  | ⟨0, _⟩ => show win0_0.index t0_0 (0 : Fin 2) * 4096 + 1 * k.val = k.val; rw [e0]; omega
  | ⟨1, _⟩ => show win0_0.index t0_0 (1 : Fin 2) * 512 + 1 * j.val = j.val; rw [e1]; omega

/-- The weight window's block is the layer's weight matrix. -/
theorem weightWindow_apply (c : Dev nD) (j q : Fin 512) :
    (iblk0 V c 3 t0_0 : Vec Ideal S1x512x512 .f32) (ix3 0 j q)
      = (V c main_arg2 : S4x512x512.Idx → Elt Ideal .f32) (ix3 0 j q) := by
  obtain ⟨-, -, -, -, -, -, -, e0, e1, e2, -⟩ := idx_facts t0_0
  unfold iblk0
  rw [View.read_apply]
  show V c main_arg2 _ = V c main_arg2 _
  refine congrArg (V c main_arg2) (funext fun a => Fin.ext ?_)
  match a with
  | ⟨0, _⟩ => show win0_3.index t0_0 (0 : Fin 3) * 1 + 1 * 0 = 0; rw [e0]
  | ⟨1, _⟩ => show win0_3.index t0_0 (1 : Fin 3) * 512 + 1 * j.val = j.val; rw [e1]; omega
  | ⟨2, _⟩ => show win0_3.index t0_0 (2 : Fin 3) * 512 + 1 * q.val = q.val; rw [e2]; omega

/-- The feature window's block at point `t` is rows `512 t … 512 t + 511` of the feature array. -/
theorem featWindow_apply (c : Dev nD) (t : Fin cfg0.N) (r q : Fin 512) (p : Fin 4096) (hp : p.val = t.val * 512 + r.val) :
    (iblk0 V c 1 t : Vec Ideal S512x512 .f32) (ix2 r q)
      = (V c main_arg0 : S4096x512.Idx → Elt Ideal .f32) (ix2 p q) := by
  obtain ⟨-, -, e0, e1, -⟩ := idx_facts t
  unfold iblk0
  rw [View.read_apply]
  show V c main_arg0 _ = V c main_arg0 _
  refine congrArg (V c main_arg0) (funext fun a => Fin.ext ?_)
  match a with
  | ⟨0, _⟩ => show win0_1.index t (0 : Fin 2) * 512 + 1 * r.val = p.val; rw [e0, hp]; omega
  | ⟨1, _⟩ => show win0_1.index t (1 : Fin 2) * 512 + 1 * q.val = q.val; rw [e1]; omega

/-- The propagation window's block at point `t` is rows `512 t … 512 t + 511` of the layer's propagation matrix. -/
theorem adjWindow_apply (c : Dev nD) (t : Fin cfg0.N) (r : Fin 512) (k : Fin 4096) (p : Fin 4096) (hp : p.val = t.val * 512 + r.val) :
    (iblk0 V c 2 t : Vec Ideal S1x512x4096 .f32) (ix3 0 r k)
      = (V c main_arg1 : S4x4096x4096.Idx → Elt Ideal .f32) (ix3 0 p k) := by
  obtain ⟨-, -, -, -, e0, e1, e2, -⟩ := idx_facts t
  unfold iblk0
  rw [View.read_apply]
  show V c main_arg1 _ = V c main_arg1 _
  refine congrArg (V c main_arg1) (funext fun a => Fin.ext ?_)
  match a with
  | ⟨0, _⟩ => show win0_2.index t (0 : Fin 3) * 1 + 1 * 0 = 0; rw [e0]
  | ⟨1, _⟩ => show win0_2.index t (1 : Fin 3) * 512 + 1 * r.val = p.val; rw [e1, hp]; omega
  | ⟨2, _⟩ => show win0_2.index t (2 : Fin 3) * 4096 + 1 * k.val = k.val; rw [e2]; omega

/-! ## What the layer keeps and what each point writes -/

/-- What the scratch keeps is the dense transform of the feature array by the layer's weights. -/
theorem kept_apply (c : Dev nD) (k : Fin 4096) (q : Fin 512) :
    kept0 V c (ix2 k q) = Spec.transform 0 (V c main_arg2) (V c main_arg0) k q := by
  unfold kept0
  rw [pay0_transform]
  unfold Spec.transform
  refine Finset.sum_congr rfl fun j _ => ?_
  rw [featWhole_apply, weightWindow_apply]

/-- One block of result rows, from blocks that are the arrays' rows `p = 512 g + r`, is the layer at those rows. -/
theorem block_eq (A : Spec.Adj) (W : Spec.Wts) (h : Spec.Feat)
    (a : Vec Ideal S1x512x4096 .f32) (T : Vec Ideal S4096x512 .bf16) (hb : Vec Ideal S512x512 .f32)
    (r q : Fin 512) (p : Fin 4096)
    (ha : ∀ k : Fin 4096, a (ix3 0 r k) = A (ix3 0 p k))
    (hT : ∀ k : Fin 4096, T (ix2 k q) = Spec.transform 0 W h k q)
    (hhb : hb (ix2 r q) = h (ix2 p q)) :
    k0_pay2 (F := Ideal) a T hb (ix2 r q) = Spec.layerAt 0 A W h p q := by
  rw [pay0_block]
  unfold Spec.layerAt
  rw [hhb]
  simp only [ha, hT]

/-- What point `t` writes back is block `t` of the layer of the arrays as the call finds them. -/
theorem flushed_eq (c : Dev nD) (t : Fin cfg0.N) :
    (dat0 V c).flushed 4 t
      = ((cfg0.win 4).blk t).view.read (Elt Ideal) (Spec.layer 0 (V c main_arg1) (V c main_arg2) (V c main_arg0)) := by
  show (cfg0.win 4).cut (grid0.coords t) ((dat0 V c).after 4 t) = _
  rw [after0_4]
  obtain ⟨-, -, -, -, -, -, -, -, -, -, e0, e1⟩ := idx_facts t
  have ht := point_lt t
  funext j
  rw [View.read_apply]
  obtain ⟨r, q, rfl⟩ : ∃ (r q : Fin 512), j = ix2 r q := ⟨j 0, j 1, eq_ix2 j⟩
  have hr := r.isLt
  have he : ((cfg0.win 4).blk t).view.emb (ix2 r q) = ix2 (⟨t.val * 512 + r.val, by omega⟩ : Fin 4096) q :=
    funext fun a => Fin.ext (by
      match a with
      | ⟨0, _⟩ => show win0_4.index t (0 : Fin 2) * 512 + 1 * r.val = t.val * 512 + r.val; rw [e0]; omega
      | ⟨1, _⟩ => show win0_4.index t (1 : Fin 2) * 512 + 1 * q.val = q.val; rw [e1]; omega)
  show k0_pay2 (F := Ideal) (iblk0 V c 2 t) (kept0 V c) (iblk0 V c 1 t) (ix2 r q)
    = Spec.layer 0 (V c main_arg1) (V c main_arg2) (V c main_arg0) (((cfg0.win 4).blk t).view.emb (ix2 r q))
  rw [he, Spec.layer_apply]
  exact block_eq (V c main_arg1) (V c main_arg2) (V c main_arg0) _ _ _ r q _
    (fun k => adjWindow_apply V c t r k _ rfl) (fun k => kept_apply V c k q) (featWindow_apply V c t r q _ rfl)

/-! ## The eight blocks tile the result array -/

/-- An index of the result array is in point `t`'s block iff each coordinate is in the block's range on its axis. -/
theorem mem_blk (t : Fin cfg0.N) (i : S4096x512.Idx) :
    i ∈ ((cfg0.win 4).blk t).view.set
      ↔ ∀ a : Fin 2, win0_4.index t a * S512x512.size a ≤ (i a).val
          ∧ (i a).val < win0_4.index t a * S512x512.size a + S512x512.size a := by
  show i ∈ ((View.whole main_call0_v0).slice (win0_4.rect t)).set ↔ _
  rw [View.set_slice_whole, Rect.mem_set_unit]
  exact Iff.rfl

/-- Row `p` of the result is written by point `p / 512`. -/
theorem cover (i : S4096x512.Idx) :
    ∃ t : Fin cfg0.N, (cfg0.win 4).flush t = true ∧ i ∈ ((cfg0.win 4).blk t).view.set := by
  have h0 : (i 0).val < 4096 := (i 0).isLt
  have h1 : (i 1).val < 512 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, -, -, -, -, e0, e1⟩ := idx_facts t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    rw [e0, ht]; omega
  | ⟨1, _⟩ =>
    show win0_4.index t (1 : Fin 2) * 512 ≤ (i 1).val ∧ (i 1).val < win0_4.index t (1 : Fin 2) * 512 + 512
    rw [e1]; omega

end Region

/-! ## The result array -/

/-- After the eight write-backs the result array is the specification's layer 0 of the arrays the call found. -/
theorem layer_eq
    (V : (c : Dev nD) → (b : Ref sig .tc) → Buf (Elt Ideal) ((c : Thread nD τ).loc b)) (c : Dev nD) :
    (Cert.KernelIdeal.Hand.dat0 (F := Ideal) V c).arrAt 4 cfg0.N
      = Cert.Spec.layer 0 (V c main_arg1) (V c main_arg2) (V c main_arg0) :=
  (dat0 V c).arrAt_eq_of_cover 4 (Spec.layer 0 (V c main_arg1) (V c main_arg2) (V c main_arg0))
    (fun t _ => flushed_eq V c t) cover

end Cert.KernelIdeal.Value0

end
-- ==== Proof.KiValue1.lean ====
/-
  Layer 1's kernel call leaves the specification's layer 1 in its result array.

  The call runs eight grid points; point `t` writes back one block of 512 result rows, rows `512 t … 512 t + 511`. Its
  inputs are blocks of the arrays the call finds: the whole feature array (the previous layer's result) and the layer's
  weight matrix (both read once, at the first point, to form the dense transform that the scratch then keeps), and,
  moving one block of rows per point, the block of features and the block of the layer's propagation matrix. Read at an
  index, a block's coordinate is the block index times the block size plus the coordinate inside the block, so row `r` of
  point `t`'s blocks is row `p = 512 t + r` of the arrays, and the leading block index of the two stacked arrays is the
  layer number 1. With the two payloads read as sums, what point `t` writes at `(r, q)` is
  `max (1/2 · h(p, q) + 1/2 · Σ_k A_1(p, k) · Σ_j h(k, j) · W_1(j, q)) 0`: the layer at `(p, q)`. Every row `p` lies in
  the block of point `p / 512`, so the eight blocks tile the result array and it ends holding the layer everywhere.
-/
import proofs.«138473_g71811853189805_cont_9to1_m_833_2_alg».proof.Proof.KiDat1
import proofs.«138473_g71811853189805_cont_9to1_m_833_2_alg».proof.Proof.KiPayloads

set_option maxRecDepth 16384

noncomputable section

open scoped BigOperators

namespace Cert.KernelIdeal.Value1

open Cert.KernelIdeal Cert.KernelIdeal.Gen Cert.KernelIdeal.Hand Cert.KernelIdeal.Payloads
open Idealize.ShloMosaic Idealize.ShloMosaic.TcCoe Idealize.ShloMosaic.ValueIdx
open Idealize.SL Idealize.SL.Sem
open Idealize.ShloMosaic.Pipeline (Dat Cfg Window)

section Region

variable (V : (c : Dev nD) → (b : Ref sig .tc) → Buf (Elt Ideal) ((c : Thread nD τ).loc b))

/-! ## Where each window's block lies -/

/-- The block indices of the five windows at every grid point: the whole feature array stays at the origin and the weight
    block at the layer's matrix, and the block of features, the block of the layer's propagation matrix and the result
    block move down one block of rows per point. -/
theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 3) = 1 ∧ win1_2.index t (1 : Fin 3) = t.val ∧ win1_2.index t (2 : Fin 3) = 0
    ∧ win1_3.index t (0 : Fin 3) = 1 ∧ win1_3.index t (1 : Fin 3) = 0 ∧ win1_3.index t (2 : Fin 3) = 0
    ∧ win1_4.index t (0 : Fin 2) = t.val ∧ win1_4.index t (1 : Fin 2) = 0 :=
  (by decide +kernel : ∀ t : Fin grid1.N, _)

/-- The grid has eight points. -/
theorem point_lt (t : Fin cfg1.N) : t.val < 8 := Nat.lt_of_lt_of_eq t.isLt N_1

/-! ## Each input block read off its array -/

/-- The whole-array window's block is the feature array. -/
theorem featWhole_apply (c : Dev nD) (k : Fin 4096) (j : Fin 512) :
    (iblk1 V c 0 t1_0 : Vec Ideal S4096x512 .f32) (ix2 k j)
      = (V c main_call0_v0 : S4096x512.Idx → Elt Ideal .f32) (ix2 k j) := by
  obtain ⟨e0, e1, -⟩ := idx_facts t1_0
  unfold iblk1
  rw [View.read_apply]
  show V c main_call0_v0 _ = V c main_call0_v0 _
  refine congrArg (V c main_call0_v0) (funext fun a => Fin.ext ?_)
  match a with
  | ⟨0, _⟩ => show win1_0.index t1_0 (0 : Fin 2) * 4096 + 1 * k.val = k.val; rw [e0]; omega
  | ⟨1, _⟩ => show win1_0.index t1_0 (1 : Fin 2) * 512 + 1 * j.val = j.val; rw [e1]; omega

/-- The weight window's block is the layer's weight matrix. -/
theorem weightWindow_apply (c : Dev nD) (j q : Fin 512) :
    (iblk1 V c 3 t1_0 : Vec Ideal S1x512x512 .f32) (ix3 0 j q)
      = (V c main_arg2 : S4x512x512.Idx → Elt Ideal .f32) (ix3 1 j q) := by
  obtain ⟨-, -, -, -, -, -, -, e0, e1, e2, -⟩ := idx_facts t1_0
  unfold iblk1
  rw [View.read_apply]
  show V c main_arg2 _ = V c main_arg2 _
  refine congrArg (V c main_arg2) (funext fun a => Fin.ext ?_)
  match a with
  | ⟨0, _⟩ => show win1_3.index t1_0 (0 : Fin 3) * 1 + 1 * 0 = 1; rw [e0]
  | ⟨1, _⟩ => show win1_3.index t1_0 (1 : Fin 3) * 512 + 1 * j.val = j.val; rw [e1]; omega
  | ⟨2, _⟩ => show win1_3.index t1_0 (2 : Fin 3) * 512 + 1 * q.val = q.val; rw [e2]; omega

/-- The feature window's block at point `t` is rows `512 t … 512 t + 511` of the feature array. -/
theorem featWindow_apply (c : Dev nD) (t : Fin cfg1.N) (r q : Fin 512) (p : Fin 4096) (hp : p.val = t.val * 512 + r.val) :
    (iblk1 V c 1 t : Vec Ideal S512x512 .f32) (ix2 r q)
      = (V c main_call0_v0 : S4096x512.Idx → Elt Ideal .f32) (ix2 p q) := by
  obtain ⟨-, -, e0, e1, -⟩ := idx_facts t
  unfold iblk1
  rw [View.read_apply]
  show V c main_call0_v0 _ = V c main_call0_v0 _
  refine congrArg (V c main_call0_v0) (funext fun a => Fin.ext ?_)
  match a with
  | ⟨0, _⟩ => show win1_1.index t (0 : Fin 2) * 512 + 1 * r.val = p.val; rw [e0, hp]; omega
  | ⟨1, _⟩ => show win1_1.index t (1 : Fin 2) * 512 + 1 * q.val = q.val; rw [e1]; omega

/-- The propagation window's block at point `t` is rows `512 t … 512 t + 511` of the layer's propagation matrix. -/
theorem adjWindow_apply (c : Dev nD) (t : Fin cfg1.N) (r : Fin 512) (k : Fin 4096) (p : Fin 4096) (hp : p.val = t.val * 512 + r.val) :
    (iblk1 V c 2 t : Vec Ideal S1x512x4096 .f32) (ix3 0 r k)
      = (V c main_arg1 : S4x4096x4096.Idx → Elt Ideal .f32) (ix3 1 p k) := by
  obtain ⟨-, -, -, -, e0, e1, e2, -⟩ := idx_facts t
  unfold iblk1
  rw [View.read_apply]
  show V c main_arg1 _ = V c main_arg1 _
  refine congrArg (V c main_arg1) (funext fun a => Fin.ext ?_)
  match a with
  | ⟨0, _⟩ => show win1_2.index t (0 : Fin 3) * 1 + 1 * 0 = 1; rw [e0]
  | ⟨1, _⟩ => show win1_2.index t (1 : Fin 3) * 512 + 1 * r.val = p.val; rw [e1, hp]; omega
  | ⟨2, _⟩ => show win1_2.index t (2 : Fin 3) * 4096 + 1 * k.val = k.val; rw [e2]; omega

/-! ## What the layer keeps and what each point writes -/

/-- What the scratch keeps is the dense transform of the feature array by the layer's weights. -/
theorem kept_apply (c : Dev nD) (k : Fin 4096) (q : Fin 512) :
    kept1 V c (ix2 k q) = Spec.transform 1 (V c main_arg2) (V c main_call0_v0) k q := by
  unfold kept1
  rw [pay1_transform]
  unfold Spec.transform
  refine Finset.sum_congr rfl fun j _ => ?_
  rw [featWhole_apply, weightWindow_apply]

/-- One block of result rows, from blocks that are the arrays' rows `p = 512 g + r`, is the layer at those rows. -/
theorem block_eq (A : Spec.Adj) (W : Spec.Wts) (h : Spec.Feat)
    (a : Vec Ideal S1x512x4096 .f32) (T : Vec Ideal S4096x512 .bf16) (hb : Vec Ideal S512x512 .f32)
    (r q : Fin 512) (p : Fin 4096)
    (ha : ∀ k : Fin 4096, a (ix3 0 r k) = A (ix3 1 p k))
    (hT : ∀ k : Fin 4096, T (ix2 k q) = Spec.transform 1 W h k q)
    (hhb : hb (ix2 r q) = h (ix2 p q)) :
    k1_pay2 (F := Ideal) a T hb (ix2 r q) = Spec.layerAt 1 A W h p q := by
  rw [pay1_block]
  unfold Spec.layerAt
  rw [hhb]
  simp only [ha, hT]

/-- What point `t` writes back is block `t` of the layer of the arrays as the call finds them. -/
theorem flushed_eq (c : Dev nD) (t : Fin cfg1.N) :
    (dat1 V c).flushed 4 t
      = ((cfg1.win 4).blk t).view.read (Elt Ideal) (Spec.layer 1 (V c main_arg1) (V c main_arg2) (V c main_call0_v0)) := by
  show (cfg1.win 4).cut (grid1.coords t) ((dat1 V c).after 4 t) = _
  rw [after1_4]
  obtain ⟨-, -, -, -, -, -, -, -, -, -, e0, e1⟩ := idx_facts t
  have ht := point_lt t
  funext j
  rw [View.read_apply]
  obtain ⟨r, q, rfl⟩ : ∃ (r q : Fin 512), j = ix2 r q := ⟨j 0, j 1, eq_ix2 j⟩
  have hr := r.isLt
  have he : ((cfg1.win 4).blk t).view.emb (ix2 r q) = ix2 (⟨t.val * 512 + r.val, by omega⟩ : Fin 4096) q :=
    funext fun a => Fin.ext (by
      match a with
      | ⟨0, _⟩ => show win1_4.index t (0 : Fin 2) * 512 + 1 * r.val = t.val * 512 + r.val; rw [e0]; omega
      | ⟨1, _⟩ => show win1_4.index t (1 : Fin 2) * 512 + 1 * q.val = q.val; rw [e1]; omega)
  show k1_pay2 (F := Ideal) (iblk1 V c 2 t) (kept1 V c) (iblk1 V c 1 t) (ix2 r q)
    = Spec.layer 1 (V c main_arg1) (V c main_arg2) (V c main_call0_v0) (((cfg1.win 4).blk t).view.emb (ix2 r q))
  rw [he, Spec.layer_apply]
  exact block_eq (V c main_arg1) (V c main_arg2) (V c main_call0_v0) _ _ _ r q _
    (fun k => adjWindow_apply V c t r k _ rfl) (fun k => kept_apply V c k q) (featWindow_apply V c t r q _ rfl)

/-! ## The eight blocks tile the result array -/

/-- An index of the result array is in point `t`'s block iff each coordinate is in the block's range on its axis. -/
theorem mem_blk (t : Fin cfg1.N) (i : S4096x512.Idx) :
    i ∈ ((cfg1.win 4).blk t).view.set
      ↔ ∀ a : Fin 2, win1_4.index t a * S512x512.size a ≤ (i a).val
          ∧ (i a).val < win1_4.index t a * S512x512.size a + S512x512.size a := by
  show i ∈ ((View.whole main_call0_v1).slice (win1_4.rect t)).set ↔ _
  rw [View.set_slice_whole, Rect.mem_set_unit]
  exact Iff.rfl

/-- Row `p` of the result is written by point `p / 512`. -/
theorem cover (i : S4096x512.Idx) :
    ∃ t : Fin cfg1.N, (cfg1.win 4).flush t = true ∧ i ∈ ((cfg1.win 4).blk t).view.set := by
  have h0 : (i 0).val < 4096 := (i 0).isLt
  have h1 : (i 1).val < 512 := (i 1).isLt
  have hN : cfg1.N = 8 := N_1
  obtain ⟨t, ht⟩ : ∃ t : Fin cfg1.N, t.val = (i 0).val / 512 := ⟨⟨(i 0).val / 512, by rw [hN]; omega⟩, rfl⟩
  obtain ⟨-, -, -, -, -, -, -, -, -, -, e0, e1⟩ := idx_facts t
  refine ⟨t, flush1_4 t, ?_⟩
  rw [mem_blk]
  intro a
  match a with
  | ⟨0, _⟩ =>
    show win1_4.index t (0 : Fin 2) * 512 ≤ (i 0).val ∧ (i 0).val < win1_4.index t (0 : Fin 2) * 512 + 512
    rw [e0, ht]; omega
  | ⟨1, _⟩ =>
    show win1_4.index t (1 : Fin 2) * 512 ≤ (i 1).val ∧ (i 1).val < win1_4.index t (1 : Fin 2) * 512 + 512
    rw [e1]; omega

end Region

/-! ## The result array -/

/-- After the eight write-backs the result array is the specification's layer 1 of the arrays the call found. -/
theorem layer_eq
    (V : (c : Dev nD) → (b : Ref sig .tc) → Buf (Elt Ideal) ((c : Thread nD τ).loc b)) (c : Dev nD) :
    (Cert.KernelIdeal.Hand.dat1 (F := Ideal) V c).arrAt 4 cfg1.N
      = Cert.Spec.layer 1 (V c main_arg1) (V c main_arg2) (V c main_call0_v0) :=
  (dat1 V c).arrAt_eq_of_cover 4 (Spec.layer 1 (V c main_arg1) (V c main_arg2) (V c main_call0_v0))
    (fun t _ => flushed_eq V c t) cover

end Cert.KernelIdeal.Value1

end
-- ==== Proof.KiValue2.lean ====
/-
  Layer 2's kernel call leaves the specification's layer 2 in its result array.

  The call runs eight grid points; point `t` writes back one block of 512 result rows, rows `512 t … 512 t + 511`. Its
  inputs are blocks of the arrays the call finds: the whole feature array (the previous layer's result) and the layer's
  weight matrix (both read once, at the first point, to form the dense transform that the scratch then keeps), and,
  moving one block of rows per point, the block of features and the block of the layer's propagation matrix. Read at an
  index, a block's coordinate is the block index times the block size plus the coordinate inside the block, so row `r` of
  point `t`'s blocks is row `p = 512 t + r` of the arrays, and the leading block index of the two stacked arrays is the
  layer number 2. With the two payloads read as sums, what point `t` writes at `(r, q)` is
  `max (1/2 · h(p, q) + 1/2 · Σ_k A_2(p, k) · Σ_j h(k, j) · W_2(j, q)) 0`: the layer at `(p, q)`. Every row `p` lies in
  the block of point `p / 512`, so the eight blocks tile the result array and it ends holding the layer everywhere.
-/
import proofs.«138473_g71811853189805_cont_9to1_m_833_2_alg».proof.Proof.KiDat2
import proofs.«138473_g71811853189805_cont_9to1_m_833_2_alg».proof.Proof.KiPayloads

set_option maxRecDepth 16384

noncomputable section

open scoped BigOperators

namespace Cert.KernelIdeal.Value2

open Cert.KernelIdeal Cert.KernelIdeal.Gen Cert.KernelIdeal.Hand Cert.KernelIdeal.Payloads
open Idealize.ShloMosaic Idealize.ShloMosaic.TcCoe Idealize.ShloMosaic.ValueIdx
open Idealize.SL Idealize.SL.Sem
open Idealize.ShloMosaic.Pipeline (Dat Cfg Window)

section Region

variable (V : (c : Dev nD) → (b : Ref sig .tc) → Buf (Elt Ideal) ((c : Thread nD τ).loc b))

/-! ## Where each window's block lies -/

/-- The block indices of the five windows at every grid point: the whole feature array stays at the origin and the weight
    block at the layer's matrix, and the block of features, the block of the layer's propagation matrix and the result
    block move down one block of rows per point. -/
theorem idx_facts : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 3) = 2 ∧ win2_2.index t (1 : Fin 3) = t.val ∧ win2_2.index t (2 : Fin 3) = 0
    ∧ win2_3.index t (0 : Fin 3) = 2 ∧ win2_3.index t (1 : Fin 3) = 0 ∧ win2_3.index t (2 : Fin 3) = 0
    ∧ win2_4.index t (0 : Fin 2) = t.val ∧ win2_4.index t (1 : Fin 2) = 0 :=
  (by decide +kernel : ∀ t : Fin grid2.N, _)

/-- The grid has eight points. -/
theorem point_lt (t : Fin cfg2.N) : t.val < 8 := Nat.lt_of_lt_of_eq t.isLt N_2

/-! ## Each input block read off its array -/

/-- The whole-array window's block is the feature array. -/
theorem featWhole_apply (c : Dev nD) (k : Fin 4096) (j : Fin 512) :
    (iblk2 V c 0 t2_0 : Vec Ideal S4096x512 .f32) (ix2 k j)
      = (V c main_call0_v1 : S4096x512.Idx → Elt Ideal .f32) (ix2 k j) := by
  obtain ⟨e0, e1, -⟩ := idx_facts t2_0
  unfold iblk2
  rw [View.read_apply]
  show V c main_call0_v1 _ = V c main_call0_v1 _
  refine congrArg (V c main_call0_v1) (funext fun a => Fin.ext ?_)
  match a with
  | ⟨0, _⟩ => show win2_0.index t2_0 (0 : Fin 2) * 4096 + 1 * k.val = k.val; rw [e0]; omega
  | ⟨1, _⟩ => show win2_0.index t2_0 (1 : Fin 2) * 512 + 1 * j.val = j.val; rw [e1]; omega

/-- The weight window's block is the layer's weight matrix. -/
theorem weightWindow_apply (c : Dev nD) (j q : Fin 512) :
    (iblk2 V c 3 t2_0 : Vec Ideal S1x512x512 .f32) (ix3 0 j q)
      = (V c main_arg2 : S4x512x512.Idx → Elt Ideal .f32) (ix3 2 j q) := by
  obtain ⟨-, -, -, -, -, -, -, e0, e1, e2, -⟩ := idx_facts t2_0
  unfold iblk2
  rw [View.read_apply]
  show V c main_arg2 _ = V c main_arg2 _
  refine congrArg (V c main_arg2) (funext fun a => Fin.ext ?_)
  match a with
  | ⟨0, _⟩ => show win2_3.index t2_0 (0 : Fin 3) * 1 + 1 * 0 = 2; rw [e0]
  | ⟨1, _⟩ => show win2_3.index t2_0 (1 : Fin 3) * 512 + 1 * j.val = j.val; rw [e1]; omega
  | ⟨2, _⟩ => show win2_3.index t2_0 (2 : Fin 3) * 512 + 1 * q.val = q.val; rw [e2]; omega

/-- The feature window's block at point `t` is rows `512 t … 512 t + 511` of the feature array. -/
theorem featWindow_apply (c : Dev nD) (t : Fin cfg2.N) (r q : Fin 512) (p : Fin 4096) (hp : p.val = t.val * 512 + r.val) :
    (iblk2 V c 1 t : Vec Ideal S512x512 .f32) (ix2 r q)
      = (V c main_call0_v1 : S4096x512.Idx → Elt Ideal .f32) (ix2 p q) := by
  obtain ⟨-, -, e0, e1, -⟩ := idx_facts t
  unfold iblk2
  rw [View.read_apply]
  show V c main_call0_v1 _ = V c main_call0_v1 _
  refine congrArg (V c main_call0_v1) (funext fun a => Fin.ext ?_)
  match a with
  | ⟨0, _⟩ => show win2_1.index t (0 : Fin 2) * 512 + 1 * r.val = p.val; rw [e0, hp]; omega
  | ⟨1, _⟩ => show win2_1.index t (1 : Fin 2) * 512 + 1 * q.val = q.val; rw [e1]; omega

/-- The propagation window's block at point `t` is rows `512 t … 512 t + 511` of the layer's propagation matrix. -/
theorem adjWindow_apply (c : Dev nD) (t : Fin cfg2.N) (r : Fin 512) (k : Fin 4096) (p : Fin 4096) (hp : p.val = t.val * 512 + r.val) :
    (iblk2 V c 2 t : Vec Ideal S1x512x4096 .f32) (ix3 0 r k)
      = (V c main_arg1 : S4x4096x4096.Idx → Elt Ideal .f32) (ix3 2 p k) := by
  obtain ⟨-, -, -, -, e0, e1, e2, -⟩ := idx_facts t
  unfold iblk2
  rw [View.read_apply]
  show V c main_arg1 _ = V c main_arg1 _
  refine congrArg (V c main_arg1) (funext fun a => Fin.ext ?_)
  match a with
  | ⟨0, _⟩ => show win2_2.index t (0 : Fin 3) * 1 + 1 * 0 = 2; rw [e0]
  | ⟨1, _⟩ => show win2_2.index t (1 : Fin 3) * 512 + 1 * r.val = p.val; rw [e1, hp]; omega
  | ⟨2, _⟩ => show win2_2.index t (2 : Fin 3) * 4096 + 1 * k.val = k.val; rw [e2]; omega

/-! ## What the layer keeps and what each point writes -/

/-- What the scratch keeps is the dense transform of the feature array by the layer's weights. -/
theorem kept_apply (c : Dev nD) (k : Fin 4096) (q : Fin 512) :
    kept2 V c (ix2 k q) = Spec.transform 2 (V c main_arg2) (V c main_call0_v1) k q := by
  unfold kept2
  rw [pay2_transform]
  unfold Spec.transform
  refine Finset.sum_congr rfl fun j _ => ?_
  rw [featWhole_apply, weightWindow_apply]

/-- One block of result rows, from blocks that are the arrays' rows `p = 512 g + r`, is the layer at those rows. -/
theorem block_eq (A : Spec.Adj) (W : Spec.Wts) (h : Spec.Feat)
    (a : Vec Ideal S1x512x4096 .f32) (T : Vec Ideal S4096x512 .bf16) (hb : Vec Ideal S512x512 .f32)
    (r q : Fin 512) (p : Fin 4096)
    (ha : ∀ k : Fin 4096, a (ix3 0 r k) = A (ix3 2 p k))
    (hT : ∀ k : Fin 4096, T (ix2 k q) = Spec.transform 2 W h k q)
    (hhb : hb (ix2 r q) = h (ix2 p q)) :
    k2_pay2 (F := Ideal) a T hb (ix2 r q) = Spec.layerAt 2 A W h p q := by
  rw [pay2_block]
  unfold Spec.layerAt
  rw [hhb]
  simp only [ha, hT]

/-- What point `t` writes back is block `t` of the layer of the arrays as the call finds them. -/
theorem flushed_eq (c : Dev nD) (t : Fin cfg2.N) :
    (dat2 V c).flushed 4 t
      = ((cfg2.win 4).blk t).view.read (Elt Ideal) (Spec.layer 2 (V c main_arg1) (V c main_arg2) (V c main_call0_v1)) := by
  show (cfg2.win 4).cut (grid2.coords t) ((dat2 V c).after 4 t) = _
  rw [after2_4]
  obtain ⟨-, -, -, -, -, -, -, -, -, -, e0, e1⟩ := idx_facts t
  have ht := point_lt t
  funext j
  rw [View.read_apply]
  obtain ⟨r, q, rfl⟩ : ∃ (r q : Fin 512), j = ix2 r q := ⟨j 0, j 1, eq_ix2 j⟩
  have hr := r.isLt
  have he : ((cfg2.win 4).blk t).view.emb (ix2 r q) = ix2 (⟨t.val * 512 + r.val, by omega⟩ : Fin 4096) q :=
    funext fun a => Fin.ext (by
      match a with
      | ⟨0, _⟩ => show win2_4.index t (0 : Fin 2) * 512 + 1 * r.val = t.val * 512 + r.val; rw [e0]; omega
      | ⟨1, _⟩ => show win2_4.index t (1 : Fin 2) * 512 + 1 * q.val = q.val; rw [e1]; omega)
  show k2_pay2 (F := Ideal) (iblk2 V c 2 t) (kept2 V c) (iblk2 V c 1 t) (ix2 r q)
    = Spec.layer 2 (V c main_arg1) (V c main_arg2) (V c main_call0_v1) (((cfg2.win 4).blk t).view.emb (ix2 r q))
  rw [he, Spec.layer_apply]
  exact block_eq (V c main_arg1) (V c main_arg2) (V c main_call0_v1) _ _ _ r q _
    (fun k => adjWindow_apply V c t r k _ rfl) (fun k => kept_apply V c k q) (featWindow_apply V c t r q _ rfl)

/-! ## The eight blocks tile the result array -/

/-- An index of the result array is in point `t`'s block iff each coordinate is in the block's range on its axis. -/
theorem mem_blk (t : Fin cfg2.N) (i : S4096x512.Idx) :
    i ∈ ((cfg2.win 4).blk t).view.set
      ↔ ∀ a : Fin 2, win2_4.index t a * S512x512.size a ≤ (i a).val
          ∧ (i a).val < win2_4.index t a * S512x512.size a + S512x512.size a := by
  show i ∈ ((View.whole main_call0_v2).slice (win2_4.rect t)).set ↔ _
  rw [View.set_slice_whole, Rect.mem_set_unit]
  exact Iff.rfl

/-- Row `p` of the result is written by point `p / 512`. -/
theorem cover (i : S4096x512.Idx) :
    ∃ t : Fin cfg2.N, (cfg2.win 4).flush t = true ∧ i ∈ ((cfg2.win 4).blk t).view.set := by
  have h0 : (i 0).val < 4096 := (i 0).isLt
  have h1 : (i 1).val < 512 := (i 1).isLt
  have hN : cfg2.N = 8 := N_2
  obtain ⟨t, ht⟩ : ∃ t : Fin cfg2.N, t.val = (i 0).val / 512 := ⟨⟨(i 0).val / 512, by rw [hN]; omega⟩, rfl⟩
  obtain ⟨-, -, -, -, -, -, -, -, -, -, e0, e1⟩ := idx_facts t
  refine ⟨t, flush2_4 t, ?_⟩
  rw [mem_blk]
  intro a
  match a with
  | ⟨0, _⟩ =>
    show win2_4.index t (0 : Fin 2) * 512 ≤ (i 0).val ∧ (i 0).val < win2_4.index t (0 : Fin 2) * 512 + 512
    rw [e0, ht]; omega
  | ⟨1, _⟩ =>
    show win2_4.index t (1 : Fin 2) * 512 ≤ (i 1).val ∧ (i 1).val < win2_4.index t (1 : Fin 2) * 512 + 512
    rw [e1]; omega

end Region

/-! ## The result array -/

/-- After the eight write-backs the result array is the specification's layer 2 of the arrays the call found. -/
theorem layer_eq
    (V : (c : Dev nD) → (b : Ref sig .tc) → Buf (Elt Ideal) ((c : Thread nD τ).loc b)) (c : Dev nD) :
    (Cert.KernelIdeal.Hand.dat2 (F := Ideal) V c).arrAt 4 cfg2.N
      = Cert.Spec.layer 2 (V c main_arg1) (V c main_arg2) (V c main_call0_v1) :=
  (dat2 V c).arrAt_eq_of_cover 4 (Spec.layer 2 (V c main_arg1) (V c main_arg2) (V c main_call0_v1))
    (fun t _ => flushed_eq V c t) cover

end Cert.KernelIdeal.Value2

end
-- ==== Proof.KiValue3.lean ====
/-
  Layer 3's kernel call leaves the specification's layer 3 in its result array.

  The call runs eight grid points; point `t` writes back one block of 512 result rows, rows `512 t … 512 t + 511`. Its
  inputs are blocks of the arrays the call finds: the whole feature array (the previous layer's result) and the layer's
  weight matrix (both read once, at the first point, to form the dense transform that the scratch then keeps), and,
  moving one block of rows per point, the block of features and the block of the layer's propagation matrix. Read at an
  index, a block's coordinate is the block index times the block size plus the coordinate inside the block, so row `r` of
  point `t`'s blocks is row `p = 512 t + r` of the arrays, and the leading block index of the two stacked arrays is the
  layer number 3. With the two payloads read as sums, what point `t` writes at `(r, q)` is
  `max (1/2 · h(p, q) + 1/2 · Σ_k A_3(p, k) · Σ_j h(k, j) · W_3(j, q)) 0`: the layer at `(p, q)`. Every row `p` lies in
  the block of point `p / 512`, so the eight blocks tile the result array and it ends holding the layer everywhere.
-/
import proofs.«138473_g71811853189805_cont_9to1_m_833_2_alg».proof.Proof.KiDat3
import proofs.«138473_g71811853189805_cont_9to1_m_833_2_alg».proof.Proof.KiPayloads

set_option maxRecDepth 16384

noncomputable section

open scoped BigOperators

namespace Cert.KernelIdeal.Value3

open Cert.KernelIdeal Cert.KernelIdeal.Gen Cert.KernelIdeal.Hand Cert.KernelIdeal.Payloads
open Idealize.ShloMosaic Idealize.ShloMosaic.TcCoe Idealize.ShloMosaic.ValueIdx
open Idealize.SL Idealize.SL.Sem
open Idealize.ShloMosaic.Pipeline (Dat Cfg Window)

section Region

variable (V : (c : Dev nD) → (b : Ref sig .tc) → Buf (Elt Ideal) ((c : Thread nD τ).loc b))

/-! ## Where each window's block lies -/

/-- The block indices of the five windows at every grid point: the whole feature array stays at the origin and the weight
    block at the layer's matrix, and the block of features, the block of the layer's propagation matrix and the result
    block move down one block of rows per point. -/
theorem idx_facts : ∀ t : Fin cfg3.N,
    win3_0.index t (0 : Fin 2) = 0 ∧ win3_0.index t (1 : Fin 2) = 0
    ∧ win3_1.index t (0 : Fin 2) = t.val ∧ win3_1.index t (1 : Fin 2) = 0
    ∧ win3_2.index t (0 : Fin 3) = 3 ∧ win3_2.index t (1 : Fin 3) = t.val ∧ win3_2.index t (2 : Fin 3) = 0
    ∧ win3_3.index t (0 : Fin 3) = 3 ∧ win3_3.index t (1 : Fin 3) = 0 ∧ win3_3.index t (2 : Fin 3) = 0
    ∧ win3_4.index t (0 : Fin 2) = t.val ∧ win3_4.index t (1 : Fin 2) = 0 :=
  (by decide +kernel : ∀ t : Fin grid3.N, _)

/-- The grid has eight points. -/
theorem point_lt (t : Fin cfg3.N) : t.val < 8 := Nat.lt_of_lt_of_eq t.isLt N_3

/-! ## Each input block read off its array -/

/-- The whole-array window's block is the feature array. -/
theorem featWhole_apply (c : Dev nD) (k : Fin 4096) (j : Fin 512) :
    (iblk3 V c 0 t3_0 : Vec Ideal S4096x512 .f32) (ix2 k j)
      = (V c main_call0_v2 : S4096x512.Idx → Elt Ideal .f32) (ix2 k j) := by
  obtain ⟨e0, e1, -⟩ := idx_facts t3_0
  unfold iblk3
  rw [View.read_apply]
  show V c main_call0_v2 _ = V c main_call0_v2 _
  refine congrArg (V c main_call0_v2) (funext fun a => Fin.ext ?_)
  match a with
  | ⟨0, _⟩ => show win3_0.index t3_0 (0 : Fin 2) * 4096 + 1 * k.val = k.val; rw [e0]; omega
  | ⟨1, _⟩ => show win3_0.index t3_0 (1 : Fin 2) * 512 + 1 * j.val = j.val; rw [e1]; omega

/-- The weight window's block is the layer's weight matrix. -/
theorem weightWindow_apply (c : Dev nD) (j q : Fin 512) :
    (iblk3 V c 3 t3_0 : Vec Ideal S1x512x512 .f32) (ix3 0 j q)
      = (V c main_arg2 : S4x512x512.Idx → Elt Ideal .f32) (ix3 3 j q) := by
  obtain ⟨-, -, -, -, -, -, -, e0, e1, e2, -⟩ := idx_facts t3_0
  unfold iblk3
  rw [View.read_apply]
  show V c main_arg2 _ = V c main_arg2 _
  refine congrArg (V c main_arg2) (funext fun a => Fin.ext ?_)
  match a with
  | ⟨0, _⟩ => show win3_3.index t3_0 (0 : Fin 3) * 1 + 1 * 0 = 3; rw [e0]
  | ⟨1, _⟩ => show win3_3.index t3_0 (1 : Fin 3) * 512 + 1 * j.val = j.val; rw [e1]; omega
  | ⟨2, _⟩ => show win3_3.index t3_0 (2 : Fin 3) * 512 + 1 * q.val = q.val; rw [e2]; omega

/-- The feature window's block at point `t` is rows `512 t … 512 t + 511` of the feature array. -/
theorem featWindow_apply (c : Dev nD) (t : Fin cfg3.N) (r q : Fin 512) (p : Fin 4096) (hp : p.val = t.val * 512 + r.val) :
    (iblk3 V c 1 t : Vec Ideal S512x512 .f32) (ix2 r q)
      = (V c main_call0_v2 : S4096x512.Idx → Elt Ideal .f32) (ix2 p q) := by
  obtain ⟨-, -, e0, e1, -⟩ := idx_facts t
  unfold iblk3
  rw [View.read_apply]
  show V c main_call0_v2 _ = V c main_call0_v2 _
  refine congrArg (V c main_call0_v2) (funext fun a => Fin.ext ?_)
  match a with
  | ⟨0, _⟩ => show win3_1.index t (0 : Fin 2) * 512 + 1 * r.val = p.val; rw [e0, hp]; omega
  | ⟨1, _⟩ => show win3_1.index t (1 : Fin 2) * 512 + 1 * q.val = q.val; rw [e1]; omega

/-- The propagation window's block at point `t` is rows `512 t … 512 t + 511` of the layer's propagation matrix. -/
theorem adjWindow_apply (c : Dev nD) (t : Fin cfg3.N) (r : Fin 512) (k : Fin 4096) (p : Fin 4096) (hp : p.val = t.val * 512 + r.val) :
    (iblk3 V c 2 t : Vec Ideal S1x512x4096 .f32) (ix3 0 r k)
      = (V c main_arg1 : S4x4096x4096.Idx → Elt Ideal .f32) (ix3 3 p k) := by
  obtain ⟨-, -, -, -, e0, e1, e2, -⟩ := idx_facts t
  unfold iblk3
  rw [View.read_apply]
  show V c main_arg1 _ = V c main_arg1 _
  refine congrArg (V c main_arg1) (funext fun a => Fin.ext ?_)
  match a with
  | ⟨0, _⟩ => show win3_2.index t (0 : Fin 3) * 1 + 1 * 0 = 3; rw [e0]
  | ⟨1, _⟩ => show win3_2.index t (1 : Fin 3) * 512 + 1 * r.val = p.val; rw [e1, hp]; omega
  | ⟨2, _⟩ => show win3_2.index t (2 : Fin 3) * 4096 + 1 * k.val = k.val; rw [e2]; omega

/-! ## What the layer keeps and what each point writes -/

/-- What the scratch keeps is the dense transform of the feature array by the layer's weights. -/
theorem kept_apply (c : Dev nD) (k : Fin 4096) (q : Fin 512) :
    kept3 V c (ix2 k q) = Spec.transform 3 (V c main_arg2) (V c main_call0_v2) k q := by
  unfold kept3
  rw [pay3_transform]
  unfold Spec.transform
  refine Finset.sum_congr rfl fun j _ => ?_
  rw [featWhole_apply, weightWindow_apply]

/-- One block of result rows, from blocks that are the arrays' rows `p = 512 g + r`, is the layer at those rows. -/
theorem block_eq (A : Spec.Adj) (W : Spec.Wts) (h : Spec.Feat)
    (a : Vec Ideal S1x512x4096 .f32) (T : Vec Ideal S4096x512 .bf16) (hb : Vec Ideal S512x512 .f32)
    (r q : Fin 512) (p : Fin 4096)
    (ha : ∀ k : Fin 4096, a (ix3 0 r k) = A (ix3 3 p k))
    (hT : ∀ k : Fin 4096, T (ix2 k q) = Spec.transform 3 W h k q)
    (hhb : hb (ix2 r q) = h (ix2 p q)) :
    k3_pay2 (F := Ideal) a T hb (ix2 r q) = Spec.layerAt 3 A W h p q := by
  rw [pay3_block]
  unfold Spec.layerAt
  rw [hhb]
  simp only [ha, hT]

/-- What point `t` writes back is block `t` of the layer of the arrays as the call finds them. -/
theorem flushed_eq (c : Dev nD) (t : Fin cfg3.N) :
    (dat3 V c).flushed 4 t
      = ((cfg3.win 4).blk t).view.read (Elt Ideal) (Spec.layer 3 (V c main_arg1) (V c main_arg2) (V c main_call0_v2)) := by
  show (cfg3.win 4).cut (grid3.coords t) ((dat3 V c).after 4 t) = _
  rw [after3_4]
  obtain ⟨-, -, -, -, -, -, -, -, -, -, e0, e1⟩ := idx_facts t
  have ht := point_lt t
  funext j
  rw [View.read_apply]
  obtain ⟨r, q, rfl⟩ : ∃ (r q : Fin 512), j = ix2 r q := ⟨j 0, j 1, eq_ix2 j⟩
  have hr := r.isLt
  have he : ((cfg3.win 4).blk t).view.emb (ix2 r q) = ix2 (⟨t.val * 512 + r.val, by omega⟩ : Fin 4096) q :=
    funext fun a => Fin.ext (by
      match a with
      | ⟨0, _⟩ => show win3_4.index t (0 : Fin 2) * 512 + 1 * r.val = t.val * 512 + r.val; rw [e0]; omega
      | ⟨1, _⟩ => show win3_4.index t (1 : Fin 2) * 512 + 1 * q.val = q.val; rw [e1]; omega)
  show k3_pay2 (F := Ideal) (iblk3 V c 2 t) (kept3 V c) (iblk3 V c 1 t) (ix2 r q)
    = Spec.layer 3 (V c main_arg1) (V c main_arg2) (V c main_call0_v2) (((cfg3.win 4).blk t).view.emb (ix2 r q))
  rw [he, Spec.layer_apply]
  exact block_eq (V c main_arg1) (V c main_arg2) (V c main_call0_v2) _ _ _ r q _
    (fun k => adjWindow_apply V c t r k _ rfl) (fun k => kept_apply V c k q) (featWindow_apply V c t r q _ rfl)

/-! ## The eight blocks tile the result array -/

/-- An index of the result array is in point `t`'s block iff each coordinate is in the block's range on its axis. -/
theorem mem_blk (t : Fin cfg3.N) (i : S4096x512.Idx) :
    i ∈ ((cfg3.win 4).blk t).view.set
      ↔ ∀ a : Fin 2, win3_4.index t a * S512x512.size a ≤ (i a).val
          ∧ (i a).val < win3_4.index t a * S512x512.size a + S512x512.size a := by
  show i ∈ ((View.whole main_v0).slice (win3_4.rect t)).set ↔ _
  rw [View.set_slice_whole, Rect.mem_set_unit]
  exact Iff.rfl

/-- Row `p` of the result is written by point `p / 512`. -/
theorem cover (i : S4096x512.Idx) :
    ∃ t : Fin cfg3.N, (cfg3.win 4).flush t = true ∧ i ∈ ((cfg3.win 4).blk t).view.set := by
  have h0 : (i 0).val < 4096 := (i 0).isLt
  have h1 : (i 1).val < 512 := (i 1).isLt
  have hN : cfg3.N = 8 := N_3
  obtain ⟨t, ht⟩ : ∃ t : Fin cfg3.N, t.val = (i 0).val / 512 := ⟨⟨(i 0).val / 512, by rw [hN]; omega⟩, rfl⟩
  obtain ⟨-, -, -, -, -, -, -, -, -, -, e0, e1⟩ := idx_facts t
  refine ⟨t, flush3_4 t, ?_⟩
  rw [mem_blk]
  intro a
  match a with
  | ⟨0, _⟩ =>
    show win3_4.index t (0 : Fin 2) * 512 ≤ (i 0).val ∧ (i 0).val < win3_4.index t (0 : Fin 2) * 512 + 512
    rw [e0, ht]; omega
  | ⟨1, _⟩ =>
    show win3_4.index t (1 : Fin 2) * 512 ≤ (i 1).val ∧ (i 1).val < win3_4.index t (1 : Fin 2) * 512 + 512
    rw [e1]; omega

end Region

/-! ## The result array -/

/-- After the eight write-backs the result array is the specification's layer 3 of the arrays the call found. -/
theorem layer_eq
    (V : (c : Dev nD) → (b : Ref sig .tc) → Buf (Elt Ideal) ((c : Thread nD τ).loc b)) (c : Dev nD) :
    (Cert.KernelIdeal.Hand.dat3 (F := Ideal) V c).arrAt 4 cfg3.N
      = Cert.Spec.layer 3 (V c main_arg1) (V c main_arg2) (V c main_call0_v2) :=
  (dat3 V c).arrAt_eq_of_cover 4 (Spec.layer 3 (V c main_arg1) (V c main_arg2) (V c main_call0_v2))
    (fun t _ => flushed_eq V c t) cover

end Cert.KernelIdeal.Value3

end
-- ==== Proof.KiNet.lean ====
/-
  The kernel's result is the network.

  Each layer's result array is the specification's layer of the arrays the layer was entered with. The propagation
  matrices and the weights are arguments, which no layer writes, so every layer reads them as launched; the features a
  layer reads are the launch features for the first layer and the previous layer's result for the others. Chaining the
  four gives the network of the three argument arrays.
-/
import proofs.«138473_g71811853189805_cont_9to1_m_833_2_alg».proof.Proof.KiRun
import proofs.«138473_g71811853189805_cont_9to1_m_833_2_alg».proof.Proof.KiValue0
import proofs.«138473_g71811853189805_cont_9to1_m_833_2_alg».proof.Proof.KiValue1
import proofs.«138473_g71811853189805_cont_9to1_m_833_2_alg».proof.Proof.KiValue2
import proofs.«138473_g71811853189805_cont_9to1_m_833_2_alg».proof.Proof.KiValue3

set_option maxRecDepth 16384

noncomputable section

namespace Cert.KernelIdeal.Net

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ)

/-- The first layer reads the launch contents. -/
theorem res0_eq (c : Dev nD) :
    res0 (F := Ideal) m c = Cert.Spec.layer 0 (m ((c : Thread nD τ).loc main_arg1)) (m ((c : Thread nD τ).loc main_arg2)) (m ((c : Thread nD τ).loc main_arg0)) := by
  unfold res0; exact Cert.KernelIdeal.Value0.layer_eq (R0 m) c

/-- The second layer reads the first's result. -/
theorem res1_eq (c : Dev nD) :
    res1 (F := Ideal) m c = Cert.Spec.layer 1 (m ((c : Thread nD τ).loc main_arg1)) (m ((c : Thread nD τ).loc main_arg2)) (res0 (F := Ideal) m c) := by
  unfold res1
  rw [Cert.KernelIdeal.Value1.layer_eq (R1 m) c, W1_res, W1_of_ne m c main_arg1 (by decide), W1_of_ne m c main_arg2 (by decide)]

/-- The third layer reads the second's result. -/
theorem res2_eq (c : Dev nD) :
    res2 (F := Ideal) m c = Cert.Spec.layer 2 (m ((c : Thread nD τ).loc main_arg1)) (m ((c : Thread nD τ).loc main_arg2)) (res1 (F := Ideal) m c) := by
  unfold res2
  rw [Cert.KernelIdeal.Value2.layer_eq (R2 m) c, W2_res, W2_of_ne m c main_arg1 (by decide), W2_of_ne m c main_arg2 (by decide),
    W1_of_ne m c main_arg1 (by decide), W1_of_ne m c main_arg2 (by decide)]

/-- The fourth layer reads the third's result. -/
theorem res3_eq (c : Dev nD) :
    res3 (F := Ideal) m c = Cert.Spec.layer 3 (m ((c : Thread nD τ).loc main_arg1)) (m ((c : Thread nD τ).loc main_arg2)) (res2 (F := Ideal) m c) := by
  unfold res3
  rw [Cert.KernelIdeal.Value3.layer_eq (R3 m) c, W3_res, W3_of_ne m c main_arg1 (by decide), W3_of_ne m c main_arg2 (by decide),
    W2_of_ne m c main_arg1 (by decide), W2_of_ne m c main_arg2 (by decide), W1_of_ne m c main_arg1 (by decide), W1_of_ne m c main_arg2 (by decide)]

/-- The last result array holds the network of the three argument arrays. -/
theorem res3_net (c : Dev nD) :
    res3 (F := Ideal) m c = Cert.Spec.net (m ((c : Thread nD τ).loc main_arg0)) (m ((c : Thread nD τ).loc main_arg1)) (m ((c : Thread nD τ).loc main_arg2)) := by
  rw [res3_eq, res2_eq, res1_eq, res0_eq]; rfl

end Cert.KernelIdeal.Net

end
-- ==== Proof.RefIsSpec.lean ====
/-
  The reference program computes the specification.

  The reference runs four layers, each twelve stages: it slices and reshapes the layer's weight matrix `W_l`, multiplies the
  current features by it, slices and reshapes the layer's propagation matrix `A_l`, multiplies that by the product, halves
  the current features and the propagated product, adds the two halves and takes the maximum with zero. Read index by index
  at the extended reals, the slice and reshape pick `W_l(j, q)` and `A_l(p, k)` (the reshape's row-major arithmetic is
  `(j · 512 + q) / 512 % 512 = j` and `(j · 512 + q) % 512 = q`, and the same with 4096), each product is the finite sum the
  specification writes, and the remaining stages are the pointwise halves, sum and maximum. So the stage that ends layer `l`
  is `Cert.Spec.layer l` of the stage that ends layer `l - 1` (of the input features for `l = 0`), and the last stage is
  `Cert.Spec.net`.
-/
import proofs.«138473_g71811853189805_cont_9to1_m_833_2_alg».proof.Proof.Gen.ReferenceIdeal.Read
import proofs.«138473_g71811853189805_cont_9to1_m_833_2_alg».proof.Proof.Spec

noncomputable section

open scoped BigOperators

namespace Cert.RefValue

open Cert.ReferenceIdeal Cert.ReferenceIdeal.Read Idealize.ShloMosaic Idealize.ShloMosaic.ValueIdx

/-- Node features as the reference program types them. -/
abbrev X0 : Type := (⟨S4096x512, .f32⟩ : BufTy).Contents (Elt Ideal)
/-- The four propagation matrices as the reference program types them. -/
abbrev X1 : Type := (⟨S4x4096x4096, .f32⟩ : BufTy).Contents (Elt Ideal)
/-- The four weight matrices as the reference program types them. -/
abbrev X2 : Type := (⟨S4x512x512, .f32⟩ : BufTy).Contents (Elt Ideal)

/-! ## Layer 0 -/

/-- The sliced and reshaped weight matrix of layer 0 is `W_0`. -/
theorem weight0 (x2 : X2) (j q : Fin 512) : val_main_v1 (F := Ideal) x2 (ix2 j q) = x2 (ix3 0 j q) := by
  rw [val_main_v1_apply, val_main_v0_apply]
  have hj := j.isLt
  have hq := q.isLt
  exact congrArg x2 (funext fun a => Fin.ext (by
    match a with
    | ⟨0, _⟩ => rfl
    | ⟨1, _⟩ => show (j.val * 512 + q.val) / 512 % 512 = j.val; omega
    | ⟨2, _⟩ => show (j.val * 512 + q.val) % 512 = q.val; omega))

/-- The sliced and reshaped propagation matrix of layer 0 is `A_0`. -/
theorem adj0 (x1 : X1) (p k : Fin 4096) : val_main_v4 (F := Ideal) x1 (ix2 p k) = x1 (ix3 0 p k) := by
  rw [val_main_v4_apply, val_main_v3_apply]
  have hp := p.isLt
  have hk := k.isLt
  exact congrArg x1 (funext fun a => Fin.ext (by
    match a with
    | ⟨0, _⟩ => rfl
    | ⟨1, _⟩ => show (p.val * 4096 + k.val) / 4096 % 4096 = p.val; omega
    | ⟨2, _⟩ => show (p.val * 4096 + k.val) % 4096 = k.val; omega))

/-- The first product of layer 0 is the dense transform of the input features. -/
theorem transform0 (x0 : X0) (x2 : X2) (k : Fin 4096) (q : Fin 512) :
    val_main_v2 (F := Ideal) x0 x2 (ix2 k q) = Spec.transform 0 x2 x0 k q := by
  rw [val_main_v2_apply]
  unfold Spec.transform
  refine Finset.sum_congr rfl fun j _ => ?_
  have el : lidx_main_v2 (ix2 k q) j = ix2 k j := funext fun a => by
    match a with
    | ⟨0, _⟩ => rfl
    | ⟨1, _⟩ => rfl
  have er : ridx_main_v2 (ix2 k q) j = ix2 j q := funext fun a => by
    match a with
    | ⟨0, _⟩ => rfl
    | ⟨1, _⟩ => rfl
  rw [el, er, weight0]

/-- The second product of layer 0 propagates the transformed features along `A_0`. -/
theorem propagate0 (x0 : X0) (x1 : X1) (x2 : X2) (p : Fin 4096) (q : Fin 512) :
    val_main_v5 (F := Ideal) x0 x1 x2 (ix2 p q) = ∑ k : Fin 4096, x1 (ix3 0 p k) * Spec.transform 0 x2 x0 k q := by
  rw [val_main_v5_apply]
  refine Finset.sum_congr rfl fun k _ => ?_
  have el : lidx_main_v5 (ix2 p q) k = ix2 p k := funext fun a => by
    match a with
    | ⟨0, _⟩ => rfl
    | ⟨1, _⟩ => rfl
  have er : ridx_main_v5 (ix2 p q) k = ix2 k q := funext fun a => by
    match a with
    | ⟨0, _⟩ => rfl
    | ⟨1, _⟩ => rfl
  rw [el, er, adj0, transform0]

/-- The stage that ends layer 0 is the specification's layer 0 of the input features. -/
theorem layer0 (x0 : X0) (x1 : X1) (x2 : X2) :
    val_main_v11 (F := Ideal) x0 x1 x2 = Spec.layer 0 x1 x2 x0 := by
  funext i
  obtain ⟨p, q, rfl⟩ : ∃ (p : Fin 4096) (q : Fin 512), i = ix2 p q := ⟨i 0, i 1, eq_ix2 i⟩
  rw [Spec.layer_apply, val_main_v11_apply, val_main_v10_apply, val_main_v7_apply, val_main_v6_apply,
    val_main_cst_apply, val_main_v9_apply, val_main_v8_apply, val_main_cst_0_apply, propagate0,
    val_main_call0_v0_apply, val_main_call0_cst_apply]
  rfl

/-! ## Layer 1 -/

/-- The sliced and reshaped weight matrix of layer 1 is `W_1`. -/
theorem weight1 (x2 : X2) (j q : Fin 512) : val_main_v13 (F := Ideal) x2 (ix2 j q) = x2 (ix3 1 j q) := by
  rw [val_main_v13_apply, val_main_v12_apply]
  have hj := j.isLt
  have hq := q.isLt
  exact congrArg x2 (funext fun a => Fin.ext (by
    match a with
    | ⟨0, _⟩ => rfl
    | ⟨1, _⟩ => show (j.val * 512 + q.val) / 512 % 512 = j.val; omega
    | ⟨2, _⟩ => show (j.val * 512 + q.val) % 512 = q.val; omega))

/-- The sliced and reshaped propagation matrix of layer 1 is `A_1`. -/
theorem adj1 (x1 : X1) (p k : Fin 4096) : val_main_v16 (F := Ideal) x1 (ix2 p k) = x1 (ix3 1 p k) := by
  rw [val_main_v16_apply, val_main_v15_apply]
  have hp := p.isLt
  have hk := k.isLt
  exact congrArg x1 (funext fun a => Fin.ext (by
    match a with
    | ⟨0, _⟩ => rfl
    | ⟨1, _⟩ => show (p.val * 4096 + k.val) / 4096 % 4096 = p.val; omega
    | ⟨2, _⟩ => show (p.val * 4096 + k.val) % 4096 = k.val; omega))

/-- The first product of layer 1 is the dense transform of layer 0's result. -/
theorem transform1 (x0 : X0) (x1 : X1) (x2 : X2) (k : Fin 4096) (q : Fin 512) :
    val_main_v14 (F := Ideal) x0 x1 x2 (ix2 k q)
      = Spec.transform 1 x2 (val_main_v11 (F := Ideal) x0 x1 x2) k q := by
  rw [val_main_v14_apply]
  unfold Spec.transform
  refine Finset.sum_congr rfl fun j _ => ?_
  have el : lidx_main_v14 (ix2 k q) j = ix2 k j := funext fun a => by
    match a with
    | ⟨0, _⟩ => rfl
    | ⟨1, _⟩ => rfl
  have er : ridx_main_v14 (ix2 k q) j = ix2 j q := funext fun a => by
    match a with
    | ⟨0, _⟩ => rfl
    | ⟨1, _⟩ => rfl
  rw [el, er, weight1]

/-- The second product of layer 1 propagates the transformed features along `A_1`. -/
theorem propagate1 (x0 : X0) (x1 : X1) (x2 : X2) (p : Fin 4096) (q : Fin 512) :
    val_main_v17 (F := Ideal) x0 x1 x2 (ix2 p q)
      = ∑ k : Fin 4096, x1 (ix3 1 p k) * Spec.transform 1 x2 (val_main_v11 (F := Ideal) x0 x1 x2) k q := by
  rw [val_main_v17_apply]
  refine Finset.sum_congr rfl fun k _ => ?_
  have el : lidx_main_v17 (ix2 p q) k = ix2 p k := funext fun a => by
    match a with
    | ⟨0, _⟩ => rfl
    | ⟨1, _⟩ => rfl
  have er : ridx_main_v17 (ix2 p q) k = ix2 k q := funext fun a => by
    match a with
    | ⟨0, _⟩ => rfl
    | ⟨1, _⟩ => rfl
  rw [el, er, adj1, transform1]

/-- The stage that ends layer 1 is the specification's layer 1 of the stage that ends layer 0. -/
theorem layer1 (x0 : X0) (x1 : X1) (x2 : X2) :
    val_main_v23 (F := Ideal) x0 x1 x2 = Spec.layer 1 x1 x2 (val_main_v11 (F := Ideal) x0 x1 x2) := by
  funext i
  obtain ⟨p, q, rfl⟩ : ∃ (p : Fin 4096) (q : Fin 512), i = ix2 p q := ⟨i 0, i 1, eq_ix2 i⟩
  rw [Spec.layer_apply, val_main_v23_apply, val_main_v22_apply, val_main_v19_apply, val_main_v18_apply,
    val_main_cst_1_apply, val_main_v21_apply, val_main_v20_apply, val_main_cst_2_apply, propagate1,
    val_main_call1_v0_apply, val_main_call1_cst_apply]
  generalize val_main_v11 (F := Ideal) x0 x1 x2 = h
  rfl

/-! ## Layer 2 -/

/-- The sliced and reshaped weight matrix of layer 2 is `W_2`. -/
theorem weight2 (x2 : X2) (j q : Fin 512) : val_main_v25 (F := Ideal) x2 (ix2 j q) = x2 (ix3 2 j q) := by
  rw [val_main_v25_apply, val_main_v24_apply]
  have hj := j.isLt
  have hq := q.isLt
  exact congrArg x2 (funext fun a => Fin.ext (by
    match a with
    | ⟨0, _⟩ => rfl
    | ⟨1, _⟩ => show (j.val * 512 + q.val) / 512 % 512 = j.val; omega
    | ⟨2, _⟩ => show (j.val * 512 + q.val) % 512 = q.val; omega))

/-- The sliced and reshaped propagation matrix of layer 2 is `A_2`. -/
theorem adj2 (x1 : X1) (p k : Fin 4096) : val_main_v28 (F := Ideal) x1 (ix2 p k) = x1 (ix3 2 p k) := by
  rw [val_main_v28_apply, val_main_v27_apply]
  have hp := p.isLt
  have hk := k.isLt
  exact congrArg x1 (funext fun a => Fin.ext (by
    match a with
    | ⟨0, _⟩ => rfl
    | ⟨1, _⟩ => show (p.val * 4096 + k.val) / 4096 % 4096 = p.val; omega
    | ⟨2, _⟩ => show (p.val * 4096 + k.val) % 4096 = k.val; omega))

/-- The first product of layer 2 is the dense transform of layer 1's result. -/
theorem transform2 (x0 : X0) (x1 : X1) (x2 : X2) (k : Fin 4096) (q : Fin 512) :
    val_main_v26 (F := Ideal) x0 x1 x2 (ix2 k q)
      = Spec.transform 2 x2 (val_main_v23 (F := Ideal) x0 x1 x2) k q := by
  rw [val_main_v26_apply]
  unfold Spec.transform
  refine Finset.sum_congr rfl fun j _ => ?_
  have el : lidx_main_v26 (ix2 k q) j = ix2 k j := funext fun a => by
    match a with
    | ⟨0, _⟩ => rfl
    | ⟨1, _⟩ => rfl
  have er : ridx_main_v26 (ix2 k q) j = ix2 j q := funext fun a => by
    match a with
    | ⟨0, _⟩ => rfl
    | ⟨1, _⟩ => rfl
  rw [el, er, weight2]

/-- The second product of layer 2 propagates the transformed features along `A_2`. -/
theorem propagate2 (x0 : X0) (x1 : X1) (x2 : X2) (p : Fin 4096) (q : Fin 512) :
    val_main_v29 (F := Ideal) x0 x1 x2 (ix2 p q)
      = ∑ k : Fin 4096, x1 (ix3 2 p k) * Spec.transform 2 x2 (val_main_v23 (F := Ideal) x0 x1 x2) k q := by
  rw [val_main_v29_apply]
  refine Finset.sum_congr rfl fun k _ => ?_
  have el : lidx_main_v29 (ix2 p q) k = ix2 p k := funext fun a => by
    match a with
    | ⟨0, _⟩ => rfl
    | ⟨1, _⟩ => rfl
  have er : ridx_main_v29 (ix2 p q) k = ix2 k q := funext fun a => by
    match a with
    | ⟨0, _⟩ => rfl
    | ⟨1, _⟩ => rfl
  rw [el, er, adj2, transform2]

/-- The stage that ends layer 2 is the specification's layer 2 of the stage that ends layer 1. -/
theorem layer2 (x0 : X0) (x1 : X1) (x2 : X2) :
    val_main_v35 (F := Ideal) x0 x1 x2 = Spec.layer 2 x1 x2 (val_main_v23 (F := Ideal) x0 x1 x2) := by
  funext i
  obtain ⟨p, q, rfl⟩ : ∃ (p : Fin 4096) (q : Fin 512), i = ix2 p q := ⟨i 0, i 1, eq_ix2 i⟩
  rw [Spec.layer_apply, val_main_v35_apply, val_main_v34_apply, val_main_v31_apply, val_main_v30_apply,
    val_main_cst_3_apply, val_main_v33_apply, val_main_v32_apply, val_main_cst_4_apply, propagate2,
    val_main_call2_v0_apply, val_main_call2_cst_apply]
  generalize val_main_v23 (F := Ideal) x0 x1 x2 = h
  rfl

/-! ## Layer 3 -/

/-- The sliced and reshaped weight matrix of layer 3 is `W_3`. -/
theorem weight3 (x2 : X2) (j q : Fin 512) : val_main_v37 (F := Ideal) x2 (ix2 j q) = x2 (ix3 3 j q) := by
  rw [val_main_v37_apply, val_main_v36_apply]
  have hj := j.isLt
  have hq := q.isLt
  exact congrArg x2 (funext fun a => Fin.ext (by
    match a with
    | ⟨0, _⟩ => rfl
    | ⟨1, _⟩ => show (j.val * 512 + q.val) / 512 % 512 = j.val; omega
    | ⟨2, _⟩ => show (j.val * 512 + q.val) % 512 = q.val; omega))

/-- The sliced and reshaped propagation matrix of layer 3 is `A_3`. -/
theorem adj3 (x1 : X1) (p k : Fin 4096) : val_main_v40 (F := Ideal) x1 (ix2 p k) = x1 (ix3 3 p k) := by
  rw [val_main_v40_apply, val_main_v39_apply]
  have hp := p.isLt
  have hk := k.isLt
  exact congrArg x1 (funext fun a => Fin.ext (by
    match a with
    | ⟨0, _⟩ => rfl
    | ⟨1, _⟩ => show (p.val * 4096 + k.val) / 4096 % 4096 = p.val; omega
    | ⟨2, _⟩ => show (p.val * 4096 + k.val) % 4096 = k.val; omega))

/-- The first product of layer 3 is the dense transform of layer 2's result. -/
theorem transform3 (x0 : X0) (x1 : X1) (x2 : X2) (k : Fin 4096) (q : Fin 512) :
    val_main_v38 (F := Ideal) x0 x1 x2 (ix2 k q)
      = Spec.transform 3 x2 (val_main_v35 (F := Ideal) x0 x1 x2) k q := by
  rw [val_main_v38_apply]
  unfold Spec.transform
  refine Finset.sum_congr rfl fun j _ => ?_
  have el : lidx_main_v38 (ix2 k q) j = ix2 k j := funext fun a => by
    match a with
    | ⟨0, _⟩ => rfl
    | ⟨1, _⟩ => rfl
  have er : ridx_main_v38 (ix2 k q) j = ix2 j q := funext fun a => by
    match a with
    | ⟨0, _⟩ => rfl
    | ⟨1, _⟩ => rfl
  rw [el, er, weight3]

/-- The second product of layer 3 propagates the transformed features along `A_3`. -/
theorem propagate3 (x0 : X0) (x1 : X1) (x2 : X2) (p : Fin 4096) (q : Fin 512) :
    val_main_v41 (F := Ideal) x0 x1 x2 (ix2 p q)
      = ∑ k : Fin 4096, x1 (ix3 3 p k) * Spec.transform 3 x2 (val_main_v35 (F := Ideal) x0 x1 x2) k q := by
  rw [val_main_v41_apply]
  refine Finset.sum_congr rfl fun k _ => ?_
  have el : lidx_main_v41 (ix2 p q) k = ix2 p k := funext fun a => by
    match a with
    | ⟨0, _⟩ => rfl
    | ⟨1, _⟩ => rfl
  have er : ridx_main_v41 (ix2 p q) k = ix2 k q := funext fun a => by
    match a with
    | ⟨0, _⟩ => rfl
    | ⟨1, _⟩ => rfl
  rw [el, er, adj3, transform3]

/-- The stage that ends layer 3 is the specification's layer 3 of the stage that ends layer 2. -/
theorem layer3 (x0 : X0) (x1 : X1) (x2 : X2) :
    val_main_v47 (F := Ideal) x0 x1 x2 = Spec.layer 3 x1 x2 (val_main_v35 (F := Ideal) x0 x1 x2) := by
  funext i
  obtain ⟨p, q, rfl⟩ : ∃ (p : Fin 4096) (q : Fin 512), i = ix2 p q := ⟨i 0, i 1, eq_ix2 i⟩
  rw [Spec.layer_apply, val_main_v47_apply, val_main_v46_apply, val_main_v43_apply, val_main_v42_apply,
    val_main_cst_5_apply, val_main_v45_apply, val_main_v44_apply, val_main_cst_6_apply, propagate3,
    val_main_call3_v0_apply, val_main_call3_cst_apply]
  generalize val_main_v35 (F := Ideal) x0 x1 x2 = h
  rfl

/-! ## The four layers in order -/

/-- The reference program's result is the network of the specification. -/
theorem ref_eq
    (x0 : (⟨Cert.ReferenceIdeal.S4096x512, .f32⟩ : BufTy).Contents (Elt Ideal))
    (x1 : (⟨Cert.ReferenceIdeal.S4x4096x4096, .f32⟩ : BufTy).Contents (Elt Ideal))
    (x2 : (⟨Cert.ReferenceIdeal.S4x512x512, .f32⟩ : BufTy).Contents (Elt Ideal)) :
    Cert.ReferenceIdeal.Read.val_main_v47 (F := Ideal) x0 x1 x2 = Cert.Spec.net x0 x1 x2 := by
  rw [layer3, layer2, layer1, layer0]
  rfl

end Cert.RefValue

end
-- ==== Proof.lean ====
/-
  The certificate: a four-layer propagation network, each layer
      h ← max(1/2 · h + 1/2 · (A_l · (h · W_l)), 0),
  computed by a kernel that runs the layers one after the other, each over eight blocks of 512 rows with the dense
  transform h · W_l formed once and kept, against the plain four-layer reference.

  Both programs, read on the extended reals, compute the same finite sums in the same grouping (the change of float
  format inside the kernel is the identity there, and the two halves and the zero are the same words on both sides), so
  no law beyond reading each side index by index is needed and the precondition is never opened.

  The kernel's run, at either reading of the floats, goes layer by layer: each layer's eight grid points leave its
  result array at the block payloads of the entry contents, the other buffers untouched, so the arguments end as
  launched (the two frames) and, on the extended reals, the last result is the network of the arguments. The
  reference's run is its operations' composed term, which read index by index is the same network. Nothing was
  rewritten in idealizing the kernel, so that conjunct is trivial.
-/
import proofs.«138473_g71811853189805_cont_9to1_m_833_2_alg».proof.Defs
import proofs.«138473_g71811853189805_cont_9to1_m_833_2_alg».proof.Proof.Gen.Kernel
import proofs.«138473_g71811853189805_cont_9to1_m_833_2_alg».proof.Proof.Gen.KernelIdeal
import proofs.«138473_g71811853189805_cont_9to1_m_833_2_alg».proof.Proof.Gen.ReferenceIdeal
import proofs.«138473_g71811853189805_cont_9to1_m_833_2_alg».proof.Proof.Gen.Pre_finite_inputs
import proofs.«138473_g71811853189805_cont_9to1_m_833_2_alg».proof.Proof.Gen.ReferenceIdeal.Read
import proofs.«138473_g71811853189805_cont_9to1_m_833_2_alg».proof.Proof.KbRun
import proofs.«138473_g71811853189805_cont_9to1_m_833_2_alg».proof.Proof.KiRun
import proofs.«138473_g71811853189805_cont_9to1_m_833_2_alg».proof.Proof.KiNet
import proofs.«138473_g71811853189805_cont_9to1_m_833_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel [Cert.Kernel.Facts] [Cert.Pre_finite_inputs.Facts] : Cert.frame_Kernel := fun m ρ _ =>
  (θ_run Cert.Kernel.defs _ _).mono (fun _ h c => (h c).2) (Cert.Kernel.Hand.run (F := Bits) m ρ)

/-- So does its reading on the extended reals. -/
theorem frame_kernelIdeal [Cert.KernelIdeal.Facts] [Cert.Pre_finite_inputs.Facts] : Cert.frame_KernelIdeal := fun m ρ _ =>
  (θ_run Cert.KernelIdeal.defs _ _).mono (fun _ h c => (h c).2) (Cert.KernelIdeal.Hand.run (F := Ideal) m ρ)

/-- The reference's frame is its run with the result dropped. -/
theorem frame_reference [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- On the extended reals both programs end at the network of the argument arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Hand.res3 (F := Ideal) m c, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.RefValue.ref_eq, (hagree c).1, (hagree c).2.1, (hagree c).2.2]
  exact (Cert.KernelIdeal.Net.res3_net m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
